-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x10000x128 : Shape := ⟨3, ![1, 10000, 128]⟩
abbrev S1x10000x10000 : Shape := ⟨3, ![1, 10000, 10000]⟩
abbrev S128x32 : Shape := ⟨2, ![128, 32]⟩
abbrev S10000x32 : Shape := ⟨2, ![10000, 32]⟩
abbrev S32 : Shape := ⟨1, ![32]⟩
abbrev S_ : Shape := ⟨0, ![]⟩

class Facts : Prop where
  bcast_S_S1x10000x128 : S_.BroadcastsInDim S1x10000x128 (![] : Fin 0 → Fin S1x10000x128.rank)
  reducesTo_S1x10000x128_S_d0_1_2 : S1x10000x128.ReducesTo [0, 1, 2] S_
  h_S_ : 0 < S_.numel
  bcast_S_S1x10000x10000 : S_.BroadcastsInDim S1x10000x10000 (![] : Fin 0 → Fin S1x10000x10000.rank)
  reducesTo_S1x10000x10000_S_d0_1_2 : S1x10000x10000.ReducesTo [0, 1, 2] S_
  bcast_S_S128x32 : S_.BroadcastsInDim S128x32 (![] : Fin 0 → Fin S128x32.rank)
  reducesTo_S128x32_S_d0_1 : S128x32.ReducesTo [0, 1] S_
  bcast_S_S10000x32 : S_.BroadcastsInDim S10000x32 (![] : Fin 0 → Fin S10000x32.rank)
  reducesTo_S10000x32_S_d0_1 : S10000x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg4 : FVec F S32 .f32) (main_v13 : IVec S_ 1) (main_v16 : IVec S10000x32 1) : IVec S_ 1 :=
  let main_c_5 : IVec S_ 1 := constantI S_ 1 1#1
  let main_v17 : IVec S_ 1 := (fun x v => Host.reduce IntOp.andi x v reducesTo_S10000x32_S_d0_1 h_S_) main_v16 main_c_5
  let main_v18 : IVec S_ 1 := andi main_v13 main_v17
  let main_v19 : FVec F S32 .f32 := Host.absf main_arg4
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  main_v23

def fn {F : FTy → Type} [FloatOps F] (main_arg0 : FVec F S1x10000x128 .f32) (main_arg1 : FVec F S1x10000x10000 .f32) (main_arg2 : FVec F S128x32 .f32) (main_arg3 : FVec F S10000x32 .f32) (main_arg4 : FVec F S32 .f32) : IVec S_ 1 :=
  let main_v0 : FVec F S1x10000x128 .f32 := Host.absf main_arg0
  let main_cst : FVec F S_ .f32 := constant S_ .f32 0x7F800000#32
  let main_v1 : FVec F S1x10000x128 .f32 := broadcastInDim S1x10000x128 ![] bcast_S_S1x10000x128 main_cst
  let main_v2 : IVec S1x10000x128 1 := cmpf .olt main_v0 main_v1
  let main_c : IVec S_ 1 := constantI S_ 1 1#1
  let main_v3 : IVec S_ 1 := (fun x v => Host.reduce IntOp.andi x v reducesTo_S1x10000x128_S_d0_1_2 h_S_) main_v2 main_c
  let main_v4 : FVec F S1x10000x10000 .f32 := Host.absf main_arg1
  let main_cst_0 : FVec F S_ .f32 := constant S_ .f32 0x7F800000#32
  let main_v5 : FVec F S1x10000x10000 .f32 := broadcastInDim S1x10000x10000 ![] bcast_S_S1x10000x10000 main_cst_0
  let main_v6 : IVec S1x10000x10000 1 := cmpf .olt main_v4 main_v5
  let main_c_1 : IVec S_ 1 := constantI S_ 1 1#1
  let main_v7 : IVec S_ 1 := (fun x v => Host.reduce IntOp.andi x v reducesTo_S1x10000x10000_S_d0_1_2 h_S_) main_v6 main_c_1
  let main_v8 : IVec S_ 1 := andi main_v3 main_v7
  let main_v9 : FVec F S128x32 .f32 := Host.absf main_arg2
  let main_cst_2 : FVec F S_ .f32 := constant S_ .f32 0x7F800000#32
  let main_v10 : FVec F S128x32 .f32 := broadcastInDim S128x32 ![] bcast_S_S128x32 main_cst_2
  let main_v11 : IVec S128x32 1 := cmpf .olt main_v9 main_v10
  let main_c_3 : IVec S_ 1 := constantI S_ 1 1#1
  let main_v12 : IVec S_ 1 := (fun x v => Host.reduce IntOp.andi x v reducesTo_S128x32_S_d0_1 h_S_) main_v11 main_c_3
  let main_v13 : IVec S_ 1 := andi main_v8 main_v12
  let main_v14 : FVec F S10000x32 .f32 := Host.absf main_arg3
  let main_cst_4 : FVec F S_ .f32 := constant S_ .f32 0x7F800000#32
  let main_v15 : FVec F S10000x32 .f32 := broadcastInDim S10000x32 ![] bcast_S_S10000x32 main_cst_4
  let main_v16 : IVec S10000x32 1 := cmpf .olt main_v14 main_v15
  fn_part1 (F := F) main_arg4 main_v13 main_v16
-- ==== Kernel.lean ====
abbrev S1x10000x128 : Shape := ⟨3, ![1, 10000, 128]⟩
abbrev S1x10000x10000 : Shape := ⟨3, ![1, 10000, 10000]⟩
abbrev S128x32 : Shape := ⟨2, ![128, 32]⟩
abbrev S10000x32 : Shape := ⟨2, ![10000, 32]⟩
abbrev S32 : Shape := ⟨1, ![32]⟩
abbrev S10000x128 : Shape := ⟨2, ![10000, 128]⟩
abbrev S10000x10000 : Shape := ⟨2, ![10000, 10000]⟩
abbrev S1x32 : Shape := ⟨2, ![1, 32]⟩
abbrev S200x10000 : Shape := ⟨2, ![200, 10000]⟩
abbrev S50x200 : Shape := ⟨2, ![50, 200]⟩
abbrev S32x200 : Shape := ⟨2, ![32, 200]⟩
abbrev S200 : Shape := ⟨1, ![200]⟩
abbrev S1x200 : Shape := ⟨2, ![1, 200]⟩
abbrev S200x32 : Shape := ⟨2, ![200, 32]⟩

abbrev nBuf : Space → Nat
  | .hbm => 9
  | .vmem => 11
  | .smem => 0
  | _ => 0

abbrev bufTy : (tb : Table) → Fin (tcTables nBuf tb) → BufTy
  | .hbm, ⟨0, _⟩ => ⟨S1x10000x128, .f32⟩
  | .hbm, ⟨1, _⟩ => ⟨S1x10000x10000, .f32⟩
  | .hbm, ⟨2, _⟩ => ⟨S128x32, .f32⟩
  | .hbm, ⟨3, _⟩ => ⟨S10000x32, .f32⟩
  | .hbm, ⟨4, _⟩ => ⟨S32, .f32⟩
  | .hbm, ⟨5, _⟩ => ⟨S10000x128, .f32⟩
  | .hbm, ⟨6, _⟩ => ⟨S10000x10000, .f32⟩
  | .hbm, ⟨7, _⟩ => ⟨S1x32, .f32⟩
  | .hbm, ⟨8, _⟩ => ⟨S1x32, .f32⟩
  | .local _ .vmem, ⟨0, _⟩ => ⟨S200x10000, .f32⟩
  | .local _ .vmem, ⟨1, _⟩ => ⟨S200x10000, .f32⟩
  | .local _ .vmem, ⟨2, _⟩ => ⟨S200x10000, .f32⟩
  | .local _ .vmem, ⟨3, _⟩ => ⟨S200x10000, .f32⟩
  | .local _ .vmem, ⟨4, _⟩ => ⟨S10000x128, .f32⟩
  | .local _ .vmem, ⟨5, _⟩ => ⟨S128x32, .f32⟩
  | .local _ .vmem, ⟨6, _⟩ => ⟨S10000x32, .f32⟩
  | .local _ .vmem, ⟨7, _⟩ => ⟨S1x32, .f32⟩
  | .local _ .vmem, ⟨8, _⟩ => ⟨S1x32, .f32⟩
  | .local _ .vmem, ⟨9, _⟩ => ⟨S10000x32, .f32⟩
  | .local _ .vmem, ⟨10, _⟩ => ⟨S50x200, .f32⟩
  | _, _ => ⟨S1x10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8

abbrev nD : Nat := 1
abbrev τ : Topo := Topo.v7x

variable {F : FTy → Type} [FloatOps F]

abbrev grid0 : Pipeline.Grid := ⟨1, ![25], ![false]⟩

def k0_off1 (i : grid0.Coords) : Fin 2 → Nat :=
  let arg0 : BitVec 32 := BitVec.ofNat 32 (i 0).val
  let v15 : Index := Scalar.indexCast arg0
  let c0_11 : Index := 0#32
  ![v15.toNat, 0]
def k0_off2 (i : grid0.Coords) : Fin 2 → Nat :=
  let c25_i32 : BitVec 32 := 25#32
  let arg0 : BitVec 32 := BitVec.ofNat 32 (i 0).val
  let v23 : BitVec 32 := Scalar.addi c25_i32 arg0
  let v24 : Index := Scalar.indexCast v23
  let c0_14 : Index := 0#32
  ![v24.toNat, 0]
def k0_cond2 (i : grid0.Coords) : BitVec 1 :=
  let arg0 : BitVec 32 := BitVec.ofNat 32 (i 0).val
  let c24_i32 : BitVec 32 := 24#32
  let v28 : BitVec 1 := Scalar.cmpi .eq arg0 c24_i32
  let v29 : BitVec 32 := Scalar.extui v28
  let c0_i32_15 : BitVec 32 := 0#32
  let v30 : BitVec 1 := Scalar.cmpi .ne v29 c0_i32_15
  v30

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c25_i32 : BitVec 32 := 25#32
  let v0 : BitVec 32 := Scalar.addi c25_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S200x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S200x10000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S10000x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S10000x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

class Facts₀ : Prop where
  shapeCasts_S1x10000x128_S10000x128 : S1x10000x128.ShapeCasts S10000x128
  shapeCasts_S1x10000x10000_S10000x10000 : S1x10000x10000.ShapeCasts S10000x10000
  shapeCasts_S32_S1x32 : S32.ShapeCasts S1x32
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S128x32_S128x32_0_0 : ∀ a, (![0, 0] : Fin 2 → Nat) a + S128x32.size a ≤ S128x32.size a
  h_S128x32 : 0 < S128x32.numel
  inb_S10000x32_S10000x32_0_0 : ∀ a, (![0, 0] : Fin 2 → Nat) a + S10000x32.size a ≤ S10000x32.size a
  h_S10000x32 : 0 < S10000x32.numel
  shapeCasts_S10000x32_S10000x32 : S10000x32.ShapeCasts S10000x32
  inb_S200x10000_S200x10000_0_0 : ∀ a, (![0, 0] : Fin 2 → Nat) a + S200x10000.size a ≤ S200x10000.size a
  h_S200x10000 : 0 < S200x10000.numel
  shapeCasts_S200x10000_S200x10000 : S200x10000.ShapeCasts S200x10000
  reduces_S32x200_S200 : S32x200.Reduces [0] S200
  shapeCasts_S200_S1x200 : S200.ShapeCasts S1x200
  h_S1x200 : 0 < S1x200.numel
  shapeCasts_S1x200_S1x200 : S1x200.ShapeCasts S1x200
  inb_S1x32_S1x32_0_0 : ∀ a, (![0, 0] : Fin 2 → Nat) a + S1x32.size a ≤ S1x32.size a
  h_S1x32 : 0 < S1x32.numel
  shapeCasts_S1x32_S1x32 : S1x32.ShapeCasts S1x32
  inb_S50x200_S1x200_0_0 : ∀ a, (![0, 0] : Fin 2 → Nat) a + S1x200.size a ≤ S50x200.size a
  inb_S10000x32_S200x32_0_0 : ∀ a, (![0, 0] : Fin 2 → Nat) a + S200x32.size a ≤ S10000x32.size a
  h_S200x32 : 0 < S200x32.numel
  inb_S50x200_S1x200_1_0 : ∀ a, (![1, 0] : Fin 2 → Nat) a + S1x200.size a ≤ S50x200.size a
  inb_S10000x32_S200x32_200_0 : ∀ a, (![200, 0] : Fin 2 → Nat) a + S200x32.size a ≤ S10000x32.size a
  inb_S50x200_S1x200_2_0 : ∀ a, (![2, 0] : Fin 2 → Nat) a + S1x200.size a ≤ S50x200.size a
  inb_S10000x32_S200x32_400_0 : ∀ a, (![400, 0] : Fin 2 → Nat) a + S200x32.size a ≤ S10000x32.size a
  inb_S50x200_S1x200_3_0 : ∀ a, (![3, 0] : Fin 2 → Nat) a + S1x200.size a ≤ S50x200.size a
  inb_S10000x32_S200x32_600_0 : ∀ a, (![600, 0] : Fin 2 → Nat) a + S200x32.size a ≤ S10000x32.size a
  inb_S50x200_S1x200_4_0 : ∀ a, (![4, 0] : Fin 2 → Nat) a + S1x200.size a ≤ S50x200.size a
  inb_S10000x32_S200x32_800_0 : ∀ a, (![800, 0] : Fin 2 → Nat) a + S200x32.size a ≤ S10000x32.size a
  inb_S50x200_S1x200_5_0 : ∀ a, (![5, 0] : Fin 2 → Nat) a + S1x200.size a ≤ S50x200.size a
  inb_S10000x32_S200x32_1000_0 : ∀ a, (![1000, 0] : Fin 2 → Nat) a + S200x32.size a ≤ S10000x32.size a
  inb_S50x200_S1x200_6_0 : ∀ a, (![6, 0] : Fin 2 → Nat) a + S1x200.size a ≤ S50x200.size a
  inb_S10000x32_S200x32_1200_0 : ∀ a, (![1200, 0] : Fin 2 → Nat) a + S200x32.size a ≤ S10000x32.size a
  inb_S50x200_S1x200_7_0 : ∀ a, (![7, 0] : Fin 2 → Nat) a + S1x200.size a ≤ S50x200.size a
  inb_S10000x32_S200x32_1400_0 : ∀ a, (![1400, 0] : Fin 2 → Nat) a + S200x32.size a ≤ S10000x32.size a
  inb_S50x200_S1x200_8_0 : ∀ a, (![8, 0] : Fin 2 → Nat) a + S1x200.size a ≤ S50x200.size a
  inb_S10000x32_S200x32_1600_0 : ∀ a, (![1600, 0] : Fin 2 → Nat) a + S200x32.size a ≤ S10000x32.size a
  inb_S50x200_S1x200_9_0 : ∀ a, (![9, 0] : Fin 2 → Nat) a + S1x200.size a ≤ S50x200.size a
  inb_S10000x32_S200x32_1800_0 : ∀ a, (![1800, 0] : Fin 2 → Nat) a + S200x32.size a ≤ S10000x32.size a
  inb_S50x200_S1x200_10_0 : ∀ a, (![10, 0] : Fin 2 → Nat) a + S1x200.size a ≤ S50x200.size a
  inb_S10000x32_S200x32_2000_0 : ∀ a, (![2000, 0] : Fin 2 → Nat) a + S200x32.size a ≤ S10000x32.size a
  inb_S50x200_S1x200_11_0 : ∀ a, (![11, 0] : Fin 2 → Nat) a + S1x200.size a ≤ S50x200.size a
  inb_S10000x32_S200x32_2200_0 : ∀ a, (![2200, 0] : Fin 2 → Nat) a + S200x32.size a ≤ S10000x32.size a
  inb_S50x200_S1x200_12_0 : ∀ a, (![12, 0] : Fin 2 → Nat) a + S1x200.size a ≤ S50x200.size a
  inb_S10000x32_S200x32_2400_0 : ∀ a, (![2400, 0] : Fin 2 → Nat) a + S200x32.size a ≤ S10000x32.size a
  inb_S50x200_S1x200_13_0 : ∀ a, (![13, 0] : Fin 2 → Nat) a + S1x200.size a ≤ S50x200.size a
  inb_S10000x32_S200x32_2600_0 : ∀ a, (![2600, 0] : Fin 2 → Nat) a + S200x32.size a ≤ S10000x32.size a
  inb_S50x200_S1x200_14_0 : ∀ a, (![14, 0] : Fin 2 → Nat) a + S1x200.size a ≤ S50x200.size a
  inb_S10000x32_S200x32_2800_0 : ∀ a, (![2800, 0] : Fin 2 → Nat) a + S200x32.size a ≤ S10000x32.size a
  inb_S50x200_S1x200_15_0 : ∀ a, (![15, 0] : Fin 2 → Nat) a + S1x200.size a ≤ S50x200.size a
  inb_S10000x32_S200x32_3000_0 : ∀ a, (![3000, 0] : Fin 2 → Nat) a + S200x32.size a ≤ S10000x32.size a
  inb_S50x200_S1x200_16_0 : ∀ a, (![16, 0] : Fin 2 → Nat) a + S1x200.size a ≤ S50x200.size a
  inb_S10000x32_S200x32_3200_0 : ∀ a, (![3200, 0] : Fin 2 → Nat) a + S200x32.size a ≤ S10000x32.size a
  inb_S50x200_S1x200_17_0 : ∀ a, (![17, 0] : Fin 2 → Nat) a + S1x200.size a ≤ S50x200.size a
  inb_S10000x32_S200x32_3400_0 : ∀ a, (![3400, 0] : Fin 2 → Nat) a + S200x32.size a ≤ S10000x32.size a
  inb_S50x200_S1x200_18_0 : ∀ a, (![18, 0] : Fin 2 → Nat) a + S1x200.size a ≤ S50x200.size a
  inb_S10000x32_S200x32_3600_0 : ∀ a, (![3600, 0] : Fin 2 → Nat) a + S200x32.size a ≤ S10000x32.size a
  inb_S50x200_S1x200_19_0 : ∀ a, (![19, 0] : Fin 2 → Nat) a + S1x200.size a ≤ S50x200.size a
  inb_S10000x32_S200x32_3800_0 : ∀ a, (![3800, 0] : Fin 2 → Nat) a + S200x32.size a ≤ S10000x32.size a
  inb_S50x200_S1x200_20_0 : ∀ a, (![20, 0] : Fin 2 → Nat) a + S1x200.size a ≤ S50x200.size a
  inb_S10000x32_S200x32_4000_0 : ∀ a, (![4000, 0] : Fin 2 → Nat) a + S200x32.size a ≤ S10000x32.size a
  inb_S50x200_S1x200_21_0 : ∀ a, (![21, 0] : Fin 2 → Nat) a + S1x200.size a ≤ S50x200.size a
  inb_S10000x32_S200x32_4200_0 : ∀ a, (![4200, 0] : Fin 2 → Nat) a + S200x32.size a ≤ S10000x32.size a
  inb_S50x200_S1x200_22_0 : ∀ a, (![22, 0] : Fin 2 → Nat) a + S1x200.size a ≤ S50x200.size a
  inb_S10000x32_S200x32_4400_0 : ∀ a, (![4400, 0] : Fin 2 → Nat) a + S200x32.size a ≤ S10000x32.size a
  inb_S50x200_S1x200_23_0 : ∀ a, (![23, 0] : Fin 2 → Nat) a + S1x200.size a ≤ S50x200.size a
  inb_S10000x32_S200x32_4600_0 : ∀ a, (![4600, 0] : Fin 2 → Nat) a + S200x32.size a ≤ S10000x32.size a
  inb_S50x200_S1x200_24_0 : ∀ a, (![24, 0] : Fin 2 → Nat) a + S1x200.size a ≤ S50x200.size a
  inb_S10000x32_S200x32_4800_0 : ∀ a, (![4800, 0] : Fin 2 → Nat) a + S200x32.size a ≤ S10000x32.size a
  inb_S50x200_S1x200_25_0 : ∀ a, (![25, 0] : Fin 2 → Nat) a + S1x200.size a ≤ S50x200.size a
  inb_S10000x32_S200x32_5000_0 : ∀ a, (![5000, 0] : Fin 2 → Nat) a + S200x32.size a ≤ S10000x32.size a
  inb_S50x200_S1x200_26_0 : ∀ a, (![26, 0] : Fin 2 → Nat) a + S1x200.size a ≤ S50x200.size a
  inb_S10000x32_S200x32_5200_0 : ∀ a, (![5200, 0] : Fin 2 → Nat) a + S200x32.size a ≤ S10000x32.size a
  inb_S50x200_S1x200_27_0 : ∀ a, (![27, 0] : Fin 2 → Nat) a + S1x200.size a ≤ S50x200.size a
  inb_S10000x32_S200x32_5400_0 : ∀ a, (![5400, 0] : Fin 2 → Nat) a + S200x32.size a ≤ S10000x32.size a
  inb_S50x200_S1x200_28_0 : ∀ a, (![28, 0] : Fin 2 → Nat) a + S1x200.size a ≤ S50x200.size a
  inb_S10000x32_S200x32_5600_0 : ∀ a, (![5600, 0] : Fin 2 → Nat) a + S200x32.size a ≤ S10000x32.size a
  inb_S50x200_S1x200_29_0 : ∀ a, (![29, 0] : Fin 2 → Nat) a + S1x200.size a ≤ S50x200.size a
  inb_S10000x32_S200x32_5800_0 : ∀ a, (![5800, 0] : Fin 2 → Nat) a + S200x32.size a ≤ S10000x32.size a
  inb_S50x200_S1x200_30_0 : ∀ a, (![30, 0] : Fin 2 → Nat) a + S1x200.size a ≤ S50x200.size a
  inb_S10000x32_S200x32_6000_0 : ∀ a, (![6000, 0] : Fin 2 → Nat) a + S200x32.size a ≤ S10000x32.size a
  inb_S50x200_S1x200_31_0 : ∀ a, (![31, 0] : Fin 2 → Nat) a + S1x200.size a ≤ S50x200.size a
  inb_S10000x32_S200x32_6200_0 : ∀ a, (![6200, 0] : Fin 2 → Nat) a + S200x32.size a ≤ S10000x32.size a
  inb_S50x200_S1x200_32_0 : ∀ a, (![32, 0] : Fin 2 → Nat) a + S1x200.size a ≤ S50x200.size a
  inb_S10000x32_S200x32_6400_0 : ∀ a, (![6400, 0] : Fin 2 → Nat) a + S200x32.size a ≤ S10000x32.size a
  inb_S50x200_S1x200_33_0 : ∀ a, (![33, 0] : Fin 2 → Nat) a + S1x200.size a ≤ S50x200.size a
  inb_S10000x32_S200x32_6600_0 : ∀ a, (![6600, 0] : Fin 2 → Nat) a + S200x32.size a ≤ S10000x32.size a
  inb_S50x200_S1x200_34_0 : ∀ a, (![34, 0] : Fin 2 → Nat) a + S1x200.size a ≤ S50x200.size a
  inb_S10000x32_S200x32_6800_0 : ∀ a, (![6800, 0] : Fin 2 → Nat) a + S200x32.size a ≤ S10000x32.size a
  inb_S50x200_S1x200_35_0 : ∀ a, (![35, 0] : Fin 2 → Nat) a + S1x200.size a ≤ S50x200.size a
  inb_S10000x32_S200x32_7000_0 : ∀ a, (![7000, 0] : Fin 2 → Nat) a + S200x32.size a ≤ S10000x32.size a
  inb_S50x200_S1x200_36_0 : ∀ a, (![36, 0] : Fin 2 → Nat) a + S1x200.size a ≤ S50x200.size a
  inb_S10000x32_S200x32_7200_0 : ∀ a, (![7200, 0] : Fin 2 → Nat) a + S200x32.size a ≤ S10000x32.size a
  inb_S50x200_S1x200_37_0 : ∀ a, (![37, 0] : Fin 2 → Nat) a + S1x200.size a ≤ S50x200.size a
  inb_S10000x32_S200x32_7400_0 : ∀ a, (![7400, 0] : Fin 2 → Nat) a + S200x32.size a ≤ S10000x32.size a
  inb_S50x200_S1x200_38_0 : ∀ a, (![38, 0] : Fin 2 → Nat) a + S1x200.size a ≤ S50x200.size a
  inb_S10000x32_S200x32_7600_0 : ∀ a, (![7600, 0] : Fin 2 → Nat) a + S200x32.size a ≤ S10000x32.size a
  inb_S50x200_S1x200_39_0 : ∀ a, (![39, 0] : Fin 2 → Nat) a + S1x200.size a ≤ S50x200.size a
  inb_S10000x32_S200x32_7800_0 : ∀ a, (![7800, 0] : Fin 2 → Nat) a + S200x32.size a ≤ S10000x32.size a
  inb_S50x200_S1x200_40_0 : ∀ a, (![40, 0] : Fin 2 → Nat) a + S1x200.size a ≤ S50x200.size a
  inb_S10000x32_S200x32_8000_0 : ∀ a, (![8000, 0] : Fin 2 → Nat) a + S200x32.size a ≤ S10000x32.size a
  inb_S50x200_S1x200_41_0 : ∀ a, (![41, 0] : Fin 2 → Nat) a + S1x200.size a ≤ S50x200.size a
  inb_S10000x32_S200x32_8200_0 : ∀ a, (![8200, 0] : Fin 2 → Nat) a + S200x32.size a ≤ S10000x32.size a
  inb_S50x200_S1x200_42_0 : ∀ a, (![42, 0] : Fin 2 → Nat) a + S1x200.size a ≤ S50x200.size a
  inb_S10000x32_S200x32_8400_0 : ∀ a, (![8400, 0] : Fin 2 → Nat) a + S200x32.size a ≤ S10000x32.size a
  inb_S50x200_S1x200_43_0 : ∀ a, (![43, 0] : Fin 2 → Nat) a + S1x200.size a ≤ S50x200.size a
  inb_S10000x32_S200x32_8600_0 : ∀ a, (![8600, 0] : Fin 2 → Nat) a + S200x32.size a ≤ S10000x32.size a
  inb_S50x200_S1x200_44_0 : ∀ a, (![44, 0] : Fin 2 → Nat) a + S1x200.size a ≤ S50x200.size a
  inb_S10000x32_S200x32_8800_0 : ∀ a, (![8800, 0] : Fin 2 → Nat) a + S200x32.size a ≤ S10000x32.size a
  inb_S50x200_S1x200_45_0 : ∀ a, (![45, 0] : Fin 2 → Nat) a + S1x200.size a ≤ S50x200.size a
  inb_S10000x32_S200x32_9000_0 : ∀ a, (![9000, 0] : Fin 2 → Nat) a + S200x32.size a ≤ S10000x32.size a
  inb_S50x200_S1x200_46_0 : ∀ a, (![46, 0] : Fin 2 → Nat) a + S1x200.size a ≤ S50x200.size a
  inb_S10000x32_S200x32_9200_0 : ∀ a, (![9200, 0] : Fin 2 → Nat) a + S200x32.size a ≤ S10000x32.size a
  inb_S50x200_S1x200_47_0 : ∀ a, (![47, 0] : Fin 2 → Nat) a + S1x200.size a ≤ S50x200.size a
  inb_S10000x32_S200x32_9400_0 : ∀ a, (![9400, 0] : Fin 2 → Nat) a + S200x32.size a ≤ S10000x32.size a
  inb_S50x200_S1x200_48_0 : ∀ a, (![48, 0] : Fin 2 → Nat) a + S1x200.size a ≤ S50x200.size a
  inb_S10000x32_S200x32_9600_0 : ∀ a, (![9600, 0] : Fin 2 → Nat) a + S200x32.size a ≤ S10000x32.size a
  inb_S50x200_S1x200_49_0 : ∀ a, (![49, 0] : Fin 2 → Nat) a + S1x200.size a ≤ S50x200.size a
  inb_S10000x32_S200x32_9800_0 : ∀ a, (![9800, 0] : Fin 2 → Nat) a + S200x32.size a ≤ S10000x32.size a
  dot_S10000x128_S128x32_S10000x32_1_0_0_1_n_n_wf : DotDims.WF S10000x128 S128x32 S10000x32 [1] [0] [0] [1] [] []
  dot_S10000x32_S200x10000_S32x200_0_1_1_0_n_n_wf : DotDims.WF S10000x32 S200x10000 S32x200 [0] [1] [1] [0] [] []
  dot_S1x200_S200x32_S1x32_1_0_0_1_n_n_wf : DotDims.WF S1x200 S200x32 S1x32 [1] [0] [0] [1] [] []
  hrank0 : 0 < grid0.rank
  k0_off1_inb : ∀ i : grid0.Coords, ∀ a, (k0_off1 i) a + S1x200.size a ≤ S50x200.size a
  k0_off2_inb : ∀ i : grid0.Coords, ∀ a, (k0_off2 i) a + S1x200.size a ≤ S50x200.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S200x10000.size a ≤ S10000x10000.size a
  hwx0_0 : ∀ i : grid0.Coords, EltTy.bits .f32 = 32 ∨ (Rect.block (s := S10000x10000) S200x10000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S200x10000.size a ≤ S10000x10000.size a
  hwx0_1 : ∀ i : grid0.Coords, EltTy.bits .f32 = 32 ∨ (Rect.block (s := S10000x10000) S200x10000.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S10000x128.size a
  hwx0_2 : ∀ i : grid0.Coords, EltTy.bits .f32 = 32 ∨ (Rect.block (s := S10000x128) S10000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x32.size a ≤ S128x32.size a
  hwx0_3 : ∀ i : grid0.Coords, EltTy.bits .f32 = 32 ∨ (Rect.block (s := S128x32) S128x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S10000x32.size a ≤ S10000x32.size a
  hwx0_4 : ∀ i : grid0.Coords, EltTy.bits .f32 = 32 ∨ (Rect.block (s := S10000x32) S10000x32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x32.size a ≤ S1x32.size a
  hwx0_5 : ∀ i : grid0.Coords, EltTy.bits .f32 = 32 ∨ (Rect.block (s := S1x32) S1x32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x32.size a ≤ S1x32.size a
  hwx0_6 : ∀ i : grid0.Coords, EltTy.bits .f32 = 32 ∨ (Rect.block (s := S1x32) S1x32.size (cc0_transform_6 i) (hinb0_6 i)).WholeWords (EltTy.packing .f32)

variable [Facts₀]

def dot_S10000x128_S128x32_S10000x32_1_0_0_1_n_n : DotDims S10000x128 S128x32 S10000x32 where
  lhsContracting := [1]
  rhsContracting := [0]
  lhsNonContracting := [0]
  rhsNonContracting := [1]
  lhsBatch := []
  rhsBatch := []
  wf := dot_S10000x128_S128x32_S10000x32_1_0_0_1_n_n_wf
def dot_S10000x32_S200x10000_S32x200_0_1_1_0_n_n : DotDims S10000x32 S200x10000 S32x200 where
  lhsContracting := [0]
  rhsContracting := [1]
  lhsNonContracting := [1]
  rhsNonContracting := [0]
  lhsBatch := []
  rhsBatch := []
  wf := dot_S10000x32_S200x10000_S32x200_0_1_1_0_n_n_wf
def dot_S1x200_S200x32_S1x32_1_0_0_1_n_n : DotDims S1x200 S200x32 S1x32 where
  lhsContracting := [1]
  rhsContracting := [0]
  lhsNonContracting := [0]
  rhsNonContracting := [1]
  lhsBatch := []
  rhsBatch := []
  wf := dot_S1x200_S200x32_S1x32_1_0_0_1_n_n_wf

abbrev win0_0 : Pipeline.Window sig grid0 :=
  Pipeline.Window.ofSpec (Memref.whole main_v1) S200x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S200x10000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S10000x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S10000x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S1x32.size cc0_transform_6 reads0_6 true true 1 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

class Facts : Prop extends Facts₀ where

variable [Facts]
-- ==== ReferenceIdeal.lean ====
abbrev S1x10000x128 : Shape := ⟨3, ![1, 10000, 128]⟩
abbrev S1x10000x10000 : Shape := ⟨3, ![1, 10000, 10000]⟩
abbrev S128x32 : Shape := ⟨2, ![128, 32]⟩
abbrev S10000x32 : Shape := ⟨2, ![10000, 32]⟩
abbrev S32 : Shape := ⟨1, ![32]⟩
abbrev S1x10000x32 : Shape := ⟨3, ![1, 10000, 32]⟩
abbrev S_ : Shape := ⟨0, ![]⟩
abbrev S1x10000 : Shape := ⟨2, ![1, 10000]⟩
abbrev S1x32 : Shape := ⟨2, ![1, 32]⟩

abbrev nBuf : Space → Nat
  | .hbm => 15
  | .vmem => 0
  | .smem => 0
  | _ => 0

abbrev bufTy : (tb : Table) → Fin (tcTables nBuf tb) → BufTy
  | .hbm, ⟨0, _⟩ => ⟨S1x10000x128, .f32⟩
  | .hbm, ⟨1, _⟩ => ⟨S1x10000x10000, .f32⟩
  | .hbm, ⟨2, _⟩ => ⟨S128x32, .f32⟩
  | .hbm, ⟨3, _⟩ => ⟨S10000x32, .f32⟩
  | .hbm, ⟨4, _⟩ => ⟨S32, .f32⟩
  | .hbm, ⟨5, _⟩ => ⟨S1x10000x32, .f32⟩
  | .hbm, ⟨6, _⟩ => ⟨S1x10000x32, .f32⟩
  | .hbm, ⟨7, _⟩ => ⟨S_, .f32⟩
  | .hbm, ⟨8, _⟩ => ⟨S1x10000x32, .f32⟩
  | .hbm, ⟨9, _⟩ => ⟨S1x10000x32, .f32⟩
  | .hbm, ⟨10, _⟩ => ⟨S_, .f32⟩
  | .hbm, ⟨11, _⟩ => ⟨S1x10000, .f32⟩
  | .hbm, ⟨12, _⟩ => ⟨S1x32, .f32⟩
  | .hbm, ⟨13, _⟩ => ⟨S1x32, .f32⟩
  | .hbm, ⟨14, _⟩ => ⟨S1x32, .f32⟩
  | _, _ => ⟨S1x10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_cst : Ref sig .tc := ⟨.hbm, 7, rfl⟩
abbrev main_call0_v0 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩

abbrev nD : Nat := 1
abbrev τ : Topo := Topo.v7x

variable {F : FTy → Type} [FloatOps F]

class Facts₀ : Prop where
  bcast_S_S1x10000x32 : S_.BroadcastsInDim S1x10000x32 (![] : Fin 0 → Fin S1x10000x32.rank)
  reducesTo_S1x10000x32_S1x10000_d2 : S1x10000x32.ReducesTo [2] S1x10000
  h_S_ : 0 < S_.numel
  bcast_S32_S1x32_1 : S32.BroadcastsInDim S1x32 (![1] : Fin 1 → Fin S1x32.rank)
  dot_S1x10000x128_S128x32_S1x10000x32_2_0_01_1_n_n_wf : DotDims.WF S1x10000x128 S128x32 S1x10000x32 [2] [0] [0, 1] [1] [] []
  dot_S1x10000x10000_S1x10000x32_S1x10000x32_2_1_1_2_0_0_wf : DotDims.WF S1x10000x10000 S1x10000x32 S1x10000x32 [2] [1] [1] [2] [0] [0]
  dot_S1x10000_S10000x32_S1x32_1_0_0_1_n_n_wf : DotDims.WF S1x10000 S10000x32 S1x32 [1] [0] [0] [1] [] []

variable [Facts₀]

def dot_S1x10000x128_S128x32_S1x10000x32_2_0_01_1_n_n : DotDims S1x10000x128 S128x32 S1x10000x32 where
  lhsContracting := [2]
  rhsContracting := [0]
  lhsNonContracting := [0, 1]
  rhsNonContracting := [1]
  lhsBatch := []
  rhsBatch := []
  wf := dot_S1x10000x128_S128x32_S1x10000x32_2_0_01_1_n_n_wf
def dot_S1x10000x10000_S1x10000x32_S1x10000x32_2_1_1_2_0_0 : DotDims S1x10000x10000 S1x10000x32 S1x10000x32 where
  lhsContracting := [2]
  rhsContracting := [1]
  lhsNonContracting := [1]
  rhsNonContracting := [2]
  lhsBatch := [0]
  rhsBatch := [0]
  wf := dot_S1x10000x10000_S1x10000x32_S1x10000x32_2_1_1_2_0_0_wf
def dot_S1x10000_S10000x32_S1x32_1_0_0_1_n_n : DotDims S1x10000 S10000x32 S1x32 where
  lhsContracting := [1]
  rhsContracting := [0]
  lhsNonContracting := [0]
  rhsNonContracting := [1]
  lhsBatch := []
  rhsBatch := []
  wf := dot_S1x10000_S10000x32_S1x32_1_0_0_1_n_n_wf

class Facts : Prop extends Facts₀ where

variable [Facts]
-- ==== Proof.LibFrameShared.lean ====
/-
  The frame run of a one-region pipeline whose input windows may SHARE an array.

  A pipelined kernel handed one array through several input windows (each window reading its own blocks of it) is
  launched like any other kernel of its class, except for one thing: the array's buffer, held whole at the region's
  entry, has to be dealt among the windows that read it, each window taking a share of it.  The statement below is the
  frame run with a tracking invariant — the kernel may carry named contents in a scratch buffer from point to point —
  in which that dealing is a hypothesis (`hsplit`): the buffers behind the windows' arrays, each whole at the full
  share at the region-entry contents, entail the proof data's arrays at entry.  Everything else is as for distinct
  arrays: the scoped rest at some contents (the kernel's scratch: such a kernel draws no random numbers, so the generator register is let go) yields the
  data's invariant before the first point and gets it back after the last; the unscoped buffers that are no
  window's array bypass the region and are read back unchanged; every window's array ends at what the proof data
  compute for it.
-/
import Idealize.ShloMosaic.Lib.Pipeline.Frame

noncomputable section

namespace Idealize.ShloMosaic

open Idealize.SL
open Idealize.SL.BI (sProp bigSep bigSep_map)
open scoped Idealize.SL.BI
open Idealize.SL.BI.BIBase Idealize.SL.BI.Laws Idealize.SL.Sem Idealize.SL.ProofMode
open Idealize.SL.RA
open TcCoe
open Idealize.ShloMosaic.Rounds

set_option Elab.async false

variable {nD : Nat} {τ : Topo} {sig : RefSig} {Val : EltTy → Type}

namespace Pipeline

section FrameShared

variable {Λ₀ : SL.Sem.Labels} {P : Type} [Fintype P] [DecidableEq P] [∀ e, Nonempty (Val e)]

local notation "𝕄" => MT nD τ sig Unit Val ℕ (UR sig nD τ) ℕ

variable (cfgs : P → Cfg sig Λ₀)
  (dats : (p : P) → (c : Dev nD) → Dat τ Val Unit ℕ (UR sig nD τ) ℕ (cfgs p) c) (p : P)
  (hinj : Function.Injective (cellOf (nD := nD) (τ := τ) cfgs)) (hw : WinFacts₀ (cfgs p).spec)
  (defs₀ : Defs nD τ sig Val Λ₀) (𝒱₀ : Variants)

local notation "cfg" => cfgs p
local notation "𝔻" => Pipeline.defs (fun q => Cfg.toPCfg (Val := Val) (cfgs q)) defs₀

include hinj hw in
/-- The frame run with a tracking invariant for windows that may share arrays: as the frame run for distinct arrays,
    with the dealing of each shared array among its windows supplied as `hsplit`. -/
theorem θ_run_frame_track_shared
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (hne : ∀ w : Fin (cfg).W, 0 < ((cfg).spec w).block.numel)
    (harr : ∀ w, ((cfg).spec w).arr.IsWhole) (hstage : ∀ w s, (((cfg).spec w).stage s).IsWhole)
    (howed : ∀ c t, (dats p c).owed t = 0)
    (V : (c : Dev nD) → (b : Ref sig .tc) → Buf Val ((c.tc : Thread nD τ).loc b))
    (hmain : HMain (Ix := Unit) (Name := ℕ) (U := UR sig nD τ) (Lvl := ℕ) cfgs p defs₀ 𝒱₀ m main V)
    (hsplit : ∀ c, (arrBufs (cfg).spec c (V c) : sProp 𝕄) ⊢ (dats p c).arrays ((dats p c).arrAt · 0))
    (hin : ∀ c, (scopedRest (Ix := Unit) (Name := ℕ) (U := UR sig nD τ) (Lvl := ℕ) (Val := Val) (cfg).spec c : sProp 𝕄) ⊢ (dats p c).Φ 0)
    (hout : ∀ c, (dats p c).Φ (Fin.last (cfg).N) ⊢ (scopedRest (Ix := Unit) (Name := ℕ) (U := UR sig nD τ) (Lvl := ℕ) (Val := Val) (cfg).spec c : sProp 𝕄)) :
    θ_run 𝔻 (onTc main) (s₀ m g) (FramePost cfgs dats p V) := by
  classical
  exact θ_run_region_noSem_shared cfgs dats () hinj p hw emb₁ defs₀ 𝒱₀ m g main hbody hne harr hstage howed
    (u₀ := initOf (cells cfgs hinj) (launchToks cfgs hinj))
    (hu₀ := .rfl)
    (V := V) (hmain := hmain) (hsplit := hsplit)
    (X := fun _ => iprop(emp)) (Y := fun _ => iprop(emp))
    (Z := fun c => unscopedRest (Ix := Unit) (Name := ℕ) (U := UR sig nD τ) (Lvl := ℕ) (cfg).spec c (V c))
    (hX := fun c => by
      iintro HU
      isplitr [HU]
      · iempintro
      iexact HU)
    (hin := fun c => (show _ ⊢ (scopedRest (Ix := Unit) (Name := ℕ) (U := UR sig nD τ) (Lvl := ℕ) (Val := Val) (cfg).spec c : sProp 𝕄) by
        iintro ⟨-, Hr⟩; iexact Hr).trans (hin c))
    (hout := fun c => (hout c).trans (by
        iintro Hr
        isplitr [Hr]
        · iempintro
        iexact Hr))
    (QY := fun c s => ∀ b ∈ restRefs sig (cfg).spec, s.mem ((c.tc : Thread nD τ).loc b) = V c b)
    (hY := fun c s' => by
      iintro ⟨-, HU, HSI⟩
      unfold unscopedRest
      imodintro
      iapply (pointsTo_read_all (restRefs sig (cfg).spec) (fun b => (c.tc : Thread nD τ).loc b) (V c) s')
      isplitl [HU] <;> iassumption)
    (hQ := fun s h c => ⟨(h c).1, (h c).2⟩)

end FrameShared

end Pipeline

end Idealize.ShloMosaic

end
-- ==== Proof.KB.Runs.lean ====
/-
  What the three runs of the kernel body and the frame built on them share: the buffers' contents when the region is
  entered (after the three reshapes of the host prefix), each window's block read off its array, the two branch
  conditions of the body decided over the 25 grid points (the first holds at point 0 only, the second at point 24
  only), where the output window is idle, and the staging and scratch memrefs by name.
-/
import proofs.«133468_g27616639713709_cont_9to1_57_31_alg».proof.Proof.Gen.Kernel.Launch
import proofs.«133468_g27616639713709_cont_9to1_57_31_alg».proof.Proof.Gen.Kernel.Skeleton
import proofs.«133468_g27616639713709_cont_9to1_57_31_alg».proof.Proof.Gen.Kernel.Points
import proofs.«133468_g27616639713709_cont_9to1_57_31_alg».proof.Proof.LibFrameShared
import Idealize.ShloMosaic.Lib.Pipeline.FrameBody
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s TensorCore buffers when the region is entered: after the three reshapes. -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

/-- @main is the three reshapes, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No reshape writes an argument: the region finds each as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Each input window's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).1 3).trans (((dats 0 c).arrAt_in 3 rfl _).trans ((hA c 3).trans (V_main_arg2 m c))),
      ((h c).1 4).trans (((dats 0 c).arrAt_in 4 rfl _).trans ((hA c 4).trans (V_main_arg3 m c))),
      ((h c).2 main_arg4 (Pipeline.mem_restRefs_of main_arg4 (by decide) (by decide))).trans (V_main_arg4 m c)⟩) h

/-! ## The body's branch conditions -/

/-- The first branch's condition (the grid coordinate is 0), from the grid coordinates. -/
abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val = 0 :=
  (by decide +kernel : ∀ t : Fin grid0.N, cond0_0 (grid0.coords t) ↔ t.val = 0)

/-- The second branch's condition (the grid coordinate is 24). -/
abbrev cond0_1 (i : grid0.Coords) : Prop := k0_cond2 i = 1#1
theorem hcond0_1 : ∀ t : Fin cfg0.N, cond0_1 (grid0.coords t) ↔ t.val = 24 :=
  (by decide +kernel : ∀ t : Fin grid0.N, cond0_1 (grid0.coords t) ↔ t.val = 24)

/-- The rows of the 50-row scratch the body stores at a point: row t and row 25 + t. -/
theorem off1_eq : ∀ t : Fin cfg0.N, k0_off1 (grid0.coords t) = ![t.val, 0] :=
  (by decide +kernel : ∀ t : Fin grid0.N, k0_off1 (grid0.coords t) = ![t.val, 0])
theorem off2_eq : ∀ t : Fin cfg0.N, k0_off2 (grid0.coords t) = ![25 + t.val, 0] :=
  (by decide +kernel : ∀ t : Fin grid0.N, k0_off2 (grid0.coords t) = ![25 + t.val, 0])

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
/-- The output window is idle, and not written back, wherever the second branch is not taken; live where it is. -/
theorem idleAt0_6 : ∀ t : Fin cfg0.N, ¬cond0_1 (grid0.coords t) → cfg0.idle 6 (grid0.coords t) = true := by decide +kernel
theorem noFlush0_6 : ∀ t : Fin cfg0.N, ¬cond0_1 (grid0.coords t) → (cfg0.win 6).flush t = false := by decide +kernel
theorem liveAt0_6 : ∀ t : Fin cfg0.N, cond0_1 (grid0.coords t) → cfg0.idle 6 (grid0.coords t) = false := by decide +kernel

/-! ## The memrefs the body is called with -/

abbrev ms0_0 (t : Fin cfg0.N) : Memref sig .tc .vmem S200x10000 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S200x10000 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S10000x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x32 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S10000x32 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x32 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x32 .f32 := win0_6.stage (cfg0.slots t 6)
abbrev hs0_6 (t : Fin cfg0.N) : (ms0_6 t).IsWhole := hstage0_6 ((cfg0.slots t 6).cast nbuf0_6)
/-- The two scratch operands: the 10000×32 product v·W1 and the 50×200 table of row sums, both carried between points. -/
abbrev scM0_0 : Memref sig .tc .vmem S10000x32 .f32 := Memref.whole cc0_scratch0
abbrev scM0_1 : Memref sig .tc .vmem S50x200 .f32 := Memref.whole cc0_scratch1
/-- One staging buffer of the output window, through which its contents are stated. -/
abbrev VO0_6 : View sig .tc .vmem S1x32 .f32 := (Memref.whole cc0_stg6_0 : Memref sig .tc .vmem S1x32 .f32).view
abbrev VS0_0 : View sig .tc .vmem S10000x32 .f32 := scM0_0.view
abbrev VS0_1 : View sig .tc .vmem S50x200 .f32 := scM0_1.view

/-- The scoped buffers that are no staging buffer are the two scratch operands, owned at some contents. -/
theorem scopedRest_eq (c : Dev nD) :
    (Pipeline.scopedRest (Ix := Unit) (Name := ℕ) (U := UR sig nD τ) (Lvl := ℕ) (Val := Elt F) spec0 c : sProp 𝕄)
      = iprop((∃ d, owns (c : Thread nD τ) scM0_0 fullShare d) ∗ (∃ d, owns (c : Thread nD τ) scM0_1 fullShare d)) := by
  rw [scopedRest0_eq]; simp only [scM0_0, scM0_1, owns_whole]; try rfl

end Cert.Kernel.Fr

end
-- ==== Proof.KB.RunA.lean ====
/-
  The body at the first grid point (first branch taken, second not): it stores the product of the v block and the W1
  block over the whole 10000×32 scratch, then the two rows of row sums into the 50×200 scratch over what that held,
  and leaves the output buffer untouched.  The stores found are the witness.
-/
import proofs.«133468_g27616639713709_cont_9to1_57_31_alg».proof.Proof.KB.Runs

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_A (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x128 .f32) (harg3 : arg3.IsWhole) (arg4 : Memref sig .tc .vmem S128x32 .f32) (harg4 : arg4.IsWhole) (arg5 : Memref sig .tc .vmem S10000x32 .f32) (harg5 : arg5.IsWhole) (arg6 : Memref sig .tc .vmem S1x32 .f32) (harg6 : arg6.IsWhole) (arg7 : Memref sig .tc .vmem S1x32 .f32) (harg7 : arg7.IsWhole) (arg8 : Memref sig .tc .vmem S10000x32 .f32) (harg8 : arg8.IsWhole) (arg9 : Memref sig .tc .vmem S50x200 .f32) (harg9 : arg9.IsWhole) (hc0 : cond0_0 i) (hc1 : ¬cond0_1 i)
    (x0 : Vec F S200x10000 .f32) (x1 : Vec F S200x10000 .f32) (x2 : Vec F S10000x128 .f32) (x3 : Vec F S128x32 .f32) (x4 : Vec F S10000x32 .f32) (x5 : Vec F S1x32 .f32) (xs1 : Vec F S50x200 .f32) :
    Σ' (LS0 : List (View.Piece (Elt F) S10000x32 .f32)), { LS1 : List (View.Piece (Elt F) S50x200 .f32) //
      ∀ (xi6 : Vec F S1x32 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xi6 ∗ (∃ d, owns (c : Thread nD τ) arg8 fullShare d) ∗ owns (c : Thread nD τ) arg9 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xi6 ∗ (∃ f, arg8.view.loc (c : Thread nD τ) ↦[arg8.view.set]{fullShare} arg8.view.writes (Elt F) f LS0) ∗ (arg9.view.loc (c : Thread nD τ) ↦[arg9.view.set]{fullShare} arg9.view.writes (Elt F) (harg9.unread xs1) LS1)) -∗ K ⟨⟩))
          ⊢ wp frame (wpE (defs₀ (F := F)) Variants.none c none) E (cc0__gcn_body i arg1 harg1 arg2 harg2 arg3 harg3 arg4 harg4 arg5 harg5 arg6 harg6 arg7 harg7 arg8 harg8 arg9 harg9) K } := by
  refine ⟨?_, ?_, fun xi6 E K => ?run⟩
  case run =>
    simp only [cc0__gcn_body_eq_skeleton]; unfold cc0__gcn_body_skel
    simp only [k0_part1_eq_skeleton, k0_part2_eq_skeleton, k0_part3_eq_skeleton, k0_part4_eq_skeleton, k0_part5_eq_skeleton, k0_part6_eq_skeleton, k0_part7_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, ⟨%fs1, %hfs1, HS1⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    obtain rfl := harg7.eq_unread hf6; obtain rfl := harg9.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [HS0]
    · iexists _; iexact HS0
    iexact HS1

end Cert.Kernel.Fr

end
-- ==== Proof.KB.RunB.lean ====
/-
  The body at a middle grid point (neither branch taken): it reads the 10000×32 scratch as the point before left it,
  stores the two rows of row sums into the 50×200 scratch over what that held, and leaves the output buffer untouched.
-/
import proofs.«133468_g27616639713709_cont_9to1_57_31_alg».proof.Proof.KB.Runs

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_B (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x128 .f32) (harg3 : arg3.IsWhole) (arg4 : Memref sig .tc .vmem S128x32 .f32) (harg4 : arg4.IsWhole) (arg5 : Memref sig .tc .vmem S10000x32 .f32) (harg5 : arg5.IsWhole) (arg6 : Memref sig .tc .vmem S1x32 .f32) (harg6 : arg6.IsWhole) (arg7 : Memref sig .tc .vmem S1x32 .f32) (harg7 : arg7.IsWhole) (arg8 : Memref sig .tc .vmem S10000x32 .f32) (harg8 : arg8.IsWhole) (arg9 : Memref sig .tc .vmem S50x200 .f32) (harg9 : arg9.IsWhole) (hc0 : ¬cond0_0 i) (hc1 : ¬cond0_1 i)
    (x0 : Vec F S200x10000 .f32) (x1 : Vec F S200x10000 .f32) (x2 : Vec F S10000x128 .f32) (x3 : Vec F S128x32 .f32) (x4 : Vec F S10000x32 .f32) (x5 : Vec F S1x32 .f32) (xs0 : Vec F S10000x32 .f32) (xs1 : Vec F S50x200 .f32) :
    { LS1 : List (View.Piece (Elt F) S50x200 .f32) //
      ∀ (xi6 : Vec F S1x32 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xi6 ∗ owns (c : Thread nD τ) arg8 fullShare xs0 ∗ owns (c : Thread nD τ) arg9 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xi6 ∗ owns (c : Thread nD τ) arg8 fullShare xs0 ∗ (arg9.view.loc (c : Thread nD τ) ↦[arg9.view.set]{fullShare} arg9.view.writes (Elt F) (harg9.unread xs1) LS1)) -∗ K ⟨⟩))
          ⊢ wp frame (wpE (defs₀ (F := F)) Variants.none c none) E (cc0__gcn_body i arg1 harg1 arg2 harg2 arg3 harg3 arg4 harg4 arg5 harg5 arg6 harg6 arg7 harg7 arg8 harg8 arg9 harg9) K } := by
  refine ⟨?_, fun xi6 E K => ?run⟩
  case run =>
    simp only [cc0__gcn_body_eq_skeleton]; unfold cc0__gcn_body_skel
    simp only [k0_part1_eq_skeleton, k0_part2_eq_skeleton, k0_part3_eq_skeleton, k0_part4_eq_skeleton, k0_part5_eq_skeleton, k0_part6_eq_skeleton, k0_part7_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    obtain rfl := harg7.eq_unread hf6; obtain rfl := harg8.eq_unread hfs0; obtain rfl := harg9.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [HS0]
    · iexists _; isplitr; · ipureintro; exact harg8.read_unread _
      iexact HS0
    iexact HS1

end Cert.Kernel.Fr

end
-- ==== Proof.KB.RunC.lean ====
/-
  The body at the last grid point (first branch not taken, second taken): after the two rows of row sums are stored
  into the 50×200 scratch, the read-out adds, onto the bias block, the 50 products of a row of that scratch with the
  matching 200 rows of the W_out block, and stores the sum over the whole output buffer.
-/
import proofs.«133468_g27616639713709_cont_9to1_57_31_alg».proof.Proof.KB.Runs

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 16000000 in
noncomputable def kernelRun0_C (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x128 .f32) (harg3 : arg3.IsWhole) (arg4 : Memref sig .tc .vmem S128x32 .f32) (harg4 : arg4.IsWhole) (arg5 : Memref sig .tc .vmem S10000x32 .f32) (harg5 : arg5.IsWhole) (arg6 : Memref sig .tc .vmem S1x32 .f32) (harg6 : arg6.IsWhole) (arg7 : Memref sig .tc .vmem S1x32 .f32) (harg7 : arg7.IsWhole) (arg8 : Memref sig .tc .vmem S10000x32 .f32) (harg8 : arg8.IsWhole) (arg9 : Memref sig .tc .vmem S50x200 .f32) (harg9 : arg9.IsWhole) (hc0 : ¬cond0_0 i) (hc1 : cond0_1 i)
    (x0 : Vec F S200x10000 .f32) (x1 : Vec F S200x10000 .f32) (x2 : Vec F S10000x128 .f32) (x3 : Vec F S128x32 .f32) (x4 : Vec F S10000x32 .f32) (x5 : Vec F S1x32 .f32) (xs0 : Vec F S10000x32 .f32) (xs1 : Vec F S50x200 .f32) :
    Σ' (L6 : List (View.Piece (Elt F) S1x32 .f32)), { LS1 : List (View.Piece (Elt F) S50x200 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xs0 ∗ owns (c : Thread nD τ) arg9 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ owns (c : Thread nD τ) arg8 fullShare xs0 ∗ (arg9.view.loc (c : Thread nD τ) ↦[arg9.view.set]{fullShare} arg9.view.writes (Elt F) (harg9.unread xs1) LS1)) -∗ K ⟨⟩))
          ⊢ wp frame (wpE (defs₀ (F := F)) Variants.none c none) E (cc0__gcn_body i arg1 harg1 arg2 harg2 arg3 harg3 arg4 harg4 arg5 harg5 arg6 harg6 arg7 harg7 arg8 harg8 arg9 harg9) K } := by
  refine ⟨?_, ?_, fun E K => ?run⟩
  case run =>
    simp only [cc0__gcn_body_eq_skeleton]; unfold cc0__gcn_body_skel
    simp only [k0_part1_eq_skeleton, k0_part2_eq_skeleton, k0_part3_eq_skeleton, k0_part4_eq_skeleton, k0_part5_eq_skeleton, k0_part6_eq_skeleton, k0_part7_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%fs1, %hfs1, HS1⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    obtain rfl := harg8.eq_unread hfs0; obtain rfl := harg9.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; iexact H6
    isplitl [HS0]
    · iexists _; isplitr; · ipureintro; exact harg8.read_unread _
      iexact HS0
    iexact HS1

end Cert.Kernel.Fr

end
-- ==== Proof.KB.Vals.lean ====
/-
  What the kernel carries from point to point, named.  The 10000×32 scratch holds, from the first point on, the product
  of the v block and the W1 block.  The 50×200 scratch is filled two rows per point: at point t row t with the row sums
  of the rectified product of that scratch with the first adj window's block, and row 25 + t with those of the second
  window's block; rows not yet stored hold whatever they held.  After the last point's two stores every row is known,
  so what the read-out computes from the table does not depend on what the table held before the first point.
-/
import proofs.«133468_g27616639713709_cont_9to1_57_31_alg».proof.Proof.KB.RunA
import proofs.«133468_g27616639713709_cont_9to1_57_31_alg».proof.Proof.KB.RunB
import proofs.«133468_g27616639713709_cont_9to1_57_31_alg».proof.Proof.KB.RunC
import Idealize.ShloMosaic.Lib.WritesUnit
import Idealize.ShloMosaic.Lib.Pipeline.Value
import Idealize.ShloMosaic.Lib.ValueIdx

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.ValueIdx

theorem hz : (![0, 0] : Fin 2 → Nat) = fun _ => 0 := funext fun a => by fin_cases a <;> rfl

theorem hN : cfg0.N = 25 := N_0
/-- The grid's first and last points. -/
abbrev t0 : Fin cfg0.N := ⟨0, by rw [show cfg0.N = 25 from N_0]; decide⟩
abbrev t24 : Fin cfg0.N := ⟨24, by rw [show cfg0.N = 25 from N_0]; decide⟩

/-- A load of a whole rank-2 buffer through the whole-shape rectangle at zero offsets reads its contents. -/
theorem readAt_whole {n0 n1 : ℕ} {e : EltTy} (mr : Memref sig .tc .vmem (⟨2, ![n0, n1]⟩ : Shape) e) (h : mr.IsWhole)
    (X : (⟨2, ![n0, n1]⟩ : Shape).Idx → Elt F e)
    (inb : ∀ a, (![0, 0] : Fin 2 → ℕ) a + (![n0, n1] : Fin 2 → ℕ) a ≤ (⟨2, ![n0, n1]⟩ : Shape).size a) :
    View.readAt (Elt F) mr.view (Rect.unit (s := (⟨2, ![n0, n1]⟩ : Shape)) ![0, 0] ![n0, n1] inb).toLoadRect (h.unread X) = X := by
  rw [View.readAt_eq_ld, h.read_unread]
  exact View.ld_unit_zero (S := (⟨2, ![n0, n1]⟩ : Shape)) hz inb X

/-- The product of the v block and the W1 block: what the 10000×32 scratch holds from the first point on. -/
def sup (c : Dev nD) : Vec F S10000x32 .f32 := k0_pay1 (iblk m c 2 t0) (iblk m c 3 t0)
/-- The row stored at point t into row t of the 50×200 scratch (from the first adj window's block), -/
def rowA (c : Dev nD) (t : Fin cfg0.N) : Vec F S1x200 .f32 := k0_pay2 (sup m c) (iblk m c 0 t)
/-- and the one stored into row 25 + t (from the second adj window's block). -/
def rowB (c : Dev nD) (t : Fin cfg0.N) : Vec F S1x200 .f32 := k0_pay3 (sup m c) (iblk m c 1 t)

/-- The two stores of point t, last first. -/
def pcsAt (c : Dev nD) (t : Fin cfg0.N) : List (View.Piece (Elt F) S50x200 .f32) :=
  [⟨Rect.unit (s := S50x200) (k0_off2 (grid0.coords t)) S1x200.size (k0_off2_inb _), rowB m c t⟩,
   ⟨Rect.unit (s := S50x200) (k0_off1 (grid0.coords t)) S1x200.size (k0_off1_inb _), rowA m c t⟩]

/-- The 50×200 table with every row stored: row r < 25 is point r's first row, row 25 + r its second. -/
def Xfull (c : Dev nD) : Vec F S50x200 .f32 := fun j =>
  if h : (j 0).val < 25 then rowA m c ⟨(j 0).val, by rw [show cfg0.N = 25 from N_0]; exact h⟩ (ix2 (0 : Fin 1) (⟨(j 1).val, (j 1).isLt⟩ : Fin 200))
  else rowB m c ⟨(j 0).val - 25, by have h50 : (j 0).val < 50 := (j 0).isLt; rw [show cfg0.N = 25 from N_0]; omega⟩ (ix2 (0 : Fin 1) (⟨(j 1).val, (j 1).isLt⟩ : Fin 200))

/-- Contents of the 50×200 scratch that agree with the full table on the rows stored up to point n. -/
def Known (c : Dev nD) (n : ℕ) (X : Vec F S50x200 .f32) : Prop :=
  ∀ j : S50x200.Idx, ((j 0).val ≤ n ∨ (25 ≤ (j 0).val ∧ (j 0).val ≤ 25 + n)) → X j = Xfull m c j

/-- Point t's two stores over contents known below t give contents known up to t. -/
theorem known_step (c : Dev nD) (t : Fin cfg0.N) (X : Vec F S50x200 .f32)
    (hX : ∀ j : S50x200.Idx, ((j 0).val < t.val ∨ (25 ≤ (j 0).val ∧ (j 0).val < 25 + t.val)) → X j = Xfull m c j)
    (mr : Memref sig .tc .vmem S50x200 .f32) (hw : mr.IsWhole) :
    Known m c t.val (mr.view.read (Elt F) (mr.view.writes (Elt F) (hw.unread X) (pcsAt m c t))) := by
  intro j hj
  have ht : t.val < 25 := lt_of_lt_of_eq t.isLt N_0
  have hj0 : (j 0).val < 50 := (j 0).isLt
  unfold pcsAt
  by_cases h2 : (j 0).val = 25 + t.val
  · rw [View.read_writes_cons_rows_of_mem mr.view _ (k0_off2_inb _) (rowB m c t) _ j (ix2 (0 : Fin 1) (⟨(j 1).val, (j 1).isLt⟩ : Fin 200)) (off2_eq t) h2 rfl]
    unfold Xfull
    rw [dif_neg (by omega)]
    exact congrArg (fun u => rowB m c u _) (Fin.ext (by show t.val = (j 0).val - 25; omega))
  · rw [View.read_writes_cons_rows_of_not_mem mr.view _ (k0_off2_inb _) (rowB m c t) _ j (W := 1) (off2_eq t) rfl (by omega)]
    by_cases h1 : (j 0).val = t.val
    · rw [View.read_writes_cons_rows_of_mem mr.view _ (k0_off1_inb _) (rowA m c t) _ j (ix2 (0 : Fin 1) (⟨(j 1).val, (j 1).isLt⟩ : Fin 200)) (off1_eq t) h1 rfl]
      unfold Xfull
      rw [dif_pos (by omega)]
      exact congrArg (fun u => rowA m c u _) (Fin.ext h1.symm)
    · rw [View.read_writes_cons_rows_of_not_mem mr.view _ (k0_off1_inb _) (rowA m c t) _ j (W := 1) (off1_eq t) rfl (by omega)]
      rw [View.writes_nil, hw.read_unread]
      exact hX j (by omega)

/-- After the last point's two stores over contents known up to point 23 the table is the full one. -/
theorem writes_full (c : Dev nD) (X : Vec F S50x200 .f32) (hK : Known m c 23 X)
    (mr : Memref sig .tc .vmem S50x200 .f32) (hw : mr.IsWhole) :
    mr.view.writes (Elt F) (hw.unread X) (pcsAt m c t24) = hw.unread (Xfull m c) :=
  hw.eq_unread (funext fun j => known_step m c t24 X (fun j' hj' => hK j' (by have : (t24 : Fin cfg0.N).val = 24 := rfl; omega)) mr hw j
    (by have : (t24 : Fin cfg0.N).val = 24 := rfl; have h50 : (j 0).val < 50 := (j 0).isLt; omega))

theorem known_full (c : Dev nD) (n : ℕ) : Known m c n (Xfull m c) := fun _ _ => rfl

end Cert.Kernel.Fr

end
-- ==== Proof.KB.Pieces.lean ====
/-
  The stores each run of the body found, in closed form: the loads of whole buffers read their contents, and the one
  covered load of the first point reads back the product just stored.  At the last point the read-out's loads of the
  50×200 scratch come after the point's two stores, so they read the full table whatever the scratch held in the two
  rows those stores overwrite.
-/
import proofs.«133468_g27616639713709_cont_9to1_57_31_alg».proof.Proof.KB.Vals

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.ValueIdx

theorem runA_LS0 (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x128 .f32) (harg3 : arg3.IsWhole) (arg4 : Memref sig .tc .vmem S128x32 .f32) (harg4 : arg4.IsWhole) (arg5 : Memref sig .tc .vmem S10000x32 .f32) (harg5 : arg5.IsWhole) (arg6 : Memref sig .tc .vmem S1x32 .f32) (harg6 : arg6.IsWhole) (arg7 : Memref sig .tc .vmem S1x32 .f32) (harg7 : arg7.IsWhole) (arg8 : Memref sig .tc .vmem S10000x32 .f32) (harg8 : arg8.IsWhole) (arg9 : Memref sig .tc .vmem S50x200 .f32) (harg9 : arg9.IsWhole) (hc0 : cond0_0 i) (hc1 : ¬cond0_1 i)
    (x0 : Vec F S200x10000 .f32) (x1 : Vec F S200x10000 .f32) (x2 : Vec F S10000x128 .f32) (x3 : Vec F S128x32 .f32) (x4 : Vec F S10000x32 .f32) (x5 : Vec F S1x32 .f32) (xs1 : Vec F S50x200 .f32) :
    (kernelRun0_A c i arg1 harg1 arg2 harg2 arg3 harg3 arg4 harg4 arg5 harg5 arg6 harg6 arg7 harg7 arg8 harg8 arg9 harg9 hc0 hc1 x0 x1 x2 x3 x4 x5 xs1).1
      = [⟨Rect.unit (s := S10000x32) ![0, 0] S10000x32.size inb_S10000x32_S10000x32_0_0, k0_pay1 x2 x3⟩] := by
  unfold kernelRun0_A; dsimp only; sl_unfold_run_names
  simp only [readAt_whole]

theorem runA_LS1 (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x128 .f32) (harg3 : arg3.IsWhole) (arg4 : Memref sig .tc .vmem S128x32 .f32) (harg4 : arg4.IsWhole) (arg5 : Memref sig .tc .vmem S10000x32 .f32) (harg5 : arg5.IsWhole) (arg6 : Memref sig .tc .vmem S1x32 .f32) (harg6 : arg6.IsWhole) (arg7 : Memref sig .tc .vmem S1x32 .f32) (harg7 : arg7.IsWhole) (arg8 : Memref sig .tc .vmem S10000x32 .f32) (harg8 : arg8.IsWhole) (arg9 : Memref sig .tc .vmem S50x200 .f32) (harg9 : arg9.IsWhole) (hc0 : cond0_0 i) (hc1 : ¬cond0_1 i)
    (x0 : Vec F S200x10000 .f32) (x1 : Vec F S200x10000 .f32) (x2 : Vec F S10000x128 .f32) (x3 : Vec F S128x32 .f32) (x4 : Vec F S10000x32 .f32) (x5 : Vec F S1x32 .f32) (xs1 : Vec F S50x200 .f32) :
    (kernelRun0_A c i arg1 harg1 arg2 harg2 arg3 harg3 arg4 harg4 arg5 harg5 arg6 harg6 arg7 harg7 arg8 harg8 arg9 harg9 hc0 hc1 x0 x1 x2 x3 x4 x5 xs1).2.1
      = [⟨Rect.unit (s := S50x200) (k0_off2 i) S1x200.size (k0_off2_inb i), k0_pay3 (k0_pay1 x2 x3) x1⟩,
         ⟨Rect.unit (s := S50x200) (k0_off1 i) S1x200.size (k0_off1_inb i), k0_pay2 (k0_pay1 x2 x3) x0⟩] := by
  unfold kernelRun0_A; dsimp only; sl_unfold_run_names
  simp only [readAt_whole, View.readCov_unit_zero (S := S10000x32) _ hz]

theorem runB_LS1 (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x128 .f32) (harg3 : arg3.IsWhole) (arg4 : Memref sig .tc .vmem S128x32 .f32) (harg4 : arg4.IsWhole) (arg5 : Memref sig .tc .vmem S10000x32 .f32) (harg5 : arg5.IsWhole) (arg6 : Memref sig .tc .vmem S1x32 .f32) (harg6 : arg6.IsWhole) (arg7 : Memref sig .tc .vmem S1x32 .f32) (harg7 : arg7.IsWhole) (arg8 : Memref sig .tc .vmem S10000x32 .f32) (harg8 : arg8.IsWhole) (arg9 : Memref sig .tc .vmem S50x200 .f32) (harg9 : arg9.IsWhole) (hc0 : ¬cond0_0 i) (hc1 : ¬cond0_1 i)
    (x0 : Vec F S200x10000 .f32) (x1 : Vec F S200x10000 .f32) (x2 : Vec F S10000x128 .f32) (x3 : Vec F S128x32 .f32) (x4 : Vec F S10000x32 .f32) (x5 : Vec F S1x32 .f32) (xs0 : Vec F S10000x32 .f32) (xs1 : Vec F S50x200 .f32) :
    (kernelRun0_B c i arg1 harg1 arg2 harg2 arg3 harg3 arg4 harg4 arg5 harg5 arg6 harg6 arg7 harg7 arg8 harg8 arg9 harg9 hc0 hc1 x0 x1 x2 x3 x4 x5 xs0 xs1).1
      = [⟨Rect.unit (s := S50x200) (k0_off2 i) S1x200.size (k0_off2_inb i), k0_pay3 xs0 x1⟩,
         ⟨Rect.unit (s := S50x200) (k0_off1 i) S1x200.size (k0_off1_inb i), k0_pay2 xs0 x0⟩] := by
  unfold kernelRun0_B; dsimp only
  simp only [readAt_whole]

theorem runC_LS1 (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x128 .f32) (harg3 : arg3.IsWhole) (arg4 : Memref sig .tc .vmem S128x32 .f32) (harg4 : arg4.IsWhole) (arg5 : Memref sig .tc .vmem S10000x32 .f32) (harg5 : arg5.IsWhole) (arg6 : Memref sig .tc .vmem S1x32 .f32) (harg6 : arg6.IsWhole) (arg7 : Memref sig .tc .vmem S1x32 .f32) (harg7 : arg7.IsWhole) (arg8 : Memref sig .tc .vmem S10000x32 .f32) (harg8 : arg8.IsWhole) (arg9 : Memref sig .tc .vmem S50x200 .f32) (harg9 : arg9.IsWhole) (hc0 : ¬cond0_0 i) (hc1 : cond0_1 i)
    (x0 : Vec F S200x10000 .f32) (x1 : Vec F S200x10000 .f32) (x2 : Vec F S10000x128 .f32) (x3 : Vec F S128x32 .f32) (x4 : Vec F S10000x32 .f32) (x5 : Vec F S1x32 .f32) (xs0 : Vec F S10000x32 .f32) (xs1 : Vec F S50x200 .f32) :
    (kernelRun0_C c i arg1 harg1 arg2 harg2 arg3 harg3 arg4 harg4 arg5 harg5 arg6 harg6 arg7 harg7 arg8 harg8 arg9 harg9 hc0 hc1 x0 x1 x2 x3 x4 x5 xs0 xs1).2.1
      = [⟨Rect.unit (s := S50x200) (k0_off2 i) S1x200.size (k0_off2_inb i), k0_pay3 xs0 x1⟩,
         ⟨Rect.unit (s := S50x200) (k0_off1 i) S1x200.size (k0_off1_inb i), k0_pay2 xs0 x0⟩] := by
  unfold kernelRun0_C; dsimp only; sl_unfold_run_names
  simp only [readAt_whole]

/-- At the last point the output's store does not depend on what the 50×200 scratch held in rows 24 and 49. -/
theorem runC_indep (c : Dev nD) (arg1 : Memref sig .tc .vmem S200x10000 .f32) (harg1 : arg1.IsWhole) (arg2 : Memref sig .tc .vmem S200x10000 .f32) (harg2 : arg2.IsWhole) (arg3 : Memref sig .tc .vmem S10000x128 .f32) (harg3 : arg3.IsWhole) (arg4 : Memref sig .tc .vmem S128x32 .f32) (harg4 : arg4.IsWhole) (arg5 : Memref sig .tc .vmem S10000x32 .f32) (harg5 : arg5.IsWhole) (arg6 : Memref sig .tc .vmem S1x32 .f32) (harg6 : arg6.IsWhole) (arg7 : Memref sig .tc .vmem S1x32 .f32) (harg7 : arg7.IsWhole) (arg8 : Memref sig .tc .vmem S10000x32 .f32) (harg8 : arg8.IsWhole) (arg9 : Memref sig .tc .vmem S50x200 .f32) (harg9 : arg9.IsWhole) (hc0 : ¬cond0_0 (grid0.coords t24)) (hc1 : cond0_1 (grid0.coords t24))
    (x2 : Vec F S10000x128 .f32) (x3 : Vec F S128x32 .f32) (x4 : Vec F S10000x32 .f32) (x5 : Vec F S1x32 .f32)
    (X : Vec F S50x200 .f32) (hK : Known m c 23 X) :
    (kernelRun0_C c (grid0.coords t24) arg1 harg1 arg2 harg2 arg3 harg3 arg4 harg4 arg5 harg5 arg6 harg6 arg7 harg7 arg8 harg8 arg9 harg9 hc0 hc1 (iblk m c 0 t24) (iblk m c 1 t24) x2 x3 x4 x5 (sup m c) X).1
      = (kernelRun0_C c (grid0.coords t24) arg1 harg1 arg2 harg2 arg3 harg3 arg4 harg4 arg5 harg5 arg6 harg6 arg7 harg7 arg8 harg8 arg9 harg9 hc0 hc1 (iblk m c 0 t24) (iblk m c 1 t24) x2 x3 x4 x5 (sup m c) (Xfull m c)).1 := by
  have hW := writes_full m c X hK arg9 harg9
  have hW' := writes_full m c (Xfull m c) (known_full m c 23) arg9 harg9
  unfold pcsAt rowA rowB at hW hW'
  unfold kernelRun0_C; dsimp only; sl_unfold_run_names
  simp only [readAt_whole, hW, hW']

end Cert.Kernel.Fr

end
-- ==== Proof.KB.Frame.lean ====
/-
  The frame of the blockwise program.  The proof data: each input window's buffer holds its block at every point; the
  output window's buffer holds, after the last point, what the read-out computes from the full 50×200 table; the region's
  invariant says what the two scratch buffers hold between points (the product in the first, the rows stored so far in
  the second).  The adj array is handed to its two windows at half shares.  From these the launch theorem for windows
  sharing an array gives the run, and the frame claim is read off it.
-/
import proofs.«133468_g27616639713709_cont_9to1_57_31_alg».proof.Proof.KB.Pieces

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.ValueIdx

theorem hc0_24 : ¬cond0_0 (grid0.coords t24) := fun h => absurd ((hcond0_0 t24).mp h) (by decide)
theorem hc1_24 : cond0_1 (grid0.coords t24) := (hcond0_1 t24).mpr rfl
theorem hc0_0 : cond0_0 (grid0.coords t0) := (hcond0_0 t0).mpr rfl
theorem hc1_0 : ¬cond0_1 (grid0.coords t0) := fun h => absurd ((hcond0_1 t0).mp h) (by decide)

/-- The last point's one store into the output buffer covers it. -/
theorem cover0_C_6 (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x128 .f32) (harg3 : arg3.IsWhole) (arg4 : Memref sig .tc .vmem S128x32 .f32) (harg4 : arg4.IsWhole) (arg5 : Memref sig .tc .vmem S10000x32 .f32) (harg5 : arg5.IsWhole) (arg6 : Memref sig .tc .vmem S1x32 .f32) (harg6 : arg6.IsWhole) (arg7 : Memref sig .tc .vmem S1x32 .f32) (harg7 : arg7.IsWhole) (arg8 : Memref sig .tc .vmem S10000x32 .f32) (harg8 : arg8.IsWhole) (arg9 : Memref sig .tc .vmem S50x200 .f32) (harg9 : arg9.IsWhole) (hc0 : ¬cond0_0 i) (hc1 : cond0_1 i)
    (x0 : Vec F S200x10000 .f32) (x1 : Vec F S200x10000 .f32) (x2 : Vec F S10000x128 .f32) (x3 : Vec F S128x32 .f32) (x4 : Vec F S10000x32 .f32) (x5 : Vec F S1x32 .f32) (xs0 : Vec F S10000x32 .f32) (xs1 : Vec F S50x200 .f32) (y : S1x32.Idx) :
    ∃ pc ∈ (kernelRun0_C c i arg1 harg1 arg2 harg2 arg3 harg3 arg4 harg4 arg5 harg5 arg6 harg6 arg7 harg7 arg8 harg8 arg9 harg9 hc0 hc1 x0 x1 x2 x3 x4 x5 xs0 xs1).1, y ∈ pc.1.set :=
  View.cover_of_tiledL (kernelRun0_C c i arg1 harg1 arg2 harg2 arg3 harg3 arg4 harg4 arg5 harg5 arg6 harg6 arg7 harg7 arg8 harg8 arg9 harg9 hc0 hc1 x0 x1 x2 x3 x4 x5 xs0 xs1).1 S1x32.size (by sl_kernel_rfl) y

/-- What the output buffer holds after the last point: the read-out of the full table. -/
def out24 (c : Dev nD) : Vec F S1x32 .f32 :=
  VO0_6.read (Elt F) (VO0_6.writes (Elt F) VO0_6.junk
    (kernelRun0_C c (grid0.coords t24) (ms0_0 t24) (hs0_0 t24) (ms0_1 t24) (hs0_1 t24) (ms0_2 t24) (hs0_2 t24) (ms0_3 t24) (hs0_3 t24) (ms0_4 t24) (hs0_4 t24) (ms0_5 t24) (hs0_5 t24) (ms0_6 t24) (hs0_6 t24) scM0_0 (Memref.isWhole_whole _) scM0_1 (Memref.isWhole_whole _) hc0_24 hc1_24 (iblk m c 0 t24) (iblk m c 1 t24) (iblk m c 2 t24) (iblk m c 3 t24) (iblk m c 4 t24) (iblk m c 5 t24) (sup m c) (Xfull m c)).1)

/-- The region's invariant before position n: at first the two scratch buffers at anything; afterwards the first at the
    product and the second at contents known up to point n - 1. -/
def PhiS (c : Dev nD) : (n : ℕ) → n ≤ cfg0.N → sProp 𝕄
  | 0, _ => Pipeline.scopedRest (Ix := Unit) (Name := ℕ) (U := UR sig nD τ) (Lvl := ℕ) (Val := Elt F) spec0 c
  | n + 1, _ => iprop(owns (c : Thread nD τ) scM0_0 fullShare (sup m c) ∗ (∃ X, ⌜Known m c n X⌝ ∗ owns (c : Thread nD τ) scM0_1 fullShare X))

theorem PhiS_zero (c : Dev nD) (n : ℕ) (h : n ≤ cfg0.N) (hz : n = 0) :
    PhiS m c n h = Pipeline.scopedRest (Ix := Unit) (Name := ℕ) (U := UR sig nD τ) (Lvl := ℕ) (Val := Elt F) spec0 c := by
  subst hz; rfl
theorem PhiS_succ (c : Dev nD) (n : ℕ) (hn : n < cfg0.N) :
    PhiS m c (n + 1) hn = iprop(owns (c : Thread nD τ) scM0_0 fullShare (sup m c) ∗ (∃ X, ⌜Known m c n X⌝ ∗ owns (c : Thread nD τ) scM0_1 fullShare X)) := rfl
theorem PhiS_pos (c : Dev nD) (n : ℕ) (h : n ≤ cfg0.N) (hz : n ≠ 0) :
    PhiS m c n h = iprop(owns (c : Thread nD τ) scM0_0 fullShare (sup m c) ∗ (∃ X, ⌜Known m c (n - 1) X⌝ ∗ owns (c : Thread nD τ) scM0_1 fullShare X)) := by
  cases n with
  | zero => exact absurd rfl hz
  | succ n => rfl

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => out24 m c
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = out24 m c := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  have hN25 : t.val < 25 := lt_of_lt_of_eq t.isLt N_0
  by_cases h0 : t.val = 0
  · -- the first point
    obtain rfl : t = t0 := Fin.ext h0
    rw [Dat.leavesExact_idle (dats m 0 c) 6 t0 (idleAt0_6 t0 hc1_0) (noFlush0_6 t0 hc1_0)]
    rw [PhiS_castSucc m c t0, PhiS_zero m c _ _ rfl, scopedRest_eq]
    iintro ⟨⟨⟨%ds0, HS0⟩, ⟨%ds1, HS1⟩⟩, Ho, ⟨%d0, H0⟩, ⟨%d1, H1⟩, ⟨%d2, H2⟩, ⟨%d3, H3⟩, ⟨%d4, H4⟩, ⟨%d5, H5⟩, ⟨%d6, H6⟩⟩
    iapply ((kernelRun0_A c (grid0.coords t0) _ _ _ _ _ _ _ _ _ _ _ _ _ _ _ _ _ _ hc0_0 hc1_0 (iblk m c 0 t0) (iblk m c 1 t0) (iblk m c 2 t0) (iblk m c 3 t0) (iblk m c 4 t0) (iblk m c 5 t0) ds1).2.2 _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexists _; iexact HS0
    isplitl [HS1]; · iexact HS1
    iintro ⟨H0, H1, H2, H3, H4, H5, H6, ⟨%es0, HS0⟩, HS1⟩
    isplitl [HS0 HS1]
    · isplitl [HS0]
      · unfold owns; iexists _; isplitr
        swap; · iexact HS0
        ipureintro
        rw [runA_LS0]
        exact (View.read_writes_eq_canon _ _ _ (fun y => ⟨_, List.mem_singleton_self _, View.mem_set_unit_zero hz inb_S10000x32_S10000x32_0_0 y⟩)).trans (View.canon_unit_zero hz _ _)
      · iexists (scM0_1.view.read (Elt F) (scM0_1.view.writes (Elt F) ((Memref.isWhole_whole cc0_scratch1).unread ds1) (pcsAt m c t0)))
        isplitr
        · ipureintro
          exact known_step m c t0 ds1 (fun j hj => by exfalso; have : (t0 : Fin cfg0.N).val = 0 := rfl; omega) scM0_1 _
        · unfold owns; iexists _; isplitr
          swap; · iexact HS1
          ipureintro
          rw [runA_LS1]; rfl
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists _; iexact H6
  · by_cases h24 : t.val = 24
    · -- the last point
      obtain rfl : t = t24 := Fin.ext h24
      rw [show (dats m 0 c).leavesExact 6 t24 = owns (c : Thread nD τ) (ms0_6 t24) fullShare ((dats m 0 c).after 6 t24) from by
        unfold Dat.leavesExact; rw [liveAt0_6 t24 hc1_24], after0_6]
      rw [PhiS_castSucc m c t24, PhiS_pos m c _ _ h0]
      iintro ⟨⟨HS0, ⟨%X, %hK, HS1⟩⟩, Ho, ⟨%d0, H0⟩, ⟨%d1, H1⟩, ⟨%d2, H2⟩, ⟨%d3, H3⟩, ⟨%d4, H4⟩, ⟨%d5, H5⟩, ⟨%d6, H6⟩⟩
      have hK23 : Known m c 23 X := hK
      iapply ((kernelRun0_C c (grid0.coords t24) _ _ _ _ _ _ _ _ _ _ _ _ _ _ _ _ _ _ hc0_24 hc1_24 (iblk m c 0 t24) (iblk m c 1 t24) (iblk m c 2 t24) (iblk m c 3 t24) (iblk m c 4 t24) (iblk m c 5 t24) (sup m c) X).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      isplitl [HS1]; · iexact HS1
      iintro ⟨H0, H1, H2, H3, H4, H5, ⟨%e6, H6⟩, HS0, HS1⟩
      isplitl [HS0 HS1]
      · isplitl [HS0]; · iexact HS0
        iexists (scM0_1.view.read (Elt F) (scM0_1.view.writes (Elt F) ((Memref.isWhole_whole cc0_scratch1).unread X) (pcsAt m c t24)))
        isplitr
        · ipureintro
          exact known_step m c t24 X (fun j hj => hK23 j (by have : (t24 : Fin cfg0.N).val = 24 := rfl; omega)) scM0_1 _
        · unfold owns; iexists _; isplitr
          swap; · iexact HS1
          ipureintro
          rw [runC_LS1]; rfl
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro
      rw [runC_indep m c _ _ _ _ _ _ _ _ _ _ _ _ _ _ _ _ _ _ hc0_24 hc1_24 _ _ _ _ X hK23]
      exact View.read_writes_of_cover _ _ _ _ _ (cover0_C_6 c _ _ _ _ _ _ _ _ _ _ _ _ _ _ _ _ _ _ _ _ _ _ _ _ _ _ _ _ _)
    · -- a middle point
      have hc0 : ¬cond0_0 (grid0.coords t) := fun h => h0 ((hcond0_0 t).mp h)
      have hc1 : ¬cond0_1 (grid0.coords t) := fun h => h24 ((hcond0_1 t).mp h)
      rw [Dat.leavesExact_idle (dats m 0 c) 6 t (idleAt0_6 t hc1) (noFlush0_6 t hc1)]
      rw [PhiS_castSucc m c t, PhiS_pos m c _ _ h0]
      iintro ⟨⟨HS0, ⟨%X, %hK, HS1⟩⟩, Ho, ⟨%d0, H0⟩, ⟨%d1, H1⟩, ⟨%d2, H2⟩, ⟨%d3, H3⟩, ⟨%d4, H4⟩, ⟨%d5, H5⟩, ⟨%d6, H6⟩⟩
      iapply ((kernelRun0_B c (grid0.coords t) _ _ _ _ _ _ _ _ _ _ _ _ _ _ _ _ _ _ hc0 hc1 (iblk m c 0 t) (iblk m c 1 t) (iblk m c 2 t) (iblk m c 3 t) (iblk m c 4 t) (iblk m c 5 t) (sup m c) X).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      iintro ⟨H0, H1, H2, H3, H4, H5, H6, HS0, HS1⟩
      isplitl [HS0 HS1]
      · isplitl [HS0]; · iexact HS0
        iexists (scM0_1.view.read (Elt F) (scM0_1.view.writes (Elt F) ((Memref.isWhole_whole cc0_scratch1).unread X) (pcsAt m c t)))
        isplitr
        · ipureintro
          exact known_step m c t X (fun j hj => hK j (by omega)) scM0_1 _
        · unfold owns; iexists _; isplitr
          swap; · iexact HS1
          ipureintro
          rw [runB_LS1]; rfl
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

theorem body_obligation (c : Dev nD) : BodyObligation (dats (F := F) m 0 c) (defs₀ (F := F)) Variants.none () Set.univ := fun t => by
  rw [bigSep_W0, bigSep_W0]
  exact sound_body m c t

/-! ## The launch's entailments -/

theorem hin (c : Dev nD) : (Pipeline.scopedRest (Ix := Unit) (Name := ℕ) (U := UR sig nD τ) (Lvl := ℕ) (Val := Elt F) spec0 c : sProp 𝕄) ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ (Pipeline.scopedRest (Ix := Unit) (Name := ℕ) (U := UR sig nD τ) (Lvl := ℕ) (Val := Elt F) spec0 c : sProp 𝕄) := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 25 := N_0; omega), scopedRest_eq]
  iintro ⟨HS0, ⟨%X, -, HS1⟩⟩
  isplitl [HS0]
  · iexists _; iexact HS0
  iexists _; iexact HS1

/-- The buffers behind the windows' arrays, listed. -/
theorem arrBufs_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_v1) ↦{fullShare} W main_v1) ∗ (((c : Thread nD τ).loc main_v0) ↦{fullShare} W main_v0) ∗ (((c : Thread nD τ).loc main_arg2) ↦{fullShare} W main_arg2) ∗ (((c : Thread nD τ).loc main_arg3) ↦{fullShare} W main_arg3) ∗ (((c : Thread nD τ).loc main_v2) ↦{fullShare} W main_v2) ∗ (((c : Thread nD τ).loc main_v3) ↦{fullShare} W main_v3)) := by
  unfold Pipeline.arrBufs
  exact bigSep_eq_bigSepL_of_eq [main_v1, main_v0, main_arg2, main_arg3, main_v2, main_v3] (by decide) (by decide) _

/-- The adj array, whole at the region's entry, is dealt to its two windows at half shares; every other array goes whole
    to its one window. -/
theorem hsplit (c : Dev nD) :
    (Pipeline.arrBufs (Ix := Unit) (Name := ℕ) (U := UR sig nD τ) (Lvl := ℕ) spec0 c (V m c) : sProp 𝕄) ⊢ (dats m 0 c).arrays ((dats m 0 c).arrAt · 0) := by
  rw [arrBufs_eq]
  have harr : (dats m 0 c).arrays ((dats m 0 c).arrAt · 0)
      = bigSep Finset.univ fun w : Fin cfg0.W => (((c : Thread nD τ).loc (Pipeline.arrRef spec0 w)) ↦{(dats m 0 c).share w} V m c (Pipeline.arrRef spec0 w) : sProp 𝕄) := by
    unfold Dat.arrays
    exact bigSep_congr fun w _ => by
      rw [(arr_whole0 w).set_eq_univ]; beta_reduce; rw [show (dats m 0 c).arrAt w 0 = (dats m 0 c).A w from rfl, A_eq]
  rw [harr, bigSep_W0]
  rw [show (dats m 0 c).share 0 = fullShare.left from rfl, show (dats m 0 c).share 1 = fullShare.right from rfl,
    show (dats m 0 c).share 2 = fullShare from rfl, show (dats m 0 c).share 3 = fullShare from rfl,
    show (dats m 0 c).share 4 = fullShare from rfl, show (dats m 0 c).share 5 = fullShare from rfl,
    show (dats m 0 c).share 6 = fullShare from rfl]
  iintro ⟨H1, H0, H2, H3, H4, H6⟩
  ihave H1 := (pointsTo_share (PosShare.mem_left_op_right fullShare)).1 $$ H1
  icases H1 with ⟨H1a, H1b⟩
  isplitl [H1a]; · iexact H1a
  isplitl [H1b]; · iexact H1b
  isplitl [H0]; · iexact H0
  isplitl [H2]; · iexact H2
  isplitl [H3]; · iexact H3
  isplitl [H4]; · iexact H4
  iexact H6

/-! ## The run and the frame -/

set_option backward.isDefEq.respectTransparency.types false in
theorem run_main : θ_run defs (onTc (τ := τ) (main (F := F))) (s₀ m ρ) (Pipeline.FramePost cfgs (dats m) 0 (V m)) :=
  Pipeline.θ_run_frame_track_shared cfgs (dats m) (0 : Fin 1) cellOf_inj winFacts₀0 defs₀ Variants.none m ρ main
    (hbody := fun c => (body_obligation m c).loose) (hne := block_pos0) (harr := arr_whole0) (hstage := stage_whole0)
    (howed := fun _ _ => rfl) (V := V m) (hmain := hmain m Variants.none) (hsplit := hsplit m) (hin := hin m) (hout := hout m)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

end Cert.Kernel.Fr

end
-- ==== Proof.KI.Runs.lean ====
/-
  What the three runs of the kernel body and the frame built on them share: the buffers' contents when the region is
  entered (after the three reshapes of the host prefix), each window's block read off its array, the two branch
  conditions of the body decided over the 25 grid points (the first holds at point 0 only, the second at point 24
  only), where the output window is idle, and the staging and scratch memrefs by name.
-/
import proofs.«133468_g27616639713709_cont_9to1_57_31_alg».proof.Proof.Gen.KernelIdeal.Launch
import proofs.«133468_g27616639713709_cont_9to1_57_31_alg».proof.Proof.Gen.KernelIdeal.Skeleton
import proofs.«133468_g27616639713709_cont_9to1_57_31_alg».proof.Proof.Gen.KernelIdeal.Points
import proofs.«133468_g27616639713709_cont_9to1_57_31_alg».proof.Proof.LibFrameShared
import Idealize.ShloMosaic.Lib.Pipeline.FrameBody
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s TensorCore buffers when the region is entered: after the three reshapes. -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

/-- @main is the three reshapes, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No reshape writes an argument: the region finds each as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Each input window's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).1 3).trans (((dats 0 c).arrAt_in 3 rfl _).trans ((hA c 3).trans (V_main_arg2 m c))),
      ((h c).1 4).trans (((dats 0 c).arrAt_in 4 rfl _).trans ((hA c 4).trans (V_main_arg3 m c))),
      ((h c).2 main_arg4 (Pipeline.mem_restRefs_of main_arg4 (by decide) (by decide))).trans (V_main_arg4 m c)⟩) h

/-! ## The body's branch conditions -/

/-- The first branch's condition (the grid coordinate is 0), from the grid coordinates. -/
abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val = 0 :=
  (by decide +kernel : ∀ t : Fin grid0.N, cond0_0 (grid0.coords t) ↔ t.val = 0)

/-- The second branch's condition (the grid coordinate is 24). -/
abbrev cond0_1 (i : grid0.Coords) : Prop := k0_cond2 i = 1#1
theorem hcond0_1 : ∀ t : Fin cfg0.N, cond0_1 (grid0.coords t) ↔ t.val = 24 :=
  (by decide +kernel : ∀ t : Fin grid0.N, cond0_1 (grid0.coords t) ↔ t.val = 24)

/-- The rows of the 50-row scratch the body stores at a point: row t and row 25 + t. -/
theorem off1_eq : ∀ t : Fin cfg0.N, k0_off1 (grid0.coords t) = ![t.val, 0] :=
  (by decide +kernel : ∀ t : Fin grid0.N, k0_off1 (grid0.coords t) = ![t.val, 0])
theorem off2_eq : ∀ t : Fin cfg0.N, k0_off2 (grid0.coords t) = ![25 + t.val, 0] :=
  (by decide +kernel : ∀ t : Fin grid0.N, k0_off2 (grid0.coords t) = ![25 + t.val, 0])

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
/-- The output window is idle, and not written back, wherever the second branch is not taken; live where it is. -/
theorem idleAt0_6 : ∀ t : Fin cfg0.N, ¬cond0_1 (grid0.coords t) → cfg0.idle 6 (grid0.coords t) = true := by decide +kernel
theorem noFlush0_6 : ∀ t : Fin cfg0.N, ¬cond0_1 (grid0.coords t) → (cfg0.win 6).flush t = false := by decide +kernel
theorem liveAt0_6 : ∀ t : Fin cfg0.N, cond0_1 (grid0.coords t) → cfg0.idle 6 (grid0.coords t) = false := by decide +kernel

/-! ## The memrefs the body is called with -/

abbrev ms0_0 (t : Fin cfg0.N) : Memref sig .tc .vmem S200x10000 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S200x10000 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S10000x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x32 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S10000x32 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x32 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x32 .f32 := win0_6.stage (cfg0.slots t 6)
abbrev hs0_6 (t : Fin cfg0.N) : (ms0_6 t).IsWhole := hstage0_6 ((cfg0.slots t 6).cast nbuf0_6)
/-- The two scratch operands: the 10000×32 product v·W1 and the 50×200 table of row sums, both carried between points. -/
abbrev scM0_0 : Memref sig .tc .vmem S10000x32 .f32 := Memref.whole cc0_scratch0
abbrev scM0_1 : Memref sig .tc .vmem S50x200 .f32 := Memref.whole cc0_scratch1
/-- One staging buffer of the output window, through which its contents are stated. -/
abbrev VO0_6 : View sig .tc .vmem S1x32 .f32 := (Memref.whole cc0_stg6_0 : Memref sig .tc .vmem S1x32 .f32).view
abbrev VS0_0 : View sig .tc .vmem S10000x32 .f32 := scM0_0.view
abbrev VS0_1 : View sig .tc .vmem S50x200 .f32 := scM0_1.view

/-- The scoped buffers that are no staging buffer are the two scratch operands, owned at some contents. -/
theorem scopedRest_eq (c : Dev nD) :
    (Pipeline.scopedRest (Ix := Unit) (Name := ℕ) (U := UR sig nD τ) (Lvl := ℕ) (Val := Elt F) spec0 c : sProp 𝕄)
      = iprop((∃ d, owns (c : Thread nD τ) scM0_0 fullShare d) ∗ (∃ d, owns (c : Thread nD τ) scM0_1 fullShare d)) := by
  rw [scopedRest0_eq]; simp only [scM0_0, scM0_1, owns_whole]; try rfl

end Cert.KernelIdeal.Fr

end
-- ==== Proof.KI.RunA.lean ====
/-
  The body at the first grid point (first branch taken, second not): it stores the product of the v block and the W1
  block over the whole 10000×32 scratch, then the two rows of row sums into the 50×200 scratch over what that held,
  and leaves the output buffer untouched.  The stores found are the witness.
-/
import proofs.«133468_g27616639713709_cont_9to1_57_31_alg».proof.Proof.KI.Runs

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_A (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x128 .f32) (harg3 : arg3.IsWhole) (arg4 : Memref sig .tc .vmem S128x32 .f32) (harg4 : arg4.IsWhole) (arg5 : Memref sig .tc .vmem S10000x32 .f32) (harg5 : arg5.IsWhole) (arg6 : Memref sig .tc .vmem S1x32 .f32) (harg6 : arg6.IsWhole) (arg7 : Memref sig .tc .vmem S1x32 .f32) (harg7 : arg7.IsWhole) (arg8 : Memref sig .tc .vmem S10000x32 .f32) (harg8 : arg8.IsWhole) (arg9 : Memref sig .tc .vmem S50x200 .f32) (harg9 : arg9.IsWhole) (hc0 : cond0_0 i) (hc1 : ¬cond0_1 i)
    (x0 : Vec F S200x10000 .f32) (x1 : Vec F S200x10000 .f32) (x2 : Vec F S10000x128 .f32) (x3 : Vec F S128x32 .f32) (x4 : Vec F S10000x32 .f32) (x5 : Vec F S1x32 .f32) (xs1 : Vec F S50x200 .f32) :
    Σ' (LS0 : List (View.Piece (Elt F) S10000x32 .f32)), { LS1 : List (View.Piece (Elt F) S50x200 .f32) //
      ∀ (xi6 : Vec F S1x32 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xi6 ∗ (∃ d, owns (c : Thread nD τ) arg8 fullShare d) ∗ owns (c : Thread nD τ) arg9 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xi6 ∗ (∃ f, arg8.view.loc (c : Thread nD τ) ↦[arg8.view.set]{fullShare} arg8.view.writes (Elt F) f LS0) ∗ (arg9.view.loc (c : Thread nD τ) ↦[arg9.view.set]{fullShare} arg9.view.writes (Elt F) (harg9.unread xs1) LS1)) -∗ K ⟨⟩))
          ⊢ wp frame (wpE (defs₀ (F := F)) Variants.none c none) E (cc0__gcn_body i arg1 harg1 arg2 harg2 arg3 harg3 arg4 harg4 arg5 harg5 arg6 harg6 arg7 harg7 arg8 harg8 arg9 harg9) K } := by
  refine ⟨?_, ?_, fun xi6 E K => ?run⟩
  case run =>
    simp only [cc0__gcn_body_eq_skeleton]; unfold cc0__gcn_body_skel
    simp only [k0_part1_eq_skeleton, k0_part2_eq_skeleton, k0_part3_eq_skeleton, k0_part4_eq_skeleton, k0_part5_eq_skeleton, k0_part6_eq_skeleton, k0_part7_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, ⟨%fs1, %hfs1, HS1⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    obtain rfl := harg7.eq_unread hf6; obtain rfl := harg9.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [HS0]
    · iexists _; iexact HS0
    iexact HS1

end Cert.KernelIdeal.Fr

end
-- ==== Proof.KI.RunB.lean ====
/-
  The body at a middle grid point (neither branch taken): it reads the 10000×32 scratch as the point before left it,
  stores the two rows of row sums into the 50×200 scratch over what that held, and leaves the output buffer untouched.
-/
import proofs.«133468_g27616639713709_cont_9to1_57_31_alg».proof.Proof.KI.Runs

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_B (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x128 .f32) (harg3 : arg3.IsWhole) (arg4 : Memref sig .tc .vmem S128x32 .f32) (harg4 : arg4.IsWhole) (arg5 : Memref sig .tc .vmem S10000x32 .f32) (harg5 : arg5.IsWhole) (arg6 : Memref sig .tc .vmem S1x32 .f32) (harg6 : arg6.IsWhole) (arg7 : Memref sig .tc .vmem S1x32 .f32) (harg7 : arg7.IsWhole) (arg8 : Memref sig .tc .vmem S10000x32 .f32) (harg8 : arg8.IsWhole) (arg9 : Memref sig .tc .vmem S50x200 .f32) (harg9 : arg9.IsWhole) (hc0 : ¬cond0_0 i) (hc1 : ¬cond0_1 i)
    (x0 : Vec F S200x10000 .f32) (x1 : Vec F S200x10000 .f32) (x2 : Vec F S10000x128 .f32) (x3 : Vec F S128x32 .f32) (x4 : Vec F S10000x32 .f32) (x5 : Vec F S1x32 .f32) (xs0 : Vec F S10000x32 .f32) (xs1 : Vec F S50x200 .f32) :
    { LS1 : List (View.Piece (Elt F) S50x200 .f32) //
      ∀ (xi6 : Vec F S1x32 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xi6 ∗ owns (c : Thread nD τ) arg8 fullShare xs0 ∗ owns (c : Thread nD τ) arg9 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xi6 ∗ owns (c : Thread nD τ) arg8 fullShare xs0 ∗ (arg9.view.loc (c : Thread nD τ) ↦[arg9.view.set]{fullShare} arg9.view.writes (Elt F) (harg9.unread xs1) LS1)) -∗ K ⟨⟩))
          ⊢ wp frame (wpE (defs₀ (F := F)) Variants.none c none) E (cc0__gcn_body i arg1 harg1 arg2 harg2 arg3 harg3 arg4 harg4 arg5 harg5 arg6 harg6 arg7 harg7 arg8 harg8 arg9 harg9) K } := by
  refine ⟨?_, fun xi6 E K => ?run⟩
  case run =>
    simp only [cc0__gcn_body_eq_skeleton]; unfold cc0__gcn_body_skel
    simp only [k0_part1_eq_skeleton, k0_part2_eq_skeleton, k0_part3_eq_skeleton, k0_part4_eq_skeleton, k0_part5_eq_skeleton, k0_part6_eq_skeleton, k0_part7_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    obtain rfl := harg7.eq_unread hf6; obtain rfl := harg8.eq_unread hfs0; obtain rfl := harg9.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [HS0]
    · iexists _; isplitr; · ipureintro; exact harg8.read_unread _
      iexact HS0
    iexact HS1

end Cert.KernelIdeal.Fr

end
-- ==== Proof.KI.RunC.lean ====
/-
  The body at the last grid point (first branch not taken, second taken): after the two rows of row sums are stored
  into the 50×200 scratch, the read-out adds, onto the bias block, the 50 products of a row of that scratch with the
  matching 200 rows of the W_out block, and stores the sum over the whole output buffer.
-/
import proofs.«133468_g27616639713709_cont_9to1_57_31_alg».proof.Proof.KI.Runs

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 16000000 in
noncomputable def kernelRun0_C (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x128 .f32) (harg3 : arg3.IsWhole) (arg4 : Memref sig .tc .vmem S128x32 .f32) (harg4 : arg4.IsWhole) (arg5 : Memref sig .tc .vmem S10000x32 .f32) (harg5 : arg5.IsWhole) (arg6 : Memref sig .tc .vmem S1x32 .f32) (harg6 : arg6.IsWhole) (arg7 : Memref sig .tc .vmem S1x32 .f32) (harg7 : arg7.IsWhole) (arg8 : Memref sig .tc .vmem S10000x32 .f32) (harg8 : arg8.IsWhole) (arg9 : Memref sig .tc .vmem S50x200 .f32) (harg9 : arg9.IsWhole) (hc0 : ¬cond0_0 i) (hc1 : cond0_1 i)
    (x0 : Vec F S200x10000 .f32) (x1 : Vec F S200x10000 .f32) (x2 : Vec F S10000x128 .f32) (x3 : Vec F S128x32 .f32) (x4 : Vec F S10000x32 .f32) (x5 : Vec F S1x32 .f32) (xs0 : Vec F S10000x32 .f32) (xs1 : Vec F S50x200 .f32) :
    Σ' (L6 : List (View.Piece (Elt F) S1x32 .f32)), { LS1 : List (View.Piece (Elt F) S50x200 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xs0 ∗ owns (c : Thread nD τ) arg9 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ owns (c : Thread nD τ) arg8 fullShare xs0 ∗ (arg9.view.loc (c : Thread nD τ) ↦[arg9.view.set]{fullShare} arg9.view.writes (Elt F) (harg9.unread xs1) LS1)) -∗ K ⟨⟩))
          ⊢ wp frame (wpE (defs₀ (F := F)) Variants.none c none) E (cc0__gcn_body i arg1 harg1 arg2 harg2 arg3 harg3 arg4 harg4 arg5 harg5 arg6 harg6 arg7 harg7 arg8 harg8 arg9 harg9) K } := by
  refine ⟨?_, ?_, fun E K => ?run⟩
  case run =>
    simp only [cc0__gcn_body_eq_skeleton]; unfold cc0__gcn_body_skel
    simp only [k0_part1_eq_skeleton, k0_part2_eq_skeleton, k0_part3_eq_skeleton, k0_part4_eq_skeleton, k0_part5_eq_skeleton, k0_part6_eq_skeleton, k0_part7_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%fs1, %hfs1, HS1⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    obtain rfl := harg8.eq_unread hfs0; obtain rfl := harg9.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; iexact H6
    isplitl [HS0]
    · iexists _; isplitr; · ipureintro; exact harg8.read_unread _
      iexact HS0
    iexact HS1

end Cert.KernelIdeal.Fr

end
-- ==== Proof.KI.Vals.lean ====
/-
  What the kernel carries from point to point, named.  The 10000×32 scratch holds, from the first point on, the product
  of the v block and the W1 block.  The 50×200 scratch is filled two rows per point: at point t row t with the row sums
  of the rectified product of that scratch with the first adj window's block, and row 25 + t with those of the second
  window's block; rows not yet stored hold whatever they held.  After the last point's two stores every row is known,
  so what the read-out computes from the table does not depend on what the table held before the first point.
-/
import proofs.«133468_g27616639713709_cont_9to1_57_31_alg».proof.Proof.KI.RunA
import proofs.«133468_g27616639713709_cont_9to1_57_31_alg».proof.Proof.KI.RunB
import proofs.«133468_g27616639713709_cont_9to1_57_31_alg».proof.Proof.KI.RunC
import Idealize.ShloMosaic.Lib.WritesUnit
import Idealize.ShloMosaic.Lib.Pipeline.Value
import Idealize.ShloMosaic.Lib.ValueIdx

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.ValueIdx

theorem hz : (![0, 0] : Fin 2 → Nat) = fun _ => 0 := funext fun a => by fin_cases a <;> rfl

theorem hN : cfg0.N = 25 := N_0
/-- The grid's first and last points. -/
abbrev t0 : Fin cfg0.N := ⟨0, by rw [show cfg0.N = 25 from N_0]; decide⟩
abbrev t24 : Fin cfg0.N := ⟨24, by rw [show cfg0.N = 25 from N_0]; decide⟩

/-- A load of a whole rank-2 buffer through the whole-shape rectangle at zero offsets reads its contents. -/
theorem readAt_whole {n0 n1 : ℕ} {e : EltTy} (mr : Memref sig .tc .vmem (⟨2, ![n0, n1]⟩ : Shape) e) (h : mr.IsWhole)
    (X : (⟨2, ![n0, n1]⟩ : Shape).Idx → Elt F e)
    (inb : ∀ a, (![0, 0] : Fin 2 → ℕ) a + (![n0, n1] : Fin 2 → ℕ) a ≤ (⟨2, ![n0, n1]⟩ : Shape).size a) :
    View.readAt (Elt F) mr.view (Rect.unit (s := (⟨2, ![n0, n1]⟩ : Shape)) ![0, 0] ![n0, n1] inb).toLoadRect (h.unread X) = X := by
  rw [View.readAt_eq_ld, h.read_unread]
  exact View.ld_unit_zero (S := (⟨2, ![n0, n1]⟩ : Shape)) hz inb X

/-- The product of the v block and the W1 block: what the 10000×32 scratch holds from the first point on. -/
def sup (c : Dev nD) : Vec F S10000x32 .f32 := k0_pay1 (iblk m c 2 t0) (iblk m c 3 t0)
/-- The row stored at point t into row t of the 50×200 scratch (from the first adj window's block), -/
def rowA (c : Dev nD) (t : Fin cfg0.N) : Vec F S1x200 .f32 := k0_pay2 (sup m c) (iblk m c 0 t)
/-- and the one stored into row 25 + t (from the second adj window's block). -/
def rowB (c : Dev nD) (t : Fin cfg0.N) : Vec F S1x200 .f32 := k0_pay3 (sup m c) (iblk m c 1 t)

/-- The two stores of point t, last first. -/
def pcsAt (c : Dev nD) (t : Fin cfg0.N) : List (View.Piece (Elt F) S50x200 .f32) :=
  [⟨Rect.unit (s := S50x200) (k0_off2 (grid0.coords t)) S1x200.size (k0_off2_inb _), rowB m c t⟩,
   ⟨Rect.unit (s := S50x200) (k0_off1 (grid0.coords t)) S1x200.size (k0_off1_inb _), rowA m c t⟩]

/-- The 50×200 table with every row stored: row r < 25 is point r's first row, row 25 + r its second. -/
def Xfull (c : Dev nD) : Vec F S50x200 .f32 := fun j =>
  if h : (j 0).val < 25 then rowA m c ⟨(j 0).val, by rw [show cfg0.N = 25 from N_0]; exact h⟩ (ix2 (0 : Fin 1) (⟨(j 1).val, (j 1).isLt⟩ : Fin 200))
  else rowB m c ⟨(j 0).val - 25, by have h50 : (j 0).val < 50 := (j 0).isLt; rw [show cfg0.N = 25 from N_0]; omega⟩ (ix2 (0 : Fin 1) (⟨(j 1).val, (j 1).isLt⟩ : Fin 200))

/-- Contents of the 50×200 scratch that agree with the full table on the rows stored up to point n. -/
def Known (c : Dev nD) (n : ℕ) (X : Vec F S50x200 .f32) : Prop :=
  ∀ j : S50x200.Idx, ((j 0).val ≤ n ∨ (25 ≤ (j 0).val ∧ (j 0).val ≤ 25 + n)) → X j = Xfull m c j

/-- Point t's two stores over contents known below t give contents known up to t. -/
theorem known_step (c : Dev nD) (t : Fin cfg0.N) (X : Vec F S50x200 .f32)
    (hX : ∀ j : S50x200.Idx, ((j 0).val < t.val ∨ (25 ≤ (j 0).val ∧ (j 0).val < 25 + t.val)) → X j = Xfull m c j)
    (mr : Memref sig .tc .vmem S50x200 .f32) (hw : mr.IsWhole) :
    Known m c t.val (mr.view.read (Elt F) (mr.view.writes (Elt F) (hw.unread X) (pcsAt m c t))) := by
  intro j hj
  have ht : t.val < 25 := lt_of_lt_of_eq t.isLt N_0
  have hj0 : (j 0).val < 50 := (j 0).isLt
  unfold pcsAt
  by_cases h2 : (j 0).val = 25 + t.val
  · rw [View.read_writes_cons_rows_of_mem mr.view _ (k0_off2_inb _) (rowB m c t) _ j (ix2 (0 : Fin 1) (⟨(j 1).val, (j 1).isLt⟩ : Fin 200)) (off2_eq t) h2 rfl]
    unfold Xfull
    rw [dif_neg (by omega)]
    exact congrArg (fun u => rowB m c u _) (Fin.ext (by show t.val = (j 0).val - 25; omega))
  · rw [View.read_writes_cons_rows_of_not_mem mr.view _ (k0_off2_inb _) (rowB m c t) _ j (W := 1) (off2_eq t) rfl (by omega)]
    by_cases h1 : (j 0).val = t.val
    · rw [View.read_writes_cons_rows_of_mem mr.view _ (k0_off1_inb _) (rowA m c t) _ j (ix2 (0 : Fin 1) (⟨(j 1).val, (j 1).isLt⟩ : Fin 200)) (off1_eq t) h1 rfl]
      unfold Xfull
      rw [dif_pos (by omega)]
      exact congrArg (fun u => rowA m c u _) (Fin.ext h1.symm)
    · rw [View.read_writes_cons_rows_of_not_mem mr.view _ (k0_off1_inb _) (rowA m c t) _ j (W := 1) (off1_eq t) rfl (by omega)]
      rw [View.writes_nil, hw.read_unread]
      exact hX j (by omega)

/-- After the last point's two stores over contents known up to point 23 the table is the full one. -/
theorem writes_full (c : Dev nD) (X : Vec F S50x200 .f32) (hK : Known m c 23 X)
    (mr : Memref sig .tc .vmem S50x200 .f32) (hw : mr.IsWhole) :
    mr.view.writes (Elt F) (hw.unread X) (pcsAt m c t24) = hw.unread (Xfull m c) :=
  hw.eq_unread (funext fun j => known_step m c t24 X (fun j' hj' => hK j' (by have : (t24 : Fin cfg0.N).val = 24 := rfl; omega)) mr hw j
    (by have : (t24 : Fin cfg0.N).val = 24 := rfl; have h50 : (j 0).val < 50 := (j 0).isLt; omega))

theorem known_full (c : Dev nD) (n : ℕ) : Known m c n (Xfull m c) := fun _ _ => rfl

end Cert.KernelIdeal.Fr

end
-- ==== Proof.KI.Pieces.lean ====
/-
  The stores each run of the body found, in closed form: the loads of whole buffers read their contents, and the one
  covered load of the first point reads back the product just stored.  At the last point the read-out's loads of the
  50×200 scratch come after the point's two stores, so they read the full table whatever the scratch held in the two
  rows those stores overwrite.
-/
import proofs.«133468_g27616639713709_cont_9to1_57_31_alg».proof.Proof.KI.Vals

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.ValueIdx

theorem runA_LS0 (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x128 .f32) (harg3 : arg3.IsWhole) (arg4 : Memref sig .tc .vmem S128x32 .f32) (harg4 : arg4.IsWhole) (arg5 : Memref sig .tc .vmem S10000x32 .f32) (harg5 : arg5.IsWhole) (arg6 : Memref sig .tc .vmem S1x32 .f32) (harg6 : arg6.IsWhole) (arg7 : Memref sig .tc .vmem S1x32 .f32) (harg7 : arg7.IsWhole) (arg8 : Memref sig .tc .vmem S10000x32 .f32) (harg8 : arg8.IsWhole) (arg9 : Memref sig .tc .vmem S50x200 .f32) (harg9 : arg9.IsWhole) (hc0 : cond0_0 i) (hc1 : ¬cond0_1 i)
    (x0 : Vec F S200x10000 .f32) (x1 : Vec F S200x10000 .f32) (x2 : Vec F S10000x128 .f32) (x3 : Vec F S128x32 .f32) (x4 : Vec F S10000x32 .f32) (x5 : Vec F S1x32 .f32) (xs1 : Vec F S50x200 .f32) :
    (kernelRun0_A c i arg1 harg1 arg2 harg2 arg3 harg3 arg4 harg4 arg5 harg5 arg6 harg6 arg7 harg7 arg8 harg8 arg9 harg9 hc0 hc1 x0 x1 x2 x3 x4 x5 xs1).1
      = [⟨Rect.unit (s := S10000x32) ![0, 0] S10000x32.size inb_S10000x32_S10000x32_0_0, k0_pay1 x2 x3⟩] := by
  unfold kernelRun0_A; dsimp only; sl_unfold_run_names
  simp only [readAt_whole]

theorem runA_LS1 (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x128 .f32) (harg3 : arg3.IsWhole) (arg4 : Memref sig .tc .vmem S128x32 .f32) (harg4 : arg4.IsWhole) (arg5 : Memref sig .tc .vmem S10000x32 .f32) (harg5 : arg5.IsWhole) (arg6 : Memref sig .tc .vmem S1x32 .f32) (harg6 : arg6.IsWhole) (arg7 : Memref sig .tc .vmem S1x32 .f32) (harg7 : arg7.IsWhole) (arg8 : Memref sig .tc .vmem S10000x32 .f32) (harg8 : arg8.IsWhole) (arg9 : Memref sig .tc .vmem S50x200 .f32) (harg9 : arg9.IsWhole) (hc0 : cond0_0 i) (hc1 : ¬cond0_1 i)
    (x0 : Vec F S200x10000 .f32) (x1 : Vec F S200x10000 .f32) (x2 : Vec F S10000x128 .f32) (x3 : Vec F S128x32 .f32) (x4 : Vec F S10000x32 .f32) (x5 : Vec F S1x32 .f32) (xs1 : Vec F S50x200 .f32) :
    (kernelRun0_A c i arg1 harg1 arg2 harg2 arg3 harg3 arg4 harg4 arg5 harg5 arg6 harg6 arg7 harg7 arg8 harg8 arg9 harg9 hc0 hc1 x0 x1 x2 x3 x4 x5 xs1).2.1
      = [⟨Rect.unit (s := S50x200) (k0_off2 i) S1x200.size (k0_off2_inb i), k0_pay3 (k0_pay1 x2 x3) x1⟩,
         ⟨Rect.unit (s := S50x200) (k0_off1 i) S1x200.size (k0_off1_inb i), k0_pay2 (k0_pay1 x2 x3) x0⟩] := by
  unfold kernelRun0_A; dsimp only; sl_unfold_run_names
  simp only [readAt_whole, View.readCov_unit_zero (S := S10000x32) _ hz]

theorem runB_LS1 (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x128 .f32) (harg3 : arg3.IsWhole) (arg4 : Memref sig .tc .vmem S128x32 .f32) (harg4 : arg4.IsWhole) (arg5 : Memref sig .tc .vmem S10000x32 .f32) (harg5 : arg5.IsWhole) (arg6 : Memref sig .tc .vmem S1x32 .f32) (harg6 : arg6.IsWhole) (arg7 : Memref sig .tc .vmem S1x32 .f32) (harg7 : arg7.IsWhole) (arg8 : Memref sig .tc .vmem S10000x32 .f32) (harg8 : arg8.IsWhole) (arg9 : Memref sig .tc .vmem S50x200 .f32) (harg9 : arg9.IsWhole) (hc0 : ¬cond0_0 i) (hc1 : ¬cond0_1 i)
    (x0 : Vec F S200x10000 .f32) (x1 : Vec F S200x10000 .f32) (x2 : Vec F S10000x128 .f32) (x3 : Vec F S128x32 .f32) (x4 : Vec F S10000x32 .f32) (x5 : Vec F S1x32 .f32) (xs0 : Vec F S10000x32 .f32) (xs1 : Vec F S50x200 .f32) :
    (kernelRun0_B c i arg1 harg1 arg2 harg2 arg3 harg3 arg4 harg4 arg5 harg5 arg6 harg6 arg7 harg7 arg8 harg8 arg9 harg9 hc0 hc1 x0 x1 x2 x3 x4 x5 xs0 xs1).1
      = [⟨Rect.unit (s := S50x200) (k0_off2 i) S1x200.size (k0_off2_inb i), k0_pay3 xs0 x1⟩,
         ⟨Rect.unit (s := S50x200) (k0_off1 i) S1x200.size (k0_off1_inb i), k0_pay2 xs0 x0⟩] := by
  unfold kernelRun0_B; dsimp only
  simp only [readAt_whole]

theorem runC_LS1 (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x128 .f32) (harg3 : arg3.IsWhole) (arg4 : Memref sig .tc .vmem S128x32 .f32) (harg4 : arg4.IsWhole) (arg5 : Memref sig .tc .vmem S10000x32 .f32) (harg5 : arg5.IsWhole) (arg6 : Memref sig .tc .vmem S1x32 .f32) (harg6 : arg6.IsWhole) (arg7 : Memref sig .tc .vmem S1x32 .f32) (harg7 : arg7.IsWhole) (arg8 : Memref sig .tc .vmem S10000x32 .f32) (harg8 : arg8.IsWhole) (arg9 : Memref sig .tc .vmem S50x200 .f32) (harg9 : arg9.IsWhole) (hc0 : ¬cond0_0 i) (hc1 : cond0_1 i)
    (x0 : Vec F S200x10000 .f32) (x1 : Vec F S200x10000 .f32) (x2 : Vec F S10000x128 .f32) (x3 : Vec F S128x32 .f32) (x4 : Vec F S10000x32 .f32) (x5 : Vec F S1x32 .f32) (xs0 : Vec F S10000x32 .f32) (xs1 : Vec F S50x200 .f32) :
    (kernelRun0_C c i arg1 harg1 arg2 harg2 arg3 harg3 arg4 harg4 arg5 harg5 arg6 harg6 arg7 harg7 arg8 harg8 arg9 harg9 hc0 hc1 x0 x1 x2 x3 x4 x5 xs0 xs1).2.1
      = [⟨Rect.unit (s := S50x200) (k0_off2 i) S1x200.size (k0_off2_inb i), k0_pay3 xs0 x1⟩,
         ⟨Rect.unit (s := S50x200) (k0_off1 i) S1x200.size (k0_off1_inb i), k0_pay2 xs0 x0⟩] := by
  unfold kernelRun0_C; dsimp only; sl_unfold_run_names
  simp only [readAt_whole]

/-- At the last point the output's store does not depend on what the 50×200 scratch held in rows 24 and 49. -/
theorem runC_indep (c : Dev nD) (arg1 : Memref sig .tc .vmem S200x10000 .f32) (harg1 : arg1.IsWhole) (arg2 : Memref sig .tc .vmem S200x10000 .f32) (harg2 : arg2.IsWhole) (arg3 : Memref sig .tc .vmem S10000x128 .f32) (harg3 : arg3.IsWhole) (arg4 : Memref sig .tc .vmem S128x32 .f32) (harg4 : arg4.IsWhole) (arg5 : Memref sig .tc .vmem S10000x32 .f32) (harg5 : arg5.IsWhole) (arg6 : Memref sig .tc .vmem S1x32 .f32) (harg6 : arg6.IsWhole) (arg7 : Memref sig .tc .vmem S1x32 .f32) (harg7 : arg7.IsWhole) (arg8 : Memref sig .tc .vmem S10000x32 .f32) (harg8 : arg8.IsWhole) (arg9 : Memref sig .tc .vmem S50x200 .f32) (harg9 : arg9.IsWhole) (hc0 : ¬cond0_0 (grid0.coords t24)) (hc1 : cond0_1 (grid0.coords t24))
    (x2 : Vec F S10000x128 .f32) (x3 : Vec F S128x32 .f32) (x4 : Vec F S10000x32 .f32) (x5 : Vec F S1x32 .f32)
    (X : Vec F S50x200 .f32) (hK : Known m c 23 X) :
    (kernelRun0_C c (grid0.coords t24) arg1 harg1 arg2 harg2 arg3 harg3 arg4 harg4 arg5 harg5 arg6 harg6 arg7 harg7 arg8 harg8 arg9 harg9 hc0 hc1 (iblk m c 0 t24) (iblk m c 1 t24) x2 x3 x4 x5 (sup m c) X).1
      = (kernelRun0_C c (grid0.coords t24) arg1 harg1 arg2 harg2 arg3 harg3 arg4 harg4 arg5 harg5 arg6 harg6 arg7 harg7 arg8 harg8 arg9 harg9 hc0 hc1 (iblk m c 0 t24) (iblk m c 1 t24) x2 x3 x4 x5 (sup m c) (Xfull m c)).1 := by
  have hW := writes_full m c X hK arg9 harg9
  have hW' := writes_full m c (Xfull m c) (known_full m c 23) arg9 harg9
  unfold pcsAt rowA rowB at hW hW'
  unfold kernelRun0_C; dsimp only; sl_unfold_run_names
  simp only [readAt_whole, hW, hW']

end Cert.KernelIdeal.Fr

end
-- ==== Proof.KI.Frame.lean ====
/-
  The frame of the blockwise program.  The proof data: each input window's buffer holds its block at every point; the
  output window's buffer holds, after the last point, what the read-out computes from the full 50×200 table; the region's
  invariant says what the two scratch buffers hold between points (the product in the first, the rows stored so far in
  the second).  The adj array is handed to its two windows at half shares.  From these the launch theorem for windows
  sharing an array gives the run, and the frame claim is read off it.
-/
import proofs.«133468_g27616639713709_cont_9to1_57_31_alg».proof.Proof.KI.Pieces

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.ValueIdx

theorem hc0_24 : ¬cond0_0 (grid0.coords t24) := fun h => absurd ((hcond0_0 t24).mp h) (by decide)
theorem hc1_24 : cond0_1 (grid0.coords t24) := (hcond0_1 t24).mpr rfl
theorem hc0_0 : cond0_0 (grid0.coords t0) := (hcond0_0 t0).mpr rfl
theorem hc1_0 : ¬cond0_1 (grid0.coords t0) := fun h => absurd ((hcond0_1 t0).mp h) (by decide)

/-- The last point's one store into the output buffer covers it. -/
theorem cover0_C_6 (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x128 .f32) (harg3 : arg3.IsWhole) (arg4 : Memref sig .tc .vmem S128x32 .f32) (harg4 : arg4.IsWhole) (arg5 : Memref sig .tc .vmem S10000x32 .f32) (harg5 : arg5.IsWhole) (arg6 : Memref sig .tc .vmem S1x32 .f32) (harg6 : arg6.IsWhole) (arg7 : Memref sig .tc .vmem S1x32 .f32) (harg7 : arg7.IsWhole) (arg8 : Memref sig .tc .vmem S10000x32 .f32) (harg8 : arg8.IsWhole) (arg9 : Memref sig .tc .vmem S50x200 .f32) (harg9 : arg9.IsWhole) (hc0 : ¬cond0_0 i) (hc1 : cond0_1 i)
    (x0 : Vec F S200x10000 .f32) (x1 : Vec F S200x10000 .f32) (x2 : Vec F S10000x128 .f32) (x3 : Vec F S128x32 .f32) (x4 : Vec F S10000x32 .f32) (x5 : Vec F S1x32 .f32) (xs0 : Vec F S10000x32 .f32) (xs1 : Vec F S50x200 .f32) (y : S1x32.Idx) :
    ∃ pc ∈ (kernelRun0_C c i arg1 harg1 arg2 harg2 arg3 harg3 arg4 harg4 arg5 harg5 arg6 harg6 arg7 harg7 arg8 harg8 arg9 harg9 hc0 hc1 x0 x1 x2 x3 x4 x5 xs0 xs1).1, y ∈ pc.1.set :=
  View.cover_of_tiledL (kernelRun0_C c i arg1 harg1 arg2 harg2 arg3 harg3 arg4 harg4 arg5 harg5 arg6 harg6 arg7 harg7 arg8 harg8 arg9 harg9 hc0 hc1 x0 x1 x2 x3 x4 x5 xs0 xs1).1 S1x32.size (by sl_kernel_rfl) y

/-- What the output buffer holds after the last point: the read-out of the full table. -/
def out24 (c : Dev nD) : Vec F S1x32 .f32 :=
  VO0_6.read (Elt F) (VO0_6.writes (Elt F) VO0_6.junk
    (kernelRun0_C c (grid0.coords t24) (ms0_0 t24) (hs0_0 t24) (ms0_1 t24) (hs0_1 t24) (ms0_2 t24) (hs0_2 t24) (ms0_3 t24) (hs0_3 t24) (ms0_4 t24) (hs0_4 t24) (ms0_5 t24) (hs0_5 t24) (ms0_6 t24) (hs0_6 t24) scM0_0 (Memref.isWhole_whole _) scM0_1 (Memref.isWhole_whole _) hc0_24 hc1_24 (iblk m c 0 t24) (iblk m c 1 t24) (iblk m c 2 t24) (iblk m c 3 t24) (iblk m c 4 t24) (iblk m c 5 t24) (sup m c) (Xfull m c)).1)

/-- The region's invariant before position n: at first the two scratch buffers at anything; afterwards the first at the
    product and the second at contents known up to point n - 1. -/
def PhiS (c : Dev nD) : (n : ℕ) → n ≤ cfg0.N → sProp 𝕄
  | 0, _ => Pipeline.scopedRest (Ix := Unit) (Name := ℕ) (U := UR sig nD τ) (Lvl := ℕ) (Val := Elt F) spec0 c
  | n + 1, _ => iprop(owns (c : Thread nD τ) scM0_0 fullShare (sup m c) ∗ (∃ X, ⌜Known m c n X⌝ ∗ owns (c : Thread nD τ) scM0_1 fullShare X))

theorem PhiS_zero (c : Dev nD) (n : ℕ) (h : n ≤ cfg0.N) (hz : n = 0) :
    PhiS m c n h = Pipeline.scopedRest (Ix := Unit) (Name := ℕ) (U := UR sig nD τ) (Lvl := ℕ) (Val := Elt F) spec0 c := by
  subst hz; rfl
theorem PhiS_succ (c : Dev nD) (n : ℕ) (hn : n < cfg0.N) :
    PhiS m c (n + 1) hn = iprop(owns (c : Thread nD τ) scM0_0 fullShare (sup m c) ∗ (∃ X, ⌜Known m c n X⌝ ∗ owns (c : Thread nD τ) scM0_1 fullShare X)) := rfl
theorem PhiS_pos (c : Dev nD) (n : ℕ) (h : n ≤ cfg0.N) (hz : n ≠ 0) :
    PhiS m c n h = iprop(owns (c : Thread nD τ) scM0_0 fullShare (sup m c) ∗ (∃ X, ⌜Known m c (n - 1) X⌝ ∗ owns (c : Thread nD τ) scM0_1 fullShare X)) := by
  cases n with
  | zero => exact absurd rfl hz
  | succ n => rfl

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => out24 m c
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = out24 m c := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  have hN25 : t.val < 25 := lt_of_lt_of_eq t.isLt N_0
  by_cases h0 : t.val = 0
  · -- the first point
    obtain rfl : t = t0 := Fin.ext h0
    rw [Dat.leavesExact_idle (dats m 0 c) 6 t0 (idleAt0_6 t0 hc1_0) (noFlush0_6 t0 hc1_0)]
    rw [PhiS_castSucc m c t0, PhiS_zero m c _ _ rfl, scopedRest_eq]
    iintro ⟨⟨⟨%ds0, HS0⟩, ⟨%ds1, HS1⟩⟩, Ho, ⟨%d0, H0⟩, ⟨%d1, H1⟩, ⟨%d2, H2⟩, ⟨%d3, H3⟩, ⟨%d4, H4⟩, ⟨%d5, H5⟩, ⟨%d6, H6⟩⟩
    iapply ((kernelRun0_A c (grid0.coords t0) _ _ _ _ _ _ _ _ _ _ _ _ _ _ _ _ _ _ hc0_0 hc1_0 (iblk m c 0 t0) (iblk m c 1 t0) (iblk m c 2 t0) (iblk m c 3 t0) (iblk m c 4 t0) (iblk m c 5 t0) ds1).2.2 _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexists _; iexact HS0
    isplitl [HS1]; · iexact HS1
    iintro ⟨H0, H1, H2, H3, H4, H5, H6, ⟨%es0, HS0⟩, HS1⟩
    isplitl [HS0 HS1]
    · isplitl [HS0]
      · unfold owns; iexists _; isplitr
        swap; · iexact HS0
        ipureintro
        rw [runA_LS0]
        exact (View.read_writes_eq_canon _ _ _ (fun y => ⟨_, List.mem_singleton_self _, View.mem_set_unit_zero hz inb_S10000x32_S10000x32_0_0 y⟩)).trans (View.canon_unit_zero hz _ _)
      · iexists (scM0_1.view.read (Elt F) (scM0_1.view.writes (Elt F) ((Memref.isWhole_whole cc0_scratch1).unread ds1) (pcsAt m c t0)))
        isplitr
        · ipureintro
          exact known_step m c t0 ds1 (fun j hj => by exfalso; have : (t0 : Fin cfg0.N).val = 0 := rfl; omega) scM0_1 _
        · unfold owns; iexists _; isplitr
          swap; · iexact HS1
          ipureintro
          rw [runA_LS1]; rfl
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists _; iexact H6
  · by_cases h24 : t.val = 24
    · -- the last point
      obtain rfl : t = t24 := Fin.ext h24
      rw [show (dats m 0 c).leavesExact 6 t24 = owns (c : Thread nD τ) (ms0_6 t24) fullShare ((dats m 0 c).after 6 t24) from by
        unfold Dat.leavesExact; rw [liveAt0_6 t24 hc1_24], after0_6]
      rw [PhiS_castSucc m c t24, PhiS_pos m c _ _ h0]
      iintro ⟨⟨HS0, ⟨%X, %hK, HS1⟩⟩, Ho, ⟨%d0, H0⟩, ⟨%d1, H1⟩, ⟨%d2, H2⟩, ⟨%d3, H3⟩, ⟨%d4, H4⟩, ⟨%d5, H5⟩, ⟨%d6, H6⟩⟩
      have hK23 : Known m c 23 X := hK
      iapply ((kernelRun0_C c (grid0.coords t24) _ _ _ _ _ _ _ _ _ _ _ _ _ _ _ _ _ _ hc0_24 hc1_24 (iblk m c 0 t24) (iblk m c 1 t24) (iblk m c 2 t24) (iblk m c 3 t24) (iblk m c 4 t24) (iblk m c 5 t24) (sup m c) X).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      isplitl [HS1]; · iexact HS1
      iintro ⟨H0, H1, H2, H3, H4, H5, ⟨%e6, H6⟩, HS0, HS1⟩
      isplitl [HS0 HS1]
      · isplitl [HS0]; · iexact HS0
        iexists (scM0_1.view.read (Elt F) (scM0_1.view.writes (Elt F) ((Memref.isWhole_whole cc0_scratch1).unread X) (pcsAt m c t24)))
        isplitr
        · ipureintro
          exact known_step m c t24 X (fun j hj => hK23 j (by have : (t24 : Fin cfg0.N).val = 24 := rfl; omega)) scM0_1 _
        · unfold owns; iexists _; isplitr
          swap; · iexact HS1
          ipureintro
          rw [runC_LS1]; rfl
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro
      rw [runC_indep m c _ _ _ _ _ _ _ _ _ _ _ _ _ _ _ _ _ _ hc0_24 hc1_24 _ _ _ _ X hK23]
      exact View.read_writes_of_cover _ _ _ _ _ (cover0_C_6 c _ _ _ _ _ _ _ _ _ _ _ _ _ _ _ _ _ _ _ _ _ _ _ _ _ _ _ _ _)
    · -- a middle point
      have hc0 : ¬cond0_0 (grid0.coords t) := fun h => h0 ((hcond0_0 t).mp h)
      have hc1 : ¬cond0_1 (grid0.coords t) := fun h => h24 ((hcond0_1 t).mp h)
      rw [Dat.leavesExact_idle (dats m 0 c) 6 t (idleAt0_6 t hc1) (noFlush0_6 t hc1)]
      rw [PhiS_castSucc m c t, PhiS_pos m c _ _ h0]
      iintro ⟨⟨HS0, ⟨%X, %hK, HS1⟩⟩, Ho, ⟨%d0, H0⟩, ⟨%d1, H1⟩, ⟨%d2, H2⟩, ⟨%d3, H3⟩, ⟨%d4, H4⟩, ⟨%d5, H5⟩, ⟨%d6, H6⟩⟩
      iapply ((kernelRun0_B c (grid0.coords t) _ _ _ _ _ _ _ _ _ _ _ _ _ _ _ _ _ _ hc0 hc1 (iblk m c 0 t) (iblk m c 1 t) (iblk m c 2 t) (iblk m c 3 t) (iblk m c 4 t) (iblk m c 5 t) (sup m c) X).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      iintro ⟨H0, H1, H2, H3, H4, H5, H6, HS0, HS1⟩
      isplitl [HS0 HS1]
      · isplitl [HS0]; · iexact HS0
        iexists (scM0_1.view.read (Elt F) (scM0_1.view.writes (Elt F) ((Memref.isWhole_whole cc0_scratch1).unread X) (pcsAt m c t)))
        isplitr
        · ipureintro
          exact known_step m c t X (fun j hj => hK j (by omega)) scM0_1 _
        · unfold owns; iexists _; isplitr
          swap; · iexact HS1
          ipureintro
          rw [runB_LS1]; rfl
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

theorem body_obligation (c : Dev nD) : BodyObligation (dats (F := F) m 0 c) (defs₀ (F := F)) Variants.none () Set.univ := fun t => by
  rw [bigSep_W0, bigSep_W0]
  exact sound_body m c t

/-! ## The launch's entailments -/

theorem hin (c : Dev nD) : (Pipeline.scopedRest (Ix := Unit) (Name := ℕ) (U := UR sig nD τ) (Lvl := ℕ) (Val := Elt F) spec0 c : sProp 𝕄) ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ (Pipeline.scopedRest (Ix := Unit) (Name := ℕ) (U := UR sig nD τ) (Lvl := ℕ) (Val := Elt F) spec0 c : sProp 𝕄) := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 25 := N_0; omega), scopedRest_eq]
  iintro ⟨HS0, ⟨%X, -, HS1⟩⟩
  isplitl [HS0]
  · iexists _; iexact HS0
  iexists _; iexact HS1

/-- The buffers behind the windows' arrays, listed. -/
theorem arrBufs_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_v1) ↦{fullShare} W main_v1) ∗ (((c : Thread nD τ).loc main_v0) ↦{fullShare} W main_v0) ∗ (((c : Thread nD τ).loc main_arg2) ↦{fullShare} W main_arg2) ∗ (((c : Thread nD τ).loc main_arg3) ↦{fullShare} W main_arg3) ∗ (((c : Thread nD τ).loc main_v2) ↦{fullShare} W main_v2) ∗ (((c : Thread nD τ).loc main_v3) ↦{fullShare} W main_v3)) := by
  unfold Pipeline.arrBufs
  exact bigSep_eq_bigSepL_of_eq [main_v1, main_v0, main_arg2, main_arg3, main_v2, main_v3] (by decide) (by decide) _

/-- The adj array, whole at the region's entry, is dealt to its two windows at half shares; every other array goes whole
    to its one window. -/
theorem hsplit (c : Dev nD) :
    (Pipeline.arrBufs (Ix := Unit) (Name := ℕ) (U := UR sig nD τ) (Lvl := ℕ) spec0 c (V m c) : sProp 𝕄) ⊢ (dats m 0 c).arrays ((dats m 0 c).arrAt · 0) := by
  rw [arrBufs_eq]
  have harr : (dats m 0 c).arrays ((dats m 0 c).arrAt · 0)
      = bigSep Finset.univ fun w : Fin cfg0.W => (((c : Thread nD τ).loc (Pipeline.arrRef spec0 w)) ↦{(dats m 0 c).share w} V m c (Pipeline.arrRef spec0 w) : sProp 𝕄) := by
    unfold Dat.arrays
    exact bigSep_congr fun w _ => by
      rw [(arr_whole0 w).set_eq_univ]; beta_reduce; rw [show (dats m 0 c).arrAt w 0 = (dats m 0 c).A w from rfl, A_eq]
  rw [harr, bigSep_W0]
  rw [show (dats m 0 c).share 0 = fullShare.left from rfl, show (dats m 0 c).share 1 = fullShare.right from rfl,
    show (dats m 0 c).share 2 = fullShare from rfl, show (dats m 0 c).share 3 = fullShare from rfl,
    show (dats m 0 c).share 4 = fullShare from rfl, show (dats m 0 c).share 5 = fullShare from rfl,
    show (dats m 0 c).share 6 = fullShare from rfl]
  iintro ⟨H1, H0, H2, H3, H4, H6⟩
  ihave H1 := (pointsTo_share (PosShare.mem_left_op_right fullShare)).1 $$ H1
  icases H1 with ⟨H1a, H1b⟩
  isplitl [H1a]; · iexact H1a
  isplitl [H1b]; · iexact H1b
  isplitl [H0]; · iexact H0
  isplitl [H2]; · iexact H2
  isplitl [H3]; · iexact H3
  isplitl [H4]; · iexact H4
  iexact H6

/-! ## The run and the frame -/

set_option backward.isDefEq.respectTransparency.types false in
theorem run_main : θ_run defs (onTc (τ := τ) (main (F := F))) (s₀ m ρ) (Pipeline.FramePost cfgs (dats m) 0 (V m)) :=
  Pipeline.θ_run_frame_track_shared cfgs (dats m) (0 : Fin 1) cellOf_inj winFacts₀0 defs₀ Variants.none m ρ main
    (hbody := fun c => (body_obligation m c).loose) (hne := block_pos0) (harr := arr_whole0) (hstage := stage_whole0)
    (howed := fun _ _ => rfl) (V := V m) (hmain := hmain m Variants.none) (hsplit := hsplit m) (hin := hin m) (hout := hout m)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

end Cert.KernelIdeal.Fr

end
-- ==== Proof.KI.Final.lean ====
/-
  The result array after the run.  The output window's one block is the whole [1, 32] array and it is written back once,
  after the last point; so the array ends holding what the output buffer held then: the read-out of the full table.
-/
import proofs.«133468_g27616639713709_cont_9to1_57_31_alg».proof.Proof.KI.Frame

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.ValueIdx

/-- The one write-back, after point 24, writes the read-out: block (0, 0) of the [1, 32] array is the array. -/
theorem flushed_eq (c : Dev nD) (t : Fin cfg0.N) (hf : (cfg0.win 6).flush t = true) :
    (dats m 0 c).flushed 6 t = ((cfg0.win 6).blk t).view.read (Elt F) (out24 m c : Buf (Elt F) ((c : Thread nD τ).loc main_v3)) := by
  have hN : cfg0.N = 25 := N_0
  have h24 : t.val = 24 := by have := (flush0_6 t).mp hf; have := t.isLt; omega
  obtain rfl : t = t24 := Fin.ext h24
  show (cfg0.win 6).cut (grid0.coords t24) ((dats m 0 c).after 6 t24) = _
  rw [after0_6]
  have hz' : (fun a => win0_6.index t24 a * main_v3.ty.shape.size a) = fun _ => 0 := funext fun a => by fin_cases a <;> decide
  exact (Memref.read_access_unit_zero (Elt F) main_v3 hz' (fun a => by rw [congrFun hz' a]; simp) (out24 m c : Buf (Elt F) ((c : Thread nD τ).loc main_v3))).symm

/-- So the result array ends holding the read-out of the full table. -/
theorem final_o (c : Dev nD) : (dats m 0 c).arrAt 6 cfg0.N = (out24 m c : Buf (Elt F) ((c : Thread nD τ).loc main_v3)) :=
  (dats m 0 c).arrAt_eq_of_cover 6 (out24 m c : Buf (Elt F) ((c : Thread nD τ).loc main_v3)) (flushed_eq m c) fun i =>
    ⟨t24, (flush0_6 t24).mpr rfl, by
      show i ∈ ((View.whole main_v3).slice (win0_6.rect t24)).set
      rw [View.set_slice_whole, Rect.mem_set_unit]
      intro a
      have h0 : (i 0 : Nat) < 1 := (i 0).isLt
      have h1 : (i 1 : Nat) < 32 := (i 1).isLt
      match a with
      | ⟨0, _⟩ => show win0_6.index t24 0 * win0_6.size 0 ≤ (i 0 : Nat) ∧ (i 0 : Nat) < win0_6.index t24 0 * win0_6.size 0 + win0_6.xsize (grid0.coords t24) 0
                  rw [show win0_6.index t24 0 * win0_6.size 0 = 0 from by decide +kernel, show win0_6.xsize (grid0.coords t24) 0 = 1 from by decide +kernel]; omega
      | ⟨1, _⟩ => show win0_6.index t24 1 * win0_6.size 1 ≤ (i 1 : Nat) ∧ (i 1 : Nat) < win0_6.index t24 1 * win0_6.size 1 + win0_6.xsize (grid0.coords t24) 1
                  rw [show win0_6.index t24 1 * win0_6.size 1 = 0 from by decide +kernel, show win0_6.xsize (grid0.coords t24) 1 = 32 from by decide +kernel]; omega⟩

/-- The run, read: the result array at the read-out of the full table, the arguments unchanged. -/
theorem run : θ_run defs (onTc (τ := τ) (main (F := F))) ⟨m, fun _ => 0, ρ⟩ fun r => ∀ c : Dev nD,
      r.2.mem ((c.tc : Thread nD τ).loc main_v3) = (out24 m c : Buf (Elt F) ((c : Thread nD τ).loc main_v3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨((h c).1 6).trans (final_o m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).1 3).trans (((dats m 0 c).arrAt_in 3 rfl _).trans ((A_eq m c 3).trans (V_main_arg2 m c))),
      ((h c).1 4).trans (((dats m 0 c).arrAt_in 4 rfl _).trans ((A_eq m c 4).trans (V_main_arg3 m c))),
      ((h c).2 main_arg4 (Pipeline.mem_restRefs_of main_arg4 (by decide) (by decide))).trans (V_main_arg4 m c)⟩)
    (run_main m ρ)

end Cert.KernelIdeal.Fr

end
-- ==== Proof.KI.Blocks.lean ====
/-
  The windows' blocks read off the arrays, and the three arrays the host reshapes wrote, at an index.

  The host prefix only drops or adds a leading unit axis: the 10000×128 array is the first argument at (0, m, d),
  the 10000×10000 array the second argument at (0, n, m), the 1×32 array the fifth argument at l. Windows 0 and 1
  read 200-row blocks of the 10000×10000 array: at grid point t, window 0's row j is row 200·t + j and window 1's
  row j is row 200·(25 + t) + j, all 10000 columns. Windows 2 to 5 have one block, the whole array, at every point.
-/
import proofs.«133468_g27616639713709_cont_9to1_57_31_alg».proof.Proof.KI.Runs
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

variable (m : (ℓ : Loc nD τ sig) → Buf (Elt F) ℓ)

/-! ## The arrays the host reshapes wrote, at an index -/

/-- The 10000×128 array is the first argument with its leading unit axis dropped. -/
theorem V_v0 (c : Dev nD) (mm : Fin 10000) (d : Fin 128) :
    (V m c main_v0 : S10000x128.Idx → Elt F .f32) (ix2 mm d)
      = m ((c : Thread nD τ).loc main_arg0) (ix3 (0 : Fin 1) mm d) := by
  have e : (V m c main_v0 : S10000x128.Idx → Elt F .f32)
      = shapeCast S10000x128 (m ((c : Thread nD τ).loc main_arg0) : S1x10000x128.Idx → Elt F .f32)
          Facts₀.shapeCasts_S1x10000x128_S10000x128 := by
    dsimp only [V, hostOps0]; after_results; rfl
  rw [e]
  exact shapeCast_1ab_ab_apply _ _ mm d

/-- The 10000×10000 array is the second argument with its leading unit axis dropped. -/
theorem V_v1 (c : Dev nD) (n mm : Fin 10000) :
    (V m c main_v1 : S10000x10000.Idx → Elt F .f32) (ix2 n mm)
      = m ((c : Thread nD τ).loc main_arg1) (ix3 (0 : Fin 1) n mm) := by
  have e : (V m c main_v1 : S10000x10000.Idx → Elt F .f32)
      = shapeCast S10000x10000 (m ((c : Thread nD τ).loc main_arg1) : S1x10000x10000.Idx → Elt F .f32)
          Facts₀.shapeCasts_S1x10000x10000_S10000x10000 := by
    dsimp only [V, hostOps0]; after_results; rfl
  rw [e]
  exact shapeCast_1ab_ab_apply _ _ n mm

/-- The 1×32 array is the fifth argument with a leading unit axis added. -/
theorem V_v2 (c : Dev nD) (l : Fin 32) :
    (V m c main_v2 : S1x32.Idx → Elt F .f32) (ix2 (0 : Fin 1) l)
      = m ((c : Thread nD τ).loc main_arg4) (ix1 l) := by
  have e : (V m c main_v2 : S1x32.Idx → Elt F .f32)
      = shapeCast S1x32 (m ((c : Thread nD τ).loc main_arg4) : S32.Idx → Elt F .f32)
          Facts₀.shapeCasts_S32_S1x32 := by
    dsimp only [V, hostOps0]; after_results; rfl
  rw [e]
  exact shapeCast_a_1a_apply _ _ (0 : Fin 1) l

/-! ## The index maps over the grid -/

/-- Window 0's block index at point `t`: block row `t`, block column 0. -/
theorem idx0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
/-- Window 1's block index at point `t`: block row `25 + t`, block column 0. -/
theorem idx1 : ∀ t : Fin cfg0.N, win0_1.index t (0 : Fin 2) = 25 + t.val ∧ win0_1.index t (1 : Fin 2) = 0 :=
  (by decide +kernel : ∀ t : Fin grid0.N, win0_1.index t (0 : Fin 2) = 25 + t.val ∧ win0_1.index t (1 : Fin 2) = 0)
/-- Windows 2 to 5 stay at block (0, 0). -/
theorem idx2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)
theorem idx3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)
theorem idx4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)
theorem idx5 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)

/-! ## The blocks read off the arrays

A block's coordinate on an axis is the block index times the block size plus the coordinate inside the block. -/

/-- Window 0's block at point `t`: row `j` of the block is row `200·t + j` of the 10000×10000 array. -/
theorem iblk0_apply (c : Dev nD) (t : Fin cfg0.N) (j : Fin 200) (mm : Fin 10000) :
    (iblk m c 0 t : S200x10000.Idx → Elt F .f32) (ix2 j mm)
      = (V m c main_v1 : S10000x10000.Idx → Elt F .f32)
          (ix2 ⟨200 * t.val + j.val, by have := t.isLt; have h : cfg0.N = 25 := N_0; omega⟩ mm) := by
  have hi := idx0 t
  unfold iblk
  rw [View.read_apply]
  show (V m c main_v1 : S10000x10000.Idx → Elt F .f32) _ = (V m c main_v1 : S10000x10000.Idx → Elt F .f32) _
  refine congrArg (V m c main_v1 : S10000x10000.Idx → Elt F .f32) (funext fun a => Fin.ext ?_)
  match a with
  | ⟨0, _⟩ => show win0_0.index t 0 * 200 + 1 * j.val = 200 * t.val + j.val; rw [hi.1]; omega
  | ⟨1, _⟩ => show win0_0.index t 1 * 10000 + 1 * mm.val = mm.val; rw [hi.2]; omega

/-- Window 1's block at point `t`: row `j` of the block is row `200·(25 + t) + j` of the 10000×10000 array. -/
theorem iblk1_apply (c : Dev nD) (t : Fin cfg0.N) (j : Fin 200) (mm : Fin 10000) :
    (iblk m c 1 t : S200x10000.Idx → Elt F .f32) (ix2 j mm)
      = (V m c main_v1 : S10000x10000.Idx → Elt F .f32)
          (ix2 ⟨200 * (25 + t.val) + j.val, by have := t.isLt; have h : cfg0.N = 25 := N_0; omega⟩ mm) := by
  have hi := idx1 t
  unfold iblk
  rw [View.read_apply]
  show (V m c main_v1 : S10000x10000.Idx → Elt F .f32) _ = (V m c main_v1 : S10000x10000.Idx → Elt F .f32) _
  refine congrArg (V m c main_v1 : S10000x10000.Idx → Elt F .f32) (funext fun a => Fin.ext ?_)
  match a with
  | ⟨0, _⟩ => show win0_1.index t 0 * 200 + 1 * j.val = 200 * (25 + t.val) + j.val; rw [hi.1]; omega
  | ⟨1, _⟩ => show win0_1.index t 1 * 10000 + 1 * mm.val = mm.val; rw [hi.2]; omega

/-- Window 2's one block is its whole array, at every grid point. -/
theorem iblk2_eq (c : Dev nD) (t : Fin cfg0.N) :
    (iblk m c 2 t : S10000x128.Idx → Elt F .f32) = V m c main_v0 := by
  have hi := idx2 t
  funext y
  unfold iblk
  rw [View.read_apply]
  show (V m c main_v0 : S10000x128.Idx → Elt F .f32) _ = (V m c main_v0 : S10000x128.Idx → Elt F .f32) y
  refine congrArg (V m c main_v0 : S10000x128.Idx → Elt F .f32) (funext fun a => Fin.ext ?_)
  match a with
  | ⟨0, _⟩ => show win0_2.index t 0 * 10000 + 1 * (y 0).val = (y 0).val; rw [hi.1]; omega
  | ⟨1, _⟩ => show win0_2.index t 1 * 128 + 1 * (y 1).val = (y 1).val; rw [hi.2]; omega

/-- Window 3's one block is its whole array, at every grid point. -/
theorem iblk3_eq (c : Dev nD) (t : Fin cfg0.N) :
    (iblk m c 3 t : S128x32.Idx → Elt F .f32) = V m c main_arg2 := by
  have hi := idx3 t
  funext y
  unfold iblk
  rw [View.read_apply]
  show (V m c main_arg2 : S128x32.Idx → Elt F .f32) _ = (V m c main_arg2 : S128x32.Idx → Elt F .f32) y
  refine congrArg (V m c main_arg2 : S128x32.Idx → Elt F .f32) (funext fun a => Fin.ext ?_)
  match a with
  | ⟨0, _⟩ => show win0_3.index t 0 * 128 + 1 * (y 0).val = (y 0).val; rw [hi.1]; omega
  | ⟨1, _⟩ => show win0_3.index t 1 * 32 + 1 * (y 1).val = (y 1).val; rw [hi.2]; omega

/-- Window 4's one block is its whole array, at every grid point. -/
theorem iblk4_eq (c : Dev nD) (t : Fin cfg0.N) :
    (iblk m c 4 t : S10000x32.Idx → Elt F .f32) = V m c main_arg3 := by
  have hi := idx4 t
  funext y
  unfold iblk
  rw [View.read_apply]
  show (V m c main_arg3 : S10000x32.Idx → Elt F .f32) _ = (V m c main_arg3 : S10000x32.Idx → Elt F .f32) y
  refine congrArg (V m c main_arg3 : S10000x32.Idx → Elt F .f32) (funext fun a => Fin.ext ?_)
  match a with
  | ⟨0, _⟩ => show win0_4.index t 0 * 10000 + 1 * (y 0).val = (y 0).val; rw [hi.1]; omega
  | ⟨1, _⟩ => show win0_4.index t 1 * 32 + 1 * (y 1).val = (y 1).val; rw [hi.2]; omega

/-- Window 5's one block is its whole array, at every grid point. -/
theorem iblk5_eq (c : Dev nD) (t : Fin cfg0.N) :
    (iblk m c 5 t : S1x32.Idx → Elt F .f32) = V m c main_v2 := by
  have hi := idx5 t
  funext y
  unfold iblk
  rw [View.read_apply]
  show (V m c main_v2 : S1x32.Idx → Elt F .f32) _ = (V m c main_v2 : S1x32.Idx → Elt F .f32) y
  refine congrArg (V m c main_v2 : S1x32.Idx → Elt F .f32) (funext fun a => Fin.ext ?_)
  match a with
  | ⟨0, _⟩ => show win0_5.index t 0 * 1 + 1 * (y 0).val = (y 0).val; rw [hi.1]; omega
  | ⟨1, _⟩ => show win0_5.index t 1 * 32 + 1 * (y 1).val = (y 1).val; rw [hi.2]; omega

end Cert.KernelIdeal.Fr

end
-- ==== Proof.PayIdx.lean ====
/-
  The kernel body's thirteen payloads read at an index, at the ideal values (entries are extended reals).

  A product of a [1,200] row with a [200,32] block into the zero accumulator is, at lane l, the plain sum over the 200
  contracted coordinates of row entry times block entry (`dot`).  The projection payload is the [10000,128] × [128,32]
  product; the two row-sum payloads contract axis 0 of a [10000,32] array with axis 1 of a [200,10000] block, rectify
  against zero and sum the 32 lanes; the ten read-out payloads add such row-by-block products to an accumulator, left
  to right.
-/
import proofs.«133468_g27616639713709_cont_9to1_57_31_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value
import Mathlib

set_option maxRecDepth 16384

noncomputable section

namespace Cert.KernelIdeal.PayIdx

open Cert.KernelIdeal Cert.KernelIdeal.Gen
open Idealize.ShloMosaic Idealize.ShloMosaic.ValueIdx Idealize.SL.Sem
open scoped BigOperators

/-- The product of a [1,200] row with a [200,32] block at lane `l`: the sum over the 200 contracted coordinates. -/
def dot (r : Vec Ideal S1x200 .f32) (w : Vec Ideal S200x32 .f32) (l : Fin 32) : EReal :=
  ∑ j : Fin 200, r (ix2 (0 : Fin 1) j) * w (ix2 j l)

/-! ## The row-by-block product into the zero accumulator -/

theorem lhs3_0 (i : S1x32.Idx) (q : (dot_S1x200_S200x32_S1x32_1_0_0_1_n_n).contr.Idx) :
    ((dot_S1x200_S200x32_S1x32_1_0_0_1_n_n).lhsIdx i q 0).val = (i 0).val := by
  unfold DotDims.lhsIdx
  rw [dif_neg (show ¬(0 : Fin S1x200.rank) ∈ (dot_S1x200_S200x32_S1x32_1_0_0_1_n_n).lhsBatch by decide),
    dif_pos (show (0 : Fin S1x200.rank) ∈ (dot_S1x200_S200x32_S1x32_1_0_0_1_n_n).lhsNonContracting by decide)]
  rfl
theorem lhs3_1 (i : S1x32.Idx) (q : (dot_S1x200_S200x32_S1x32_1_0_0_1_n_n).contr.Idx) :
    ((dot_S1x200_S200x32_S1x32_1_0_0_1_n_n).lhsIdx i q 1).val = (q ⟨0, by decide⟩).val :=
  (dot_S1x200_S200x32_S1x32_1_0_0_1_n_n).lhsIdx_val_of_single rfl i q
theorem rhs3_0 (i : S1x32.Idx) (q : (dot_S1x200_S200x32_S1x32_1_0_0_1_n_n).contr.Idx) :
    ((dot_S1x200_S200x32_S1x32_1_0_0_1_n_n).rhsIdx i q 0).val = (q ⟨0, by decide⟩).val :=
  (dot_S1x200_S200x32_S1x32_1_0_0_1_n_n).rhsIdx_val_of_single rfl i q
theorem rhs3_1 (i : S1x32.Idx) (q : (dot_S1x200_S200x32_S1x32_1_0_0_1_n_n).contr.Idx) :
    ((dot_S1x200_S200x32_S1x32_1_0_0_1_n_n).rhsIdx i q 1).val = (i 1).val := by
  unfold DotDims.rhsIdx
  rw [dif_neg (show ¬(1 : Fin S200x32.rank) ∈ (dot_S1x200_S200x32_S1x32_1_0_0_1_n_n).rhsBatch by decide),
    dif_pos (show (1 : Fin S200x32.rank) ∈ (dot_S1x200_S200x32_S1x32_1_0_0_1_n_n).rhsNonContracting by decide)]
  rfl

/-- A [1,200] row times a [200,32] block into the zero accumulator, at lane `l`, is `dot`. -/
theorem matmul_row_apply (r : Vec Ideal S1x200 .f32) (w : Vec Ideal S200x32 .f32) (l : Fin 32) :
    matmul (F := Ideal) (φ₁ := .f32) (φ₂ := .f32) dot_S1x200_S200x32_S1x32_1_0_0_1_n_n none r w (constant S1x32 .f32 0x00000000#32)
      (ix2 (0 : Fin 1) l) = dot r w l := by
  unfold dot
  refine (Ideal.matmul_constant_zero_apply (φ₁ := .f32) (φ₂ := .f32) dot_S1x200_S200x32_S1x32_1_0_0_1_n_n none r w (ix2 (0 : Fin 1) l)).trans ?_
  rw [← Equiv.sum_comp (contrEquiv1 dot_S1x200_S200x32_S1x32_1_0_0_1_n_n 200 rfl rfl).symm]
  refine Finset.sum_congr rfl fun k _ => ?_
  have hk := contrEquiv1_symm_val dot_S1x200_S200x32_S1x32_1_0_0_1_n_n 200 rfl rfl k
  have el : (dot_S1x200_S200x32_S1x32_1_0_0_1_n_n).lhsIdx (ix2 (0 : Fin 1) l)
      ((contrEquiv1 dot_S1x200_S200x32_S1x32_1_0_0_1_n_n 200 rfl rfl).symm k) = ix2 (0 : Fin 1) k :=
    funext fun a => Fin.ext (by
      match a with
      | ⟨0, _⟩ => exact lhs3_0 _ _
      | ⟨1, _⟩ => exact (lhs3_1 _ _).trans hk)
  have er : (dot_S1x200_S200x32_S1x32_1_0_0_1_n_n).rhsIdx (ix2 (0 : Fin 1) l)
      ((contrEquiv1 dot_S1x200_S200x32_S1x32_1_0_0_1_n_n 200 rfl rfl).symm k) = ix2 k l :=
    funext fun a => Fin.ext (by
      match a with
      | ⟨0, _⟩ => exact (rhs3_0 _ _).trans hk
      | ⟨1, _⟩ => exact rhs3_1 _ _)
  rw [el, er]

/-- One step of a read-out payload: an accumulator plus a row-by-block product into zero, at lane `l`. -/
theorem step_apply (acc : FVec Ideal S1x32 .f32) (r : Vec Ideal S1x200 .f32) (w : Vec Ideal S200x32 .f32) (l : Fin 32) :
    addf acc (matmul (F := Ideal) (φ₁ := .f32) (φ₂ := .f32) dot_S1x200_S200x32_S1x32_1_0_0_1_n_n none r w
      (constant S1x32 .f32 0x00000000#32)) (ix2 (0 : Fin 1) l) = acc (ix2 (0 : Fin 1) l) + dot r w l :=
  congrArg (acc (ix2 (0 : Fin 1) l) + ·) (matmul_row_apply r w l)

/-! ## The [10000,128] × [128,32] product -/

theorem lhs1_0 (i : S10000x32.Idx) (q : (dot_S10000x128_S128x32_S10000x32_1_0_0_1_n_n).contr.Idx) :
    ((dot_S10000x128_S128x32_S10000x32_1_0_0_1_n_n).lhsIdx i q 0).val = (i 0).val := by
  unfold DotDims.lhsIdx
  rw [dif_neg (show ¬(0 : Fin S10000x128.rank) ∈ (dot_S10000x128_S128x32_S10000x32_1_0_0_1_n_n).lhsBatch by decide),
    dif_pos (show (0 : Fin S10000x128.rank) ∈ (dot_S10000x128_S128x32_S10000x32_1_0_0_1_n_n).lhsNonContracting by decide)]
  rfl
theorem lhs1_1 (i : S10000x32.Idx) (q : (dot_S10000x128_S128x32_S10000x32_1_0_0_1_n_n).contr.Idx) :
    ((dot_S10000x128_S128x32_S10000x32_1_0_0_1_n_n).lhsIdx i q 1).val = (q ⟨0, by decide⟩).val :=
  (dot_S10000x128_S128x32_S10000x32_1_0_0_1_n_n).lhsIdx_val_of_single rfl i q
theorem rhs1_0 (i : S10000x32.Idx) (q : (dot_S10000x128_S128x32_S10000x32_1_0_0_1_n_n).contr.Idx) :
    ((dot_S10000x128_S128x32_S10000x32_1_0_0_1_n_n).rhsIdx i q 0).val = (q ⟨0, by decide⟩).val :=
  (dot_S10000x128_S128x32_S10000x32_1_0_0_1_n_n).rhsIdx_val_of_single rfl i q
theorem rhs1_1 (i : S10000x32.Idx) (q : (dot_S10000x128_S128x32_S10000x32_1_0_0_1_n_n).contr.Idx) :
    ((dot_S10000x128_S128x32_S10000x32_1_0_0_1_n_n).rhsIdx i q 1).val = (i 1).val := by
  unfold DotDims.rhsIdx
  rw [dif_neg (show ¬(1 : Fin S128x32.rank) ∈ (dot_S10000x128_S128x32_S10000x32_1_0_0_1_n_n).rhsBatch by decide),
    dif_pos (show (1 : Fin S128x32.rank) ∈ (dot_S10000x128_S128x32_S10000x32_1_0_0_1_n_n).rhsNonContracting by decide)]
  rfl

/-- A [10000,128] array times a [128,32] block into the zero accumulator, at `(n, f)`: the sum over the 128
    contracted coordinates. -/
theorem matmul_proj_apply (v : Vec Ideal S10000x128 .f32) (w : Vec Ideal S128x32 .f32) (n : Fin 10000) (f : Fin 32) :
    matmul (F := Ideal) (φ₁ := .f32) (φ₂ := .f32) dot_S10000x128_S128x32_S10000x32_1_0_0_1_n_n none v w (constant S10000x32 .f32 0x00000000#32)
      (ix2 n f) = ∑ d : Fin 128, v (ix2 n d) * w (ix2 d f) := by
  refine (Ideal.matmul_constant_zero_apply (φ₁ := .f32) (φ₂ := .f32) dot_S10000x128_S128x32_S10000x32_1_0_0_1_n_n none v w (ix2 n f)).trans ?_
  rw [← Equiv.sum_comp (contrEquiv1 dot_S10000x128_S128x32_S10000x32_1_0_0_1_n_n 128 rfl rfl).symm]
  refine Finset.sum_congr rfl fun k _ => ?_
  have hk := contrEquiv1_symm_val dot_S10000x128_S128x32_S10000x32_1_0_0_1_n_n 128 rfl rfl k
  have el : (dot_S10000x128_S128x32_S10000x32_1_0_0_1_n_n).lhsIdx (ix2 n f)
      ((contrEquiv1 dot_S10000x128_S128x32_S10000x32_1_0_0_1_n_n 128 rfl rfl).symm k) = ix2 n k :=
    funext fun a => Fin.ext (by
      match a with
      | ⟨0, _⟩ => exact lhs1_0 _ _
      | ⟨1, _⟩ => exact (lhs1_1 _ _).trans hk)
  have er : (dot_S10000x128_S128x32_S10000x32_1_0_0_1_n_n).rhsIdx (ix2 n f)
      ((contrEquiv1 dot_S10000x128_S128x32_S10000x32_1_0_0_1_n_n 128 rfl rfl).symm k) = ix2 k f :=
    funext fun a => Fin.ext (by
      match a with
      | ⟨0, _⟩ => exact (rhs1_0 _ _).trans hk
      | ⟨1, _⟩ => exact rhs1_1 _ _)
  rw [el, er]

/-- The projection payload's term: the product between two shape casts to the same shape. -/
theorem proj_apply (v : Vec Ideal S10000x128 .f32) (w : Vec Ideal S128x32 .f32) (n : Fin 10000) (f : Fin 32)
    (h1 : S10000x128.ShapeCasts S10000x128) (h2 : S10000x32.ShapeCasts S10000x32) :
    shapeCast S10000x32 (matmul (F := Ideal) (φ₁ := .f32) (φ₂ := .f32) dot_S10000x128_S128x32_S10000x32_1_0_0_1_n_n none
        (shapeCast S10000x128 v h1) w (constant S10000x32 .f32 0x00000000#32)) h2 (ix2 n f)
      = ∑ d : Fin 128, v (ix2 n d) * w (ix2 d f) := by
  rw [shapeCast_self _ h2, shapeCast_self v h1]
  exact matmul_proj_apply v w n f

/-- `k0_pay1`: the [10000,128] × [128,32] product. -/
theorem pay1_apply (v : Vec Ideal S10000x128 .f32) (w : Vec Ideal S128x32 .f32) (n : Fin 10000) (f : Fin 32) :
    k0_pay1 (F := Ideal) v w (ix2 n f) = ∑ d : Fin 128, v (ix2 n d) * w (ix2 d f) := by
  unfold k0_pay1
  exact proj_apply v w n f _ _

/-! ## The row sums of the rectified product -/

theorem lhs2_0 (i : S32x200.Idx) (q : (dot_S10000x32_S200x10000_S32x200_0_1_1_0_n_n).contr.Idx) :
    ((dot_S10000x32_S200x10000_S32x200_0_1_1_0_n_n).lhsIdx i q 0).val = (q ⟨0, by decide⟩).val :=
  (dot_S10000x32_S200x10000_S32x200_0_1_1_0_n_n).lhsIdx_val_of_single rfl i q
theorem lhs2_1 (i : S32x200.Idx) (q : (dot_S10000x32_S200x10000_S32x200_0_1_1_0_n_n).contr.Idx) :
    ((dot_S10000x32_S200x10000_S32x200_0_1_1_0_n_n).lhsIdx i q 1).val = (i 0).val := by
  unfold DotDims.lhsIdx
  rw [dif_neg (show ¬(1 : Fin S10000x32.rank) ∈ (dot_S10000x32_S200x10000_S32x200_0_1_1_0_n_n).lhsBatch by decide),
    dif_pos (show (1 : Fin S10000x32.rank) ∈ (dot_S10000x32_S200x10000_S32x200_0_1_1_0_n_n).lhsNonContracting by decide)]
  rfl
theorem rhs2_0 (i : S32x200.Idx) (q : (dot_S10000x32_S200x10000_S32x200_0_1_1_0_n_n).contr.Idx) :
    ((dot_S10000x32_S200x10000_S32x200_0_1_1_0_n_n).rhsIdx i q 0).val = (i 1).val := by
  unfold DotDims.rhsIdx
  rw [dif_neg (show ¬(0 : Fin S200x10000.rank) ∈ (dot_S10000x32_S200x10000_S32x200_0_1_1_0_n_n).rhsBatch by decide),
    dif_pos (show (0 : Fin S200x10000.rank) ∈ (dot_S10000x32_S200x10000_S32x200_0_1_1_0_n_n).rhsNonContracting by decide)]
  rfl
theorem rhs2_1 (i : S32x200.Idx) (q : (dot_S10000x32_S200x10000_S32x200_0_1_1_0_n_n).contr.Idx) :
    ((dot_S10000x32_S200x10000_S32x200_0_1_1_0_n_n).rhsIdx i q 1).val = (q ⟨0, by decide⟩).val :=
  (dot_S10000x32_S200x10000_S32x200_0_1_1_0_n_n).rhsIdx_val_of_single rfl i q

/-- Axis 0 of a [10000,32] array contracted with axis 1 of a [200,10000] block into the zero accumulator, at
    `(f, j)`: the sum over the 10000 contracted coordinates. -/
theorem matmul_gram_apply (s : Vec Ideal S10000x32 .f32) (a : Vec Ideal S200x10000 .f32) (f : Fin 32) (j : Fin 200) :
    matmul (F := Ideal) (φ₁ := .f32) (φ₂ := .f32) dot_S10000x32_S200x10000_S32x200_0_1_1_0_n_n none s a (constant S32x200 .f32 0x00000000#32)
      (ix2 f j) = ∑ mm : Fin 10000, s (ix2 mm f) * a (ix2 j mm) := by
  refine (Ideal.matmul_constant_zero_apply (φ₁ := .f32) (φ₂ := .f32) dot_S10000x32_S200x10000_S32x200_0_1_1_0_n_n none s a (ix2 f j)).trans ?_
  rw [← Equiv.sum_comp (contrEquiv1 dot_S10000x32_S200x10000_S32x200_0_1_1_0_n_n 10000 rfl rfl).symm]
  refine Finset.sum_congr rfl fun k _ => ?_
  have hk := contrEquiv1_symm_val dot_S10000x32_S200x10000_S32x200_0_1_1_0_n_n 10000 rfl rfl k
  have el : (dot_S10000x32_S200x10000_S32x200_0_1_1_0_n_n).lhsIdx (ix2 f j)
      ((contrEquiv1 dot_S10000x32_S200x10000_S32x200_0_1_1_0_n_n 10000 rfl rfl).symm k) = ix2 k f :=
    funext fun c => Fin.ext (by
      match c with
      | ⟨0, _⟩ => exact (lhs2_0 _ _).trans hk
      | ⟨1, _⟩ => exact lhs2_1 _ _)
  have er : (dot_S10000x32_S200x10000_S32x200_0_1_1_0_n_n).rhsIdx (ix2 f j)
      ((contrEquiv1 dot_S10000x32_S200x10000_S32x200_0_1_1_0_n_n 10000 rfl rfl).symm k) = ix2 j k :=
    funext fun c => Fin.ext (by
      match c with
      | ⟨0, _⟩ => exact rhs2_0 _ _
      | ⟨1, _⟩ => exact (rhs2_1 _ _).trans hk)
  rw [el, er]

/-- A sum over axis 0 of a [32,200] array from the zero word, at `j`: the sum over the 32 rows. -/
theorem lanesum_apply (x : FVec Ideal S32x200 .f32) (h : S32x200.Reduces [0] S200) (hφ : FKind.Formats .f32)
    (hacc : (0x00000000#32 : BitVec 32) = 0x00000000#32) (j : Fin 200) :
    multiReduction (F := Ideal) .add [0] S200 x 0x00000000#32 h hφ hacc (ix1 j) = ∑ f : Fin 32, x (ix2 f j) := by
  refine (Ideal.multiReduction_add_single x 0x00000000#32 h hφ hacc (ix1 j)).trans ?_
  show ∑ k : Fin 32, x (h.lift (ix1 j) k) = _
  refine Finset.sum_congr rfl fun k _ => congrArg x (funext fun c => Fin.ext ?_)
  match c with
  | ⟨0, _⟩ => rfl
  | ⟨1, _⟩ => rfl

/-- The row-sum payloads' term at `(0, j)`: the product, rectified against zero, summed over its 32 rows, and cast
    from [200] to [1,200]. -/
theorem rowsum_apply (s : Vec Ideal S10000x32 .f32) (a : Vec Ideal S200x10000 .f32) (j : Fin 200)
    (h1 : S200x10000.ShapeCasts S200x10000) (hred : S32x200.Reduces [0] S200) (hφ : FKind.Formats .f32)
    (hacc : (0x00000000#32 : BitVec 32) = 0x00000000#32) (h2 : S200.ShapeCasts S1x200) (h3 : S1x200.ShapeCasts S1x200) :
    shapeCast S1x200 (shapeCast S1x200 (multiReduction (F := Ideal) .add [0] S200
        (maximumf (matmul (F := Ideal) (φ₁ := .f32) (φ₂ := .f32) dot_S10000x32_S200x10000_S32x200_0_1_1_0_n_n none s
            (shapeCast S200x10000 a h1) (constant S32x200 .f32 0x00000000#32))
          (broadcast S32x200 (Scalar.ofBits (F := Ideal) .f32 0x00000000#32)))
        0x00000000#32 hred hφ hacc) h2) h3 (ix2 (0 : Fin 1) j)
      = ∑ f : Fin 32, max (∑ mm : Fin 10000, s (ix2 mm f) * a (ix2 j mm)) 0 := by
  rw [shapeCast_self _ h3, shapeCast_self a h1]
  refine (shapeCast_a_1a_apply _ h2 (0 : Fin 1) j).trans ?_
  refine (lanesum_apply _ hred hφ hacc j).trans ?_
  refine Finset.sum_congr rfl fun f _ => ?_
  rw [maximumf_apply, broadcast_apply, matmul_gram_apply]
  show max _ (Ideal.ofBits .f32 0x00000000#32) = _
  rw [Ideal.ofBits_zero_f32]

/-- `k0_pay2`: the row sums against the first window's block. -/
theorem pay2_apply (s : Vec Ideal S10000x32 .f32) (a : Vec Ideal S200x10000 .f32) (j : Fin 200) :
    k0_pay2 (F := Ideal) s a (ix2 (0 : Fin 1) j)
      = ∑ f : Fin 32, max (∑ mm : Fin 10000, s (ix2 mm f) * a (ix2 j mm)) 0 := by
  unfold k0_pay2
  exact rowsum_apply s a j _ _ _ _ _ _

/-- `k0_pay3`: the row sums against the second window's block. -/
theorem pay3_apply (s : Vec Ideal S10000x32 .f32) (a : Vec Ideal S200x10000 .f32) (j : Fin 200) :
    k0_pay3 (F := Ideal) s a (ix2 (0 : Fin 1) j)
      = ∑ f : Fin 32, max (∑ mm : Fin 10000, s (ix2 mm f) * a (ix2 j mm)) 0 := by
  unfold k0_pay3
  exact rowsum_apply s a j _ _ _ _ _ _

/-! ## The read-out payloads -/

/-- `k0_pay4`: an accumulator, then 4 row-by-block products added left to right. -/
theorem pay4_apply (v216 : FVec Ideal S1x32 .f32) (v217 : Vec Ideal S1x200 .f32) (v218 : Vec Ideal S200x32 .f32) (v221 : Vec Ideal S1x200 .f32) (v222 : Vec Ideal S200x32 .f32) (v225 : Vec Ideal S1x200 .f32) (v226 : Vec Ideal S200x32 .f32) (v229 : Vec Ideal S1x200 .f32) (v230 : Vec Ideal S200x32 .f32) (l : Fin 32) :
    k0_pay4 (F := Ideal) v216 v217 v218 v221 v222 v225 v226 v229 v230 (ix2 (0 : Fin 1) l)
      = v216 (ix2 (0 : Fin 1) l) + dot v217 v218 l + dot v221 v222 l + dot v225 v226 l + dot v229 v230 l := by
  unfold k0_pay4
  exact ((step_apply _ v229 v230 l).trans (congrArg (· + dot v229 v230 l)
    ((step_apply _ v225 v226 l).trans (congrArg (· + dot v225 v226 l)
    ((step_apply _ v221 v222 l).trans (congrArg (· + dot v221 v222 l)
    (step_apply _ v217 v218 l)))))))

/-- `k0_pay5`: a shape cast of the accumulator to its own shape, then 6 row-by-block products added left to right. -/
theorem pay5_apply (v31 : Vec Ideal S1x32 .f32) (v33 : Vec Ideal S1x200 .f32) (v34 : Vec Ideal S200x32 .f32) (v37 : Vec Ideal S1x200 .f32) (v38 : Vec Ideal S200x32 .f32) (v41 : Vec Ideal S1x200 .f32) (v42 : Vec Ideal S200x32 .f32) (v45 : Vec Ideal S1x200 .f32) (v46 : Vec Ideal S200x32 .f32) (v49 : Vec Ideal S1x200 .f32) (v50 : Vec Ideal S200x32 .f32) (v53 : Vec Ideal S1x200 .f32) (v54 : Vec Ideal S200x32 .f32) (l : Fin 32) :
    k0_pay5 (F := Ideal) v31 v33 v34 v37 v38 v41 v42 v45 v46 v49 v50 v53 v54 (ix2 (0 : Fin 1) l)
      = v31 (ix2 (0 : Fin 1) l) + dot v33 v34 l + dot v37 v38 l + dot v41 v42 l + dot v45 v46 l + dot v49 v50 l + dot v53 v54 l := by
  unfold k0_pay5
  exact ((step_apply _ v53 v54 l).trans (congrArg (· + dot v53 v54 l)
    ((step_apply _ v49 v50 l).trans (congrArg (· + dot v49 v50 l)
    ((step_apply _ v45 v46 l).trans (congrArg (· + dot v45 v46 l)
    ((step_apply _ v41 v42 l).trans (congrArg (· + dot v41 v42 l)
    ((step_apply _ v37 v38 l).trans (congrArg (· + dot v37 v38 l)
    ((step_apply _ v33 v34 l).trans (congrArg (· + dot v33 v34 l)
    (congrFun (shapeCast_self v31 _) (ix2 (0 : Fin 1) l))))))))))))))

/-- `k0_pay6`: an accumulator, then 6 row-by-block products added left to right. -/
theorem pay6_apply (v56 : FVec Ideal S1x32 .f32) (v57 : Vec Ideal S1x200 .f32) (v58 : Vec Ideal S200x32 .f32) (v61 : Vec Ideal S1x200 .f32) (v62 : Vec Ideal S200x32 .f32) (v65 : Vec Ideal S1x200 .f32) (v66 : Vec Ideal S200x32 .f32) (v69 : Vec Ideal S1x200 .f32) (v70 : Vec Ideal S200x32 .f32) (v73 : Vec Ideal S1x200 .f32) (v74 : Vec Ideal S200x32 .f32) (v77 : Vec Ideal S1x200 .f32) (v78 : Vec Ideal S200x32 .f32) (l : Fin 32) :
    k0_pay6 (F := Ideal) v56 v57 v58 v61 v62 v65 v66 v69 v70 v73 v74 v77 v78 (ix2 (0 : Fin 1) l)
      = v56 (ix2 (0 : Fin 1) l) + dot v57 v58 l + dot v61 v62 l + dot v65 v66 l + dot v69 v70 l + dot v73 v74 l + dot v77 v78 l := by
  unfold k0_pay6
  exact ((step_apply _ v77 v78 l).trans (congrArg (· + dot v77 v78 l)
    ((step_apply _ v73 v74 l).trans (congrArg (· + dot v73 v74 l)
    ((step_apply _ v69 v70 l).trans (congrArg (· + dot v69 v70 l)
    ((step_apply _ v65 v66 l).trans (congrArg (· + dot v65 v66 l)
    ((step_apply _ v61 v62 l).trans (congrArg (· + dot v61 v62 l)
    (step_apply _ v57 v58 l)))))))))))

/-- `k0_pay7`: a single row-by-block product. -/
theorem pay7_apply (v81 : Vec Ideal S1x200 .f32) (v82 : Vec Ideal S200x32 .f32) (l : Fin 32) :
    k0_pay7 (F := Ideal) v81 v82 (ix2 (0 : Fin 1) l)
      = dot v81 v82 l :=
  matmul_row_apply v81 v82 l

/-- `k0_pay8`: the sum of two accumulators, then 6 row-by-block products added left to right. -/
theorem pay8_apply (v80 : FVec Ideal S1x32 .f32) (v83 : FVec Ideal S1x32 .f32) (v85 : Vec Ideal S1x200 .f32) (v86 : Vec Ideal S200x32 .f32) (v89 : Vec Ideal S1x200 .f32) (v90 : Vec Ideal S200x32 .f32) (v93 : Vec Ideal S1x200 .f32) (v94 : Vec Ideal S200x32 .f32) (v97 : Vec Ideal S1x200 .f32) (v98 : Vec Ideal S200x32 .f32) (v101 : Vec Ideal S1x200 .f32) (v102 : Vec Ideal S200x32 .f32) (v105 : Vec Ideal S1x200 .f32) (v106 : Vec Ideal S200x32 .f32) (l : Fin 32) :
    k0_pay8 (F := Ideal) v80 v83 v85 v86 v89 v90 v93 v94 v97 v98 v101 v102 v105 v106 (ix2 (0 : Fin 1) l)
      = v80 (ix2 (0 : Fin 1) l) + v83 (ix2 (0 : Fin 1) l) + dot v85 v86 l + dot v89 v90 l + dot v93 v94 l + dot v97 v98 l + dot v101 v102 l + dot v105 v106 l := by
  unfold k0_pay8
  exact ((step_apply _ v105 v106 l).trans (congrArg (· + dot v105 v106 l)
    ((step_apply _ v101 v102 l).trans (congrArg (· + dot v101 v102 l)
    ((step_apply _ v97 v98 l).trans (congrArg (· + dot v97 v98 l)
    ((step_apply _ v93 v94 l).trans (congrArg (· + dot v93 v94 l)
    ((step_apply _ v89 v90 l).trans (congrArg (· + dot v89 v90 l)
    ((step_apply _ v85 v86 l).trans (congrArg (· + dot v85 v86 l)
    (addf_apply v80 v83 (ix2 (0 : Fin 1) l))))))))))))))

/-- `k0_pay9`: an accumulator, then 7 row-by-block products added left to right. -/
theorem pay9_apply (v108 : FVec Ideal S1x32 .f32) (v109 : Vec Ideal S1x200 .f32) (v110 : Vec Ideal S200x32 .f32) (v113 : Vec Ideal S1x200 .f32) (v114 : Vec Ideal S200x32 .f32) (v117 : Vec Ideal S1x200 .f32) (v118 : Vec Ideal S200x32 .f32) (v121 : Vec Ideal S1x200 .f32) (v122 : Vec Ideal S200x32 .f32) (v125 : Vec Ideal S1x200 .f32) (v126 : Vec Ideal S200x32 .f32) (v129 : Vec Ideal S1x200 .f32) (v130 : Vec Ideal S200x32 .f32) (v133 : Vec Ideal S1x200 .f32) (v134 : Vec Ideal S200x32 .f32) (l : Fin 32) :
    k0_pay9 (F := Ideal) v108 v109 v110 v113 v114 v117 v118 v121 v122 v125 v126 v129 v130 v133 v134 (ix2 (0 : Fin 1) l)
      = v108 (ix2 (0 : Fin 1) l) + dot v109 v110 l + dot v113 v114 l + dot v117 v118 l + dot v121 v122 l + dot v125 v126 l + dot v129 v130 l + dot v133 v134 l := by
  unfold k0_pay9
  exact ((step_apply _ v133 v134 l).trans (congrArg (· + dot v133 v134 l)
    ((step_apply _ v129 v130 l).trans (congrArg (· + dot v129 v130 l)
    ((step_apply _ v125 v126 l).trans (congrArg (· + dot v125 v126 l)
    ((step_apply _ v121 v122 l).trans (congrArg (· + dot v121 v122 l)
    ((step_apply _ v117 v118 l).trans (congrArg (· + dot v117 v118 l)
    ((step_apply _ v113 v114 l).trans (congrArg (· + dot v113 v114 l)
    (step_apply _ v109 v110 l)))))))))))))

/-- `k0_pay10`: an accumulator, then 6 row-by-block products added left to right. -/
theorem pay10_apply (v136 : FVec Ideal S1x32 .f32) (v137 : Vec Ideal S1x200 .f32) (v138 : Vec Ideal S200x32 .f32) (v141 : Vec Ideal S1x200 .f32) (v142 : Vec Ideal S200x32 .f32) (v145 : Vec Ideal S1x200 .f32) (v146 : Vec Ideal S200x32 .f32) (v149 : Vec Ideal S1x200 .f32) (v150 : Vec Ideal S200x32 .f32) (v153 : Vec Ideal S1x200 .f32) (v154 : Vec Ideal S200x32 .f32) (v157 : Vec Ideal S1x200 .f32) (v158 : Vec Ideal S200x32 .f32) (l : Fin 32) :
    k0_pay10 (F := Ideal) v136 v137 v138 v141 v142 v145 v146 v149 v150 v153 v154 v157 v158 (ix2 (0 : Fin 1) l)
      = v136 (ix2 (0 : Fin 1) l) + dot v137 v138 l + dot v141 v142 l + dot v145 v146 l + dot v149 v150 l + dot v153 v154 l + dot v157 v158 l := by
  unfold k0_pay10
  exact ((step_apply _ v157 v158 l).trans (congrArg (· + dot v157 v158 l)
    ((step_apply _ v153 v154 l).trans (congrArg (· + dot v153 v154 l)
    ((step_apply _ v149 v150 l).trans (congrArg (· + dot v149 v150 l)
    ((step_apply _ v145 v146 l).trans (congrArg (· + dot v145 v146 l)
    ((step_apply _ v141 v142 l).trans (congrArg (· + dot v141 v142 l)
    (step_apply _ v137 v138 l)))))))))))

/-- `k0_pay11`: a single row-by-block product. -/
theorem pay11_apply (v161 : Vec Ideal S1x200 .f32) (v162 : Vec Ideal S200x32 .f32) (l : Fin 32) :
    k0_pay11 (F := Ideal) v161 v162 (ix2 (0 : Fin 1) l)
      = dot v161 v162 l :=
  matmul_row_apply v161 v162 l

/-- `k0_pay12`: the sum of two accumulators, then 6 row-by-block products added left to right. -/
theorem pay12_apply (v160 : FVec Ideal S1x32 .f32) (v163 : FVec Ideal S1x32 .f32) (v165 : Vec Ideal S1x200 .f32) (v166 : Vec Ideal S200x32 .f32) (v169 : Vec Ideal S1x200 .f32) (v170 : Vec Ideal S200x32 .f32) (v173 : Vec Ideal S1x200 .f32) (v174 : Vec Ideal S200x32 .f32) (v177 : Vec Ideal S1x200 .f32) (v178 : Vec Ideal S200x32 .f32) (v181 : Vec Ideal S1x200 .f32) (v182 : Vec Ideal S200x32 .f32) (v185 : Vec Ideal S1x200 .f32) (v186 : Vec Ideal S200x32 .f32) (l : Fin 32) :
    k0_pay12 (F := Ideal) v160 v163 v165 v166 v169 v170 v173 v174 v177 v178 v181 v182 v185 v186 (ix2 (0 : Fin 1) l)
      = v160 (ix2 (0 : Fin 1) l) + v163 (ix2 (0 : Fin 1) l) + dot v165 v166 l + dot v169 v170 l + dot v173 v174 l + dot v177 v178 l + dot v181 v182 l + dot v185 v186 l := by
  unfold k0_pay12
  exact ((step_apply _ v185 v186 l).trans (congrArg (· + dot v185 v186 l)
    ((step_apply _ v181 v182 l).trans (congrArg (· + dot v181 v182 l)
    ((step_apply _ v177 v178 l).trans (congrArg (· + dot v177 v178 l)
    ((step_apply _ v173 v174 l).trans (congrArg (· + dot v173 v174 l)
    ((step_apply _ v169 v170 l).trans (congrArg (· + dot v169 v170 l)
    ((step_apply _ v165 v166 l).trans (congrArg (· + dot v165 v166 l)
    (addf_apply v160 v163 (ix2 (0 : Fin 1) l))))))))))))))

/-- `k0_pay13`: an accumulator, then 7 row-by-block products added left to right. -/
theorem pay13_apply (v188 : FVec Ideal S1x32 .f32) (v189 : Vec Ideal S1x200 .f32) (v190 : Vec Ideal S200x32 .f32) (v193 : Vec Ideal S1x200 .f32) (v194 : Vec Ideal S200x32 .f32) (v197 : Vec Ideal S1x200 .f32) (v198 : Vec Ideal S200x32 .f32) (v201 : Vec Ideal S1x200 .f32) (v202 : Vec Ideal S200x32 .f32) (v205 : Vec Ideal S1x200 .f32) (v206 : Vec Ideal S200x32 .f32) (v209 : Vec Ideal S1x200 .f32) (v210 : Vec Ideal S200x32 .f32) (v213 : Vec Ideal S1x200 .f32) (v214 : Vec Ideal S200x32 .f32) (l : Fin 32) :
    k0_pay13 (F := Ideal) v188 v189 v190 v193 v194 v197 v198 v201 v202 v205 v206 v209 v210 v213 v214 (ix2 (0 : Fin 1) l)
      = v188 (ix2 (0 : Fin 1) l) + dot v189 v190 l + dot v193 v194 l + dot v197 v198 l + dot v201 v202 l + dot v205 v206 l + dot v209 v210 l + dot v213 v214 l := by
  unfold k0_pay13
  exact ((step_apply _ v213 v214 l).trans (congrArg (· + dot v213 v214 l)
    ((step_apply _ v209 v210 l).trans (congrArg (· + dot v209 v210 l)
    ((step_apply _ v205 v206 l).trans (congrArg (· + dot v205 v206 l)
    ((step_apply _ v201 v202 l).trans (congrArg (· + dot v201 v202 l)
    ((step_apply _ v197 v198 l).trans (congrArg (· + dot v197 v198 l)
    ((step_apply _ v193 v194 l).trans (congrArg (· + dot v193 v194 l)
    (step_apply _ v189 v190 l)))))))))))))

end Cert.KernelIdeal.PayIdx

end
-- ==== Proof.Spec.lean ====
/-
  The mathematics of one graph-convolution layer followed by a row sum and a linear read-out, over the extended reals,
  in the two arrangements the two programs compute it in.

  With v : [1, N, D], adj : [1, N, N], W1 : [D, H], W_out : [N, L], b : [L]  (N = 10000, D = 128, H = 32, L = 32):
    support m f = Σ_d v m d · W1 d f
    x n         = Σ_f max (Σ_m adj n m · support m f) 0
    out l       = Σ_n x n · W_out n l + b l
  The blockwise arrangement forms the inner product with the factors in the other order (support m f · adj n m), and
  adds the read-out's 10000 terms onto b in 50 consecutive blocks of 200 rows, block after block.
-/
import Idealize.ShloMosaic.PureOps.Ideal
import Idealize.ShloMosaic.Lib.ValueIdx

noncomputable section

namespace Cert.Spec

open Idealize.ShloMosaic Idealize.ShloMosaic.ValueIdx

/-- The argument arrays' types, at the ideal instance (an entry is an extended real). -/
abbrev TV := (⟨3, ![1, 10000, 128]⟩ : Shape).Idx → EReal
abbrev TAdj := (⟨3, ![1, 10000, 10000]⟩ : Shape).Idx → EReal
abbrev TW1 := (⟨2, ![128, 32]⟩ : Shape).Idx → EReal
abbrev TWout := (⟨2, ![10000, 32]⟩ : Shape).Idx → EReal
abbrev TB := (⟨1, ![32]⟩ : Shape).Idx → EReal

/-- support m f = Σ_d v m d · W1 d f. -/
def support (v : TV) (W1 : TW1) (m : Fin 10000) (f : Fin 32) : EReal :=
  ∑ d : Fin 128, v (ix3 (0 : Fin 1) m d) * W1 (ix2 d f)

/-- The row sum of the rectified layer, the inner product taken as support · adj (the blockwise program's order). -/
def xK (v : TV) (adj : TAdj) (W1 : TW1) (n : Fin 10000) : EReal :=
  ∑ f : Fin 32, max (∑ m : Fin 10000, support v W1 m f * adj (ix3 (0 : Fin 1) n m)) 0

/-- The same with the inner product taken as adj · support (the plain program's order). -/
def xR (v : TV) (adj : TAdj) (W1 : TW1) (n : Fin 10000) : EReal :=
  ∑ f : Fin 32, max (∑ m : Fin 10000, adj (ix3 (0 : Fin 1) n m) * support v W1 m f) 0

/-- Row 200·r + j of the 10000, as an index (r < 50, j < 200). -/
def row (r : Fin 50) (j : Fin 200) : Fin 10000 := ⟨200 * r.val + j.val, by have := r.isLt; have := j.isLt; omega⟩

/-- Block r's contribution to the read-out at label l: Σ_j x (200 r + j) · W_out (200 r + j) l. -/
def blockTerm (v : TV) (adj : TAdj) (W1 : TW1) (Wout : TWout) (r : Fin 50) (l : Fin 32) : EReal :=
  ∑ j : Fin 200, xK v adj W1 (row r j) * Wout (ix2 (row r j) l)

/-- The blockwise accumulation: b l, then the first k blocks' terms added one after the other. -/
def accK (v : TV) (adj : TAdj) (W1 : TW1) (Wout : TWout) (b : TB) (l : Fin 32) : (k : Nat) → k ≤ 50 → EReal
  | 0, _ => b (ix1 l)
  | k + 1, h => accK v adj W1 Wout b l k (Nat.le_of_succ_le h) + blockTerm v adj W1 Wout ⟨k, h⟩ l

/-- The blockwise program's result at label l. -/
def outK (v : TV) (adj : TAdj) (W1 : TW1) (Wout : TWout) (b : TB) (l : Fin 32) : EReal :=
  accK v adj W1 Wout b l 50 (Nat.le_refl _)

/-- The plain program's result at label l. -/
def outR (v : TV) (adj : TAdj) (W1 : TW1) (Wout : TWout) (b : TB) (l : Fin 32) : EReal :=
  (∑ n : Fin 10000, xR v adj W1 n * Wout (ix2 n l)) + b (ix1 l)

end Cert.Spec

end
-- ==== Proof.KI.OutVal.lean ====
/-
  The blockwise program's result over the extended reals.  Read at an index, the product scratch is the support, a row
  of the 50×200 table is the rectified layer's row sums of a block of 200 nodes, and the read-out adds onto the bias the
  50 blocks' terms one after the other: the blockwise arrangement of the specification.
-/
import proofs.«133468_g27616639713709_cont_9to1_57_31_alg».proof.Proof.KI.Final
import proofs.«133468_g27616639713709_cont_9to1_57_31_alg».proof.Proof.KI.Blocks
import proofs.«133468_g27616639713709_cont_9to1_57_31_alg».proof.Proof.PayIdx
import proofs.«133468_g27616639713709_cont_9to1_57_31_alg».proof.Proof.Spec

set_option maxRecDepth 16384

noncomputable section

namespace Cert.KernelIdeal.Fr

open Cert.KernelIdeal Cert.KernelIdeal.Gen Cert.KernelIdeal.PayIdx
open Idealize.ShloMosaic Idealize.ShloMosaic.TcCoe Idealize.ShloMosaic.Tactic Idealize.ShloMosaic.ValueIdx
open Idealize.SL Idealize.SL.Sem

variable (m : (ℓ : Loc nD τ sig) → Buf (Elt Ideal) ℓ)

/-- The product scratch at an index is the support. -/
theorem sup_apply (c : Dev nD) (mm : Fin 10000) (f : Fin 32) :
    (sup m c : S10000x32.Idx → EReal) (ix2 mm f) = Cert.Spec.support (m ((c : Thread nD τ).loc main_arg0)) (m ((c : Thread nD τ).loc main_arg2)) mm f := by
  unfold sup
  rw [iblk2_eq m c t0, iblk3_eq m c t0, pay1_apply]
  unfold Cert.Spec.support
  refine Finset.sum_congr rfl fun d _ => ?_
  rw [V_v0, V_main_arg2]

theorem rowA_apply (c : Dev nD) (t : Fin cfg0.N) (j : Fin 200) (hb : 200 * t.val + j.val < 10000) :
    (rowA m c t : S1x200.Idx → EReal) (ix2 (0 : Fin 1) j) = Cert.Spec.xK (m ((c : Thread nD τ).loc main_arg0)) (m ((c : Thread nD τ).loc main_arg1)) (m ((c : Thread nD τ).loc main_arg2)) ⟨200 * t.val + j.val, hb⟩ := by
  unfold rowA
  rw [pay2_apply]
  unfold Cert.Spec.xK
  refine Finset.sum_congr rfl fun f _ => ?_
  refine congrArg (fun x => max x 0) ?_
  refine Finset.sum_congr rfl fun mm _ => ?_
  rw [sup_apply, iblk0_apply, V_v1]

theorem rowB_apply (c : Dev nD) (t : Fin cfg0.N) (j : Fin 200) (hb : 200 * (25 + t.val) + j.val < 10000) :
    (rowB m c t : S1x200.Idx → EReal) (ix2 (0 : Fin 1) j) = Cert.Spec.xK (m ((c : Thread nD τ).loc main_arg0)) (m ((c : Thread nD τ).loc main_arg1)) (m ((c : Thread nD τ).loc main_arg2)) ⟨200 * (25 + t.val) + j.val, hb⟩ := by
  unfold rowB
  rw [pay3_apply]
  unfold Cert.Spec.xK
  refine Finset.sum_congr rfl fun f _ => ?_
  refine congrArg (fun x => max x 0) ?_
  refine Finset.sum_congr rfl fun mm _ => ?_
  rw [sup_apply, iblk1_apply, V_v1]

/-- Row r of the full table holds the row sums of nodes 200 r … 200 r + 199. -/
theorem Xfull_apply (c : Dev nD) (rr : Fin 50) (j : Fin 200) :
    (Xfull m c : S50x200.Idx → EReal) (ix2 rr j) = Cert.Spec.xK (m ((c : Thread nD τ).loc main_arg0)) (m ((c : Thread nD τ).loc main_arg1)) (m ((c : Thread nD τ).loc main_arg2)) (Cert.Spec.row rr j) := by
  have hr := rr.isLt
  have hj := j.isLt
  unfold Xfull
  by_cases h : rr.val < 25
  · rw [dif_pos (show ((ix2 rr j : S50x200.Idx) 0).val < 25 from h)]
    exact (rowA_apply m c ⟨rr.val, by rw [show cfg0.N = 25 from N_0]; exact h⟩ j (by show 200 * rr.val + j.val < 10000; omega)).trans rfl
  · rw [dif_neg (show ¬((ix2 rr j : S50x200.Idx) 0).val < 25 from h)]
    refine (rowB_apply m c ⟨rr.val - 25, by rw [show cfg0.N = 25 from N_0]; omega⟩ j (by show 200 * (25 + (rr.val - 25)) + j.val < 10000; omega)).trans ?_
    refine congrArg (Cert.Spec.xK (m ((c : Thread nD τ).loc main_arg0)) (m ((c : Thread nD τ).loc main_arg1)) (m ((c : Thread nD τ).loc main_arg2))) (Fin.ext ?_)
    show 200 * (25 + (rr.val - 25)) + j.val = 200 * rr.val + j.val
    omega

/-- A row of the table times the matching 200 rows of W_out is a block's term of the read-out. -/
theorem term_eq (c : Dev nD) (l : Fin 32) (t4 : Fin cfg0.N) (mr9 : Memref sig .tc .vmem S50x200 .f32) (h9 : mr9.IsWhole)
    (mr5 : Memref sig .tc .vmem S10000x32 .f32) (h5 : mr5.IsWhole) (rr o : ℕ) (hrr : rr < 50) (ho : o = 200 * rr)
    (inbR : ∀ a, (![rr, 0] : Fin 2 → ℕ) a + S1x200.size a ≤ S50x200.size a)
    (inbW : ∀ a, (![o, 0] : Fin 2 → ℕ) a + S200x32.size a ≤ S10000x32.size a) :
    dot (View.readAt (Elt Ideal) mr9.view (Rect.unit (s := S50x200) ![rr, 0] S1x200.size inbR).toLoadRect (h9.unread (Xfull m c)))
        (View.readAt (Elt Ideal) mr5.view (Rect.unit (s := S10000x32) ![o, 0] S200x32.size inbW).toLoadRect (h5.unread (iblk m c 4 t4))) l
      = Cert.Spec.blockTerm (m ((c : Thread nD τ).loc main_arg0)) (m ((c : Thread nD τ).loc main_arg1)) (m ((c : Thread nD τ).loc main_arg2)) (m ((c : Thread nD τ).loc main_arg3)) ⟨rr, hrr⟩ l := by
  subst ho
  unfold dot Cert.Spec.blockTerm
  refine Finset.sum_congr rfl fun j _ => ?_
  have hj := j.isLt
  rw [View.readAt_eq_ld, View.readAt_eq_ld, h9.read_unread, h5.read_unread]
  have e1 : (Rect.unit (s := S50x200) ![rr, 0] S1x200.size inbR).idx (ix2 (0 : Fin 1) j) = ix2 (⟨rr, hrr⟩ : Fin 50) j :=
    funext fun a => Fin.ext (by
      match a with
      | ⟨0, _⟩ => show rr + 1 * 0 = rr; omega
      | ⟨1, _⟩ => show 0 + 1 * j.val = j.val; omega)
  have e2 : (Rect.unit (s := S10000x32) ![200 * rr, 0] S200x32.size inbW).idx (ix2 j l) = ix2 (Cert.Spec.row ⟨rr, hrr⟩ j) l :=
    funext fun a => Fin.ext (by
      match a with
      | ⟨0, _⟩ => show 200 * rr + 1 * j.val = 200 * rr + j.val; omega
      | ⟨1, _⟩ => show 0 + 1 * l.val = l.val; omega)
  show (Xfull m c : S50x200.Idx → EReal) ((Rect.unit (s := S50x200) ![rr, 0] S1x200.size inbR).idx (ix2 (0 : Fin 1) j))
      * (iblk m c 4 t4 : S10000x32.Idx → EReal) ((Rect.unit (s := S10000x32) ![200 * rr, 0] S200x32.size inbW).idx (ix2 j l)) = _
  rw [e1, e2, Xfull_apply, iblk4_eq, V_main_arg3]

theorem bias_apply (c : Dev nD) (t : Fin cfg0.N) (l : Fin 32) :
    (iblk m c 5 t : S1x32.Idx → EReal) (ix2 (0 : Fin 1) l) = (m ((c : Thread nD τ).loc main_arg4)) (ix1 l) := by
  rw [iblk5_eq, V_v2]

set_option maxHeartbeats 4000000 in
/-- What the last point's one store leaves, at entry l: the blockwise arrangement of the specification at l. -/
theorem outC_apply (c : Dev nD) (arg1 : Memref sig .tc .vmem S200x10000 .f32) (harg1 : arg1.IsWhole) (arg2 : Memref sig .tc .vmem S200x10000 .f32) (harg2 : arg2.IsWhole) (arg3 : Memref sig .tc .vmem S10000x128 .f32) (harg3 : arg3.IsWhole) (arg4 : Memref sig .tc .vmem S128x32 .f32) (harg4 : arg4.IsWhole) (arg5 : Memref sig .tc .vmem S10000x32 .f32) (harg5 : arg5.IsWhole) (arg6 : Memref sig .tc .vmem S1x32 .f32) (harg6 : arg6.IsWhole) (arg7 : Memref sig .tc .vmem S1x32 .f32) (harg7 : arg7.IsWhole) (arg8 : Memref sig .tc .vmem S10000x32 .f32) (harg8 : arg8.IsWhole) (arg9 : Memref sig .tc .vmem S50x200 .f32) (harg9 : arg9.IsWhole) (hc0 : ¬cond0_0 (grid0.coords t24)) (hc1 : cond0_1 (grid0.coords t24))
    (x2 : Vec Ideal S10000x128 .f32) (x3 : Vec Ideal S128x32 .f32) (l : Fin 32) :
    View.canon (kernelRun0_C c (grid0.coords t24) arg1 harg1 arg2 harg2 arg3 harg3 arg4 harg4 arg5 harg5 arg6 harg6 arg7 harg7 arg8 harg8 arg9 harg9 hc0 hc1 (iblk m c 0 t24) (iblk m c 1 t24) x2 x3
        (iblk m c 4 t24) (iblk m c 5 t24) (sup m c) (Xfull m c)).1 (ix2 (0 : Fin 1) l)
      = Cert.Spec.outK (m ((c : Thread nD τ).loc main_arg0)) (m ((c : Thread nD τ).loc main_arg1)) (m ((c : Thread nD τ).loc main_arg2)) (m ((c : Thread nD τ).loc main_arg3)) (m ((c : Thread nD τ).loc main_arg4)) l := by
  have hW' := writes_full m c (Xfull m c) (known_full m c 23) arg9 harg9
  unfold pcsAt rowA rowB at hW'
  unfold kernelRun0_C; dsimp only
  rw [View.canon_unit_zero hz]
  sl_unfold_run_names
  simp only [readAt_whole, hW']
  simp only [pay4_apply, pay13_apply, pay12_apply, pay11_apply, pay10_apply, pay9_apply, pay8_apply, pay7_apply, pay6_apply, pay5_apply]
  simp (disch := decide) only [term_eq m c l t24]
  rw [bias_apply]
  simp only [Cert.Spec.outK, Cert.Spec.accK]

/-- The result array's entry l is the blockwise arrangement of the specification at l. -/
theorem out24_apply (c : Dev nD) (l : Fin 32) :
    (out24 m c : S1x32.Idx → EReal) (ix2 (0 : Fin 1) l) = Cert.Spec.outK (m ((c : Thread nD τ).loc main_arg0)) (m ((c : Thread nD τ).loc main_arg1)) (m ((c : Thread nD τ).loc main_arg2)) (m ((c : Thread nD τ).loc main_arg3)) (m ((c : Thread nD τ).loc main_arg4)) l := by
  unfold out24
  rw [View.read_writes_eq_canon _ _ _ (cover0_C_6 c _ _ _ _ _ _ _ _ _ _ _ _ _ _ _ _ _ _ _ _ _ _ _ _ _ _ _ _ _)]
  exact outC_apply m c _ _ _ _ _ _ _ _ _ _ _ _ _ _ _ _ _ _ hc0_24 hc1_24 _ _ l

theorem out24_eq (c : Dev nD) :
    (out24 m c : S1x32.Idx → EReal) = fun i => Cert.Spec.outK (m ((c : Thread nD τ).loc main_arg0)) (m ((c : Thread nD τ).loc main_arg1)) (m ((c : Thread nD τ).loc main_arg2)) (m ((c : Thread nD τ).loc main_arg3)) (m ((c : Thread nD τ).loc main_arg4)) (i 1) := by
  funext i
  obtain ⟨p, q, rfl⟩ : ∃ (p : Fin 1) (q : Fin 32), i = ix2 p q := ⟨i 0, i 1, eq_ix2 i⟩
  obtain rfl : p = 0 := Subsingleton.elim _ _
  exact out24_apply m c q

end Cert.KernelIdeal.Fr

end
-- ==== Proof.SpecLaw.lean ====
/-
  The two arrangements of the specification agree: over the extended reals the blockwise result equals the plain one.
  Only the additive commutative monoid structure of the extended reals and the commutativity of their multiplication
  are used (no distributivity, no finiteness).
-/
import proofs.«133468_g27616639713709_cont_9to1_57_31_alg».proof.Proof.Spec
import Idealize.ShloMosaic.Lib.ValueIdx

noncomputable section

namespace Cert.ReferenceIdeal.RefValue

open Cert.Spec Idealize.ShloMosaic Idealize.ShloMosaic.ValueIdx

/-- The two orders of the inner product's factors give the same row sum: multiplication commutes. -/
theorem xK_eq_xR (v : TV) (adj : TAdj) (W1 : TW1) (n : Fin 10000) : xK v adj W1 n = xR v adj W1 n := by
  unfold xK xR
  refine Finset.sum_congr rfl fun f _ => ?_
  congr 1
  exact Finset.sum_congr rfl fun m _ => mul_comm _ _

/-- After k blocks the accumulator is b l plus the sum of the first k blocks' terms. -/
theorem accK_eq_sum (v : TV) (adj : TAdj) (W1 : TW1) (Wout : TWout) (b : TB) (l : Fin 32) :
    ∀ (k : Nat) (h : k ≤ 50), accK v adj W1 Wout b l k h
      = b (ix1 l) + ∑ r : Fin k, blockTerm v adj W1 Wout ⟨r.val, lt_of_lt_of_le r.isLt h⟩ l
  | 0, _ => by rw [accK, Finset.univ_eq_empty, Finset.sum_empty, add_zero]
  | k + 1, h => by
    rw [accK, accK_eq_sum v adj W1 Wout b l k (Nat.le_of_succ_le h), Fin.sum_univ_castSucc, add_assoc]
    rfl

/-- (r, j) ↦ 200 r + j is a bijection between the 50 × 200 block positions and the 10000 rows. -/
def rowEquiv : Fin 50 × Fin 200 ≃ Fin 10000 where
  toFun p := row p.1 p.2
  invFun n := (⟨n.val / 200, by have := n.isLt; omega⟩, ⟨n.val % 200, Nat.mod_lt _ (by norm_num)⟩)
  left_inv p := by
    obtain ⟨r, j⟩ := p
    have hr := r.isLt
    have hj := j.isLt
    refine Prod.ext (Fin.ext ?_) (Fin.ext ?_)
    · show (200 * r.val + j.val) / 200 = r.val
      omega
    · show (200 * r.val + j.val) % 200 = j.val
      omega
  right_inv n := by
    refine Fin.ext ?_
    show 200 * (n.val / 200) + n.val % 200 = n.val
    omega

/-- A sum over the blocks of the sums over a block's rows is the sum over all rows. -/
theorem sum_blocks {M : Type*} [AddCommMonoid M] (f : Fin 10000 → M) :
    ∑ r : Fin 50, ∑ j : Fin 200, f (row r j) = ∑ n : Fin 10000, f n := by
  rw [← Equiv.sum_comp rowEquiv f, Fintype.sum_prod_type]
  rfl

/-- The blockwise arrangement's result is the plain arrangement's. -/
theorem outK_eq_outR (v : TV) (adj : TAdj) (W1 : TW1) (Wout : TWout) (b : TB) (l : Fin 32) :
    outK v adj W1 Wout b l = outR v adj W1 Wout b l := by
  unfold outK outR
  rw [accK_eq_sum, add_comm]
  congr 1
  unfold blockTerm
  rw [sum_blocks (fun n => xK v adj W1 n * Wout (ix2 n l))]
  exact Finset.sum_congr rfl fun n _ => by rw [xK_eq_xR]

end Cert.ReferenceIdeal.RefValue

end
-- ==== Proof.RefValue.lean ====
/-
  The plain program's value, read at an index, is the specification's plain arrangement: each operation of the
  generated read-at-an-index module is read at coordinates, from the first inner product up to the final addition.
-/
import proofs.«133468_g27616639713709_cont_9to1_57_31_alg».proof.Proof.Gen.ReferenceIdeal.Read
import proofs.«133468_g27616639713709_cont_9to1_57_31_alg».proof.Proof.Spec
import proofs.«133468_g27616639713709_cont_9to1_57_31_alg».proof.Proof.SpecLaw
import Idealize.ShloMosaic.PureOps.Ideal.Laws

noncomputable section

namespace Cert.ReferenceIdeal.RefValue

open Cert.ReferenceIdeal Cert.ReferenceIdeal.Gen Cert.ReferenceIdeal.Read Cert.Spec
open Idealize.ShloMosaic Idealize.ShloMosaic.ValueIdx

section
variable (x0 : (⟨S1x10000x128, .f32⟩ : BufTy).Contents (Elt Ideal))
  (x1 : (⟨S1x10000x10000, .f32⟩ : BufTy).Contents (Elt Ideal))
  (x2 : (⟨S128x32, .f32⟩ : BufTy).Contents (Elt Ideal))
  (x3 : (⟨S10000x32, .f32⟩ : BufTy).Contents (Elt Ideal))
  (x4 : (⟨S32, .f32⟩ : BufTy).Contents (Elt Ideal))

/-- The first inner product at (0, m, f) is support m f. -/
theorem v0_at (m : Fin 10000) (f : Fin 32) :
    val_main_v0 (F := Ideal) x0 x2 (ix3 (0 : Fin 1) m f) = support x0 x2 m f := by
  rw [val_main_v0_apply]
  unfold support
  refine Finset.sum_congr rfl fun d _ => ?_
  have e1 : lidx_main_v0 (ix3 (0 : Fin 1) m f) d = ix3 (0 : Fin 1) m d := by
    funext a; match a with | ⟨0, _⟩ => rfl | ⟨1, _⟩ => rfl | ⟨2, _⟩ => rfl
  have e2 : ridx_main_v0 (ix3 (0 : Fin 1) m f) d = ix2 d f := by
    funext a; match a with | ⟨0, _⟩ => rfl | ⟨1, _⟩ => rfl
  rw [e1, e2]

/-- The second inner product at (0, n, f) is Σ_m adj n m · support m f. -/
theorem v1_at (n : Fin 10000) (f : Fin 32) :
    val_main_v1 (F := Ideal) x0 x1 x2 (ix3 (0 : Fin 1) n f)
      = ∑ m : Fin 10000, x1 (ix3 (0 : Fin 1) n m) * support x0 x2 m f := by
  rw [val_main_v1_apply]
  refine Finset.sum_congr rfl fun m _ => ?_
  have e1 : lidx_main_v1 (ix3 (0 : Fin 1) n f) m = ix3 (0 : Fin 1) n m := by
    funext a; match a with | ⟨0, _⟩ => rfl | ⟨1, _⟩ => rfl | ⟨2, _⟩ => rfl
  have e2 : ridx_main_v1 (ix3 (0 : Fin 1) n f) m = ix3 (0 : Fin 1) m f := by
    funext a; match a with | ⟨0, _⟩ => rfl | ⟨1, _⟩ => rfl | ⟨2, _⟩ => rfl
  rw [e1, e2, v0_at]

/-- The rectified layer at (0, n, f): the maximum with the broadcast zero. -/
theorem v2_at (n : Fin 10000) (f : Fin 32) :
    val_main_v2 (F := Ideal) x0 x1 x2 (ix3 (0 : Fin 1) n f)
      = max (∑ m : Fin 10000, x1 (ix3 (0 : Fin 1) n m) * support x0 x2 m f) 0 := by
  rw [val_main_v2_apply, v1_at, val_main_call0_v0_apply, val_main_call0_cst_apply]
  show max _ (Ideal.ofBits .f32 0x00000000#32) = _
  rw [Ideal.ofBits_zero_f32]

/-- The row sum at (0, n) is xR n. -/
theorem v3_at (n : Fin 10000) :
    val_main_v3 (F := Ideal) x0 x1 x2 (ix2 (0 : Fin 1) n) = xR x0 x1 x2 n := by
  rw [val_main_v3_apply, val_main_cst_apply]
  show Ideal.ofBits .f32 0x00000000#32 + _ = _
  rw [Ideal.ofBits_zero_f32, zero_add]
  unfold xR
  refine Finset.sum_congr rfl fun f _ => ?_
  have e : idx_main_v3 (ix2 (0 : Fin 1) n) f = ix3 (0 : Fin 1) n f := by
    funext a; match a with | ⟨0, _⟩ => rfl | ⟨1, _⟩ => rfl | ⟨2, _⟩ => rfl
  rw [e, v2_at]

/-- The read-out's inner product at (0, l) is Σ_n xR n · W_out n l. -/
theorem v4_at (l : Fin 32) :
    val_main_v4 (F := Ideal) x0 x1 x2 x3 (ix2 (0 : Fin 1) l)
      = ∑ n : Fin 10000, xR x0 x1 x2 n * x3 (ix2 n l) := by
  rw [val_main_v4_apply]
  refine Finset.sum_congr rfl fun n _ => ?_
  have e1 : lidx_main_v4 (ix2 (0 : Fin 1) l) n = ix2 (0 : Fin 1) n := by
    funext a; match a with | ⟨0, _⟩ => rfl | ⟨1, _⟩ => rfl
  have e2 : ridx_main_v4 (ix2 (0 : Fin 1) l) n = ix2 n l := by
    funext a; match a with | ⟨0, _⟩ => rfl | ⟨1, _⟩ => rfl
  rw [e1, e2, v3_at]

/-- The broadcast bias at (0, l) is b l. -/
theorem v5_at (l : Fin 32) :
    val_main_v5 (F := Ideal) x4 (ix2 (0 : Fin 1) l) = x4 (ix1 l) := by
  rw [val_main_v5_apply]
  have e : idx_main_v5 (ix2 (0 : Fin 1) l) = ix1 l := by
    funext a; match a with | ⟨0, _⟩ => rfl
  rw [e]

/-- The plain program's result at (0, l) is outR l. -/
theorem v6_at (l : Fin 32) :
    val_main_v6 (F := Ideal) x0 x1 x2 x3 x4 (ix2 (0 : Fin 1) l) = outR x0 x1 x2 x3 x4 l := by
  rw [val_main_v6_apply, v4_at, v5_at]
  rfl

/-- The plain program's value is the specification's plain arrangement, index by index. -/
theorem ref_is_spec :
    val_main_v6 (F := Ideal) x0 x1 x2 x3 x4 = fun i => outR x0 x1 x2 x3 x4 (i 1) := by
  funext i
  obtain ⟨a, l, rfl⟩ : ∃ (a : Fin 1) (l : Fin 32), i = ix2 a l := ⟨i 0, i 1, eq_ix2 i⟩
  obtain rfl : a = 0 := Subsingleton.elim _ _
  exact v6_at x0 x1 x2 x3 x4 l

end

end Cert.ReferenceIdeal.RefValue

end
-- ==== Proof.lean ====
/-
  A graph-convolution layer, a row sum and a linear read-out: relu(adj · (v · W1)) summed over its features, then
  times W_out plus b.  The blockwise program keeps the product v · W1 in a scratch from the first grid point on, fills a
  50×200 table of row sums two rows per point, and at the last point adds the 50 blocks' read-out terms onto the bias,
  block after block; the plain program computes the same sums in one piece.  Over the extended reals addition is
  commutative and associative and multiplication commutative, and the two arrangements agree on every input; nothing
  about finiteness is used.  The three frames: the two runs of the blockwise program (at the word level and over the
  extended reals) by the frame of a pipeline whose two adj windows share one array, and the plain program's by its
  run.  No operation was rewritten when the program was read over the extended reals, so nothing is owed for that.
-/
import proofs.«133468_g27616639713709_cont_9to1_57_31_alg».proof.Defs
import proofs.«133468_g27616639713709_cont_9to1_57_31_alg».proof.Proof.Gen.Kernel
import proofs.«133468_g27616639713709_cont_9to1_57_31_alg».proof.Proof.Gen.KernelIdeal
import proofs.«133468_g27616639713709_cont_9to1_57_31_alg».proof.Proof.Gen.ReferenceIdeal
import proofs.«133468_g27616639713709_cont_9to1_57_31_alg».proof.Proof.Gen.Pre_finite_inputs
import proofs.«133468_g27616639713709_cont_9to1_57_31_alg».proof.Proof.Gen.ReferenceIdeal.Run
import proofs.«133468_g27616639713709_cont_9to1_57_31_alg».proof.Proof.KB.Frame
import proofs.«133468_g27616639713709_cont_9to1_57_31_alg».proof.Proof.KI.OutVal
import proofs.«133468_g27616639713709_cont_9to1_57_31_alg».proof.Proof.RefValue
import Idealize.ShloMosaic.Adequacy
import Idealize.ShloMosaic.Init

noncomputable section

namespace Cert.Proof

open Idealize.ShloMosaic Idealize.ShloMosaic.TcCoe Idealize.SL.Sem

theorem frame_k : @Cert.frame_Kernel Cert.Kernel.Gen.facts Cert.Pre_finite_inputs.Gen.facts :=
  fun m ρ _ => Cert.Kernel.Fr.frame m ρ

theorem frame_ki : @Cert.frame_KernelIdeal Cert.KernelIdeal.Gen.facts Cert.Pre_finite_inputs.Gen.facts :=
  fun m ρ _ => Cert.KernelIdeal.Fr.frame m ρ

theorem frame_ri : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.Value.run (F := Ideal) m ρ)

/-- Both programs end with the specification's value at every label: the blockwise one in its blockwise arrangement,
    the plain one in the plain arrangement, and the two arrangements are equal. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Cert.KernelIdeal.Fr.out24 (F := Ideal) m c, Cert.KernelIdeal.Fr.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v6_eq, Cert.ReferenceIdeal.RefValue.ref_is_spec,
    (hagree c).1, (hagree c).2.1, (hagree c).2.2.1, (hagree c).2.2.2.1, (hagree c).2.2.2.2]
  refine Eq.trans ?_ (Cert.KernelIdeal.Fr.out24_eq m c).symm
  funext i
  exact (Cert.ReferenceIdeal.RefValue.outK_eq_outR _ _ _ _ _ (i 1)).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
